-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x64 : Shape := ⟨2, ![16384, 64]⟩
abbrev S16384 : Shape := ⟨1, ![16384]⟩
abbrev S1000000x64 : Shape := ⟨2, ![1000000, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x64 .f32) (main_arg1 : IVec S16384 32) (main_arg2 : FVec F S1000000x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 999999#32
  let main_v11 : IVec S16384 32 := broadcastInDim S16384 ![] bcast_S_S16384 main_c_3
  let main_v12 : IVec S16384 1 := cmpi .sle main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x64 : Shape := ⟨2, ![16384, 64]⟩
abbrev S16384 : Shape := ⟨1, ![16384]⟩
abbrev S1000000x64 : Shape := ⟨2, ![1000000, 64]⟩
abbrev S500000x128 : Shape := ⟨2, ![500000, 128]⟩
abbrev S_ : Shape := ⟨0, ![]⟩
abbrev S32x512 : Shape := ⟨2, ![32, 512]⟩
abbrev S512 : Shape := ⟨1, ![512]⟩
abbrev S256x128 : Shape := ⟨2, ![256, 128]⟩
abbrev S256x64 : Shape := ⟨2, ![256, 64]⟩
abbrev S1x512 : Shape := ⟨2, ![1, 512]⟩
abbrev S256 : Shape := ⟨1, ![256]⟩
abbrev S1 : Shape := ⟨1, ![1]⟩
abbrev S1x16 : Shape := ⟨2, ![1, 16]⟩
abbrev S16 : Shape := ⟨1, ![16]⟩
abbrev S1x128 : Shape := ⟨2, ![1, 128]⟩
abbrev S128 : Shape := ⟨1, ![128]⟩

abbrev nBuf : Table → Nat
  | .hbm => 14
  | .shared => 1
  | .local .scVector .smem => 1
  | .local .scVector .vmem => 3
  | _ => 0

abbrev bufTy : (tb : Table) → Fin (nBuf tb) → BufTy
  | .hbm, ⟨0, _⟩ => ⟨S16384x64, .f32⟩
  | .hbm, ⟨1, _⟩ => ⟨S16384, .i32⟩
  | .hbm, ⟨2, _⟩ => ⟨S1000000x64, .f32⟩
  | .hbm, ⟨3, _⟩ => ⟨S500000x128, .f32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384x64, .f32⟩
  | .shared, ⟨0, _⟩ => ⟨S32x512, .i32⟩
  | .local .scVector .smem, ⟨0, _⟩ => ⟨S512, .i32⟩
  | .local .scVector .vmem, ⟨0, _⟩ => ⟨S512, .i32⟩
  | .local .scVector .vmem, ⟨1, _⟩ => ⟨S256x128, .f32⟩
  | .local .scVector .vmem, ⟨2, _⟩ => ⟨S256x64, .f32⟩
  | _, _ => ⟨S16384x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v0_scv : Ref sig .scVector := ⟨.hbm, 3, rfl⟩
abbrev main_arg0_scv : Ref sig .scVector := ⟨.hbm, 0, rfl⟩
abbrev main_v2_scv : Ref sig .scVector := ⟨.hbm, 6, rfl⟩
abbrev main_v6_scv : Ref sig .scVector := ⟨.hbm, 12, rfl⟩
abbrev main_v7_scv : Ref sig .scVector := ⟨.hbm, 13, rfl⟩
abbrev cc0_scratch0 : Ref sig .scVector := ⟨.shared, 0, rfl⟩
abbrev cc0_scratch1 : Ref sig .scVector := ⟨.smem, 0, rfl⟩
abbrev cc0_scratch2 : Ref sig .scVector := ⟨.vmem, 0, rfl⟩
abbrev cc0_scratch3 : Ref sig .scVector := ⟨.vmem, 1, rfl⟩
abbrev cc0_scratch4 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  v2
def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29_r0 : BitVec 32 := 0#32
  ![v1.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  ![v3.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  let c0_i32 : BitVec 32 := 0#32
  let v4 : BitVec 32 := Scalar.addi v3 c0_i32
  v4
def k0_off3 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  let v4 : BitVec 32 := Scalar.addi v3 c0_i32
  let v5 : BitVec 32 := v4
  let c0_i32_0 : BitVec 32 := 0#32
  ![v5.toNat, 0]
@[reducible] def k0_t1_loop : Scf.Loop 32 :=
  let c0_i32_11 : BitVec 32 := 0#32
  let c256_i32 : BitVec 32 := 256#32
  let v14 : BitVec 32 := Scalar.addi c0_i32_11 c256_i32
  let c1_i32 : BitVec 32 := 1#32
  ⟨c0_i32_11, v14, c1_i32⟩
def k0_off4 (k0_t1 : Fin k0_t1_loop.trips) : Fin 1 → Nat :=
  let c0_i32_29 : BitVec 32 := 0#32
  let c0_i32_11 : BitVec 32 := 0#32
  let c1_i32 : BitVec 32 := 1#32
  let arg14 : BitVec 32 := Scf.iv c0_i32_11 c1_i32 k0_t1
  let v28 : BitVec 32 := Scalar.addi c0_i32_29 arg14
  let v29 : Index := Scalar.indexCast v28
  ![v29.toNat]
def k0_off5 (k0_t1 : Fin k0_t1_loop.trips) : Fin 2 → Nat :=
  let c0_i32_11 : BitVec 32 := 0#32
  let c1_i32 : BitVec 32 := 1#32
  let arg14 : BitVec 32 := Scf.iv c0_i32_11 c1_i32 k0_t1
  let v31 : Index := Scalar.indexCast arg14
  let c0 : Index := 0#32
  ![v31.toNat, 0]
def k0_off6 (k0_t1 : Fin k0_t1_loop.trips) : Fin 2 → Nat :=
  let c0_i32_11 : BitVec 32 := 0#32
  let c1_i32 : BitVec 32 := 1#32
  let arg14 : BitVec 32 := Scf.iv c0_i32_11 c1_i32 k0_t1
  let c0_i32_31 : BitVec 32 := 0#32
  ![arg14.toNat, 0]
def k0_off7 (v30 : BitVec 32) (c0_i32_30 : BitVec 32) : Fin 1 → Nat :=
  let v34 : BitVec 32 := Scalar.addi v30 c0_i32_30
  let v37 : Index := Scalar.indexCast v34
  ![v37.toNat]

def k0_chk1 (v30 : BitVec 32) : Prop :=
  (∀ (r : Fin 4), ∀ a, (k0_off7 v30 (BitVec.ofNat 32 (16 * r.val))) a + S16.size a ≤ S128.size a)
instance k0_chk1.dec : ∀ (v30 : BitVec 32), Decidable (k0_chk1 v30) := fun v30 => decidable_of_iff' _ (Iff.of_eq (k0_chk1.eq_1 v30))
theorem k0_off7_inb : ∀ (v30 : BitVec 32) (k0_hw1 : k0_chk1 v30), ∀ (r : Fin 4), ∀ a, (k0_off7 v30 (BitVec.ofNat 32 (16 * r.val))) a + S16.size a ≤ S128.size a := fun v30 k0_hw1 r => k0_hw1 r

def k0_off8 (k0_t1 : Fin k0_t1_loop.trips) : Fin 2 → Nat :=
  let c0_i32_11 : BitVec 32 := 0#32
  let c1_i32 : BitVec 32 := 1#32
  let arg14 : BitVec 32 := Scf.iv c0_i32_11 c1_i32 k0_t1
  let v41 : Index := Scalar.indexCast arg14
  let c0_32 : Index := 0#32
  ![v41.toNat, 0]
def k0_off9 (k0_t1 : Fin k0_t1_loop.trips) : Fin 2 → Nat :=
  let c0_i32_11 : BitVec 32 := 0#32
  let c1_i32 : BitVec 32 := 1#32
  let arg14 : BitVec 32 := Scf.iv c0_i32_11 c1_i32 k0_t1
  let v45 : Index := Scalar.indexCast arg14
  let c16 : Index := 16#32
  ![v45.toNat, 16]
def k0_off10 (k0_t1 : Fin k0_t1_loop.trips) : Fin 2 → Nat :=
  let c0_i32_11 : BitVec 32 := 0#32
  let c1_i32 : BitVec 32 := 1#32
  let arg14 : BitVec 32 := Scf.iv c0_i32_11 c1_i32 k0_t1
  let c0_i32_33 : BitVec 32 := 0#32
  ![arg14.toNat, 0]
def k0_off11 (k0_t1 : Fin k0_t1_loop.trips) : Fin 2 → Nat :=
  let c0_i32_11 : BitVec 32 := 0#32
  let c1_i32 : BitVec 32 := 1#32
  let arg14 : BitVec 32 := Scf.iv c0_i32_11 c1_i32 k0_t1
  let v59 : Index := Scalar.indexCast arg14
  let c32 : Index := 32#32
  ![v59.toNat, 32]
def k0_off12 (k0_t1 : Fin k0_t1_loop.trips) : Fin 2 → Nat :=
  let c0_i32_11 : BitVec 32 := 0#32
  let c1_i32 : BitVec 32 := 1#32
  let arg14 : BitVec 32 := Scf.iv c0_i32_11 c1_i32 k0_t1
  let v73 : Index := Scalar.indexCast arg14
  let c48 : Index := 48#32
  ![v73.toNat, 48]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := v2
  let c256_i32_13 : BitVec 32 := 256#32
  let v16 : BitVec 32 := Scalar.addi v3 c256_i32_13
  v16
@[reducible] def k0_t2_loop : Scf.Loop 32 :=
  let c0_i32_25 : BitVec 32 := 0#32
  let c256_i32_26 : BitVec 32 := 256#32
  let v26 : BitVec 32 := Scalar.addi c0_i32_25 c256_i32_26
  let c1_i32_27 : BitVec 32 := 1#32
  ⟨c0_i32_25, v26, c1_i32_27⟩
def k0_off13 (k0_t2 : Fin k0_t2_loop.trips) : Fin 1 → Nat :=
  let c256_i32_29 : BitVec 32 := 256#32
  let c0_i32_25 : BitVec 32 := 0#32
  let c1_i32_27 : BitVec 32 := 1#32
  let arg14 : BitVec 32 := Scf.iv c0_i32_25 c1_i32_27 k0_t2
  let v28 : BitVec 32 := Scalar.addi c256_i32_29 arg14
  let v29 : Index := Scalar.indexCast v28
  ![v29.toNat]
def k0_off14 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let v31 : Index := Scalar.indexCast arg14
  let c0 : Index := 0#32
  ![v31.toNat, 0]
def k0_off15 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c0_i32_31 : BitVec 32 := 0#32
  ![arg14.toNat, 0]
def k0_off16 (v30 : BitVec 32) (c0_i32_30 : BitVec 32) : Fin 1 → Nat :=
  let v34 : BitVec 32 := Scalar.addi v30 c0_i32_30
  let v37 : Index := Scalar.indexCast v34
  ![v37.toNat]

def k0_chk2 (v30 : BitVec 32) : Prop :=
  (∀ (r : Fin 4), ∀ a, (k0_off16 v30 (BitVec.ofNat 32 (16 * r.val))) a + S16.size a ≤ S128.size a)
instance k0_chk2.dec : ∀ (v30 : BitVec 32), Decidable (k0_chk2 v30) := fun v30 => decidable_of_iff' _ (Iff.of_eq (k0_chk2.eq_1 v30))
theorem k0_off16_inb : ∀ (v30 : BitVec 32) (k0_hw2 : k0_chk2 v30), ∀ (r : Fin 4), ∀ a, (k0_off16 v30 (BitVec.ofNat 32 (16 * r.val))) a + S16.size a ≤ S128.size a := fun v30 k0_hw2 r => k0_hw2 r

def k0_off17 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let v41 : Index := Scalar.indexCast arg14
  let c0_32 : Index := 0#32
  ![v41.toNat, 0]
def k0_off18 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let v45 : Index := Scalar.indexCast arg14
  let c16 : Index := 16#32
  ![v45.toNat, 16]
def k0_off19 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c0_i32_33 : BitVec 32 := 0#32
  ![arg14.toNat, 0]
def k0_off20 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let v59 : Index := Scalar.indexCast arg14
  let c32 : Index := 32#32
  ![v59.toNat, 32]
def k0_off21 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let v73 : Index := Scalar.indexCast arg14
  let c48 : Index := 48#32
  ![v73.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x64_S500000x128 : S1000000x64.ShapeCasts S500000x128
  bcast_S_S16384 : S_.BroadcastsInDim S16384 (![] : Fin 0 → Fin S16384.rank)
  squeezes_S1x512_S512 : S1x512.Squeezes S512
  inb_S512_S256_0 : ∀ a, (![0] : Fin 1 → Nat) a + S256.size a ≤ S512.size a
  inb_S500000x128_S500000x128_0_0 : ∀ a, (![0, 0] : Fin 2 → Nat) a + S500000x128.size a ≤ S500000x128.size a
  gathers_S500000x128_S256x128 : S500000x128.Gathers 0 S256x128
  numel1_S1 : S1.numel = 1
  h_S1x16 : 0 < S1x16.numel
  shapeCasts_S1x16_S16 : S1x16.ShapeCasts S16
  squeezes_S1x128_S128 : S1x128.Squeezes S128
  h_S16 : 0 < S16.numel
  shapeCasts_S16_S16 : S16.ShapeCasts S16
  shapeCasts_S16_S1x16 : S16.ShapeCasts S1x16
  inb_S512_S256_256 : ∀ a, (![256] : Fin 1 → Nat) a + S256.size a ≤ S512.size a
  hcc0_scratch5 : 0 + S_.numel ≤ 7
  hcc0_scratch6 : 1 + S_.numel ≤ 7
  hcc0_scoped0 : 2 + S_.numel ≤ 7
  hcc0_scoped1 : 3 + S_.numel ≤ 7
  hcc0_scoped2 : 4 + S_.numel ≤ 7
  hcc0_scoped3 : 5 + S_.numel ≤ 7
  hcc0_scoped4 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 512 ∣ (k0_mult1 i).toNat
  k0_off1_inb : ∀ i : grid0.Coords, ∀ a, (k0_off1 i) a + S1x512.size a ≤ S32x512.size a
  k0_off2_inb : ∀ i : grid0.Coords, ∀ a, (k0_off2 i) a + S512.size a ≤ S16384.size a
  k0_mult2_dvd : ∀ i : grid0.Coords, 256 ∣ (k0_mult2 i).toNat
  k0_off3_inb : ∀ i : grid0.Coords, ∀ (r : Fin 2), ∀ a, (k0_off3 i (BitVec.ofNat 32 (256 * r.val))) a + S256x64.size a ≤ S16384x64.size a
  k0_t1_ok : k0_t1_loop.OK
  k0_off4_inb : ∀ k0_t1 : Fin k0_t1_loop.trips, ∀ a, (k0_off4 k0_t1) a + S1.size a ≤ S512.size a
  k0_off5_inb : ∀ k0_t1 : Fin k0_t1_loop.trips, ∀ a, (k0_off5 k0_t1) a + S1x16.size a ≤ S256x64.size a
  k0_off6_inb : ∀ k0_t1 : Fin k0_t1_loop.trips, ∀ a, (k0_off6 k0_t1) a + S1x128.size a ≤ S256x128.size a
  k0_off8_inb : ∀ k0_t1 : Fin k0_t1_loop.trips, ∀ a, (k0_off8 k0_t1) a + S1x16.size a ≤ S256x64.size a
  k0_off9_inb : ∀ k0_t1 : Fin k0_t1_loop.trips, ∀ a, (k0_off9 k0_t1) a + S1x16.size a ≤ S256x64.size a
  k0_off10_inb : ∀ k0_t1 : Fin k0_t1_loop.trips, ∀ a, (k0_off10 k0_t1) a + S1x128.size a ≤ S256x128.size a
  k0_off11_inb : ∀ k0_t1 : Fin k0_t1_loop.trips, ∀ a, (k0_off11 k0_t1) a + S1x16.size a ≤ S256x64.size a
  k0_off12_inb : ∀ k0_t1 : Fin k0_t1_loop.trips, ∀ a, (k0_off12 k0_t1) a + S1x16.size a ≤ S256x64.size a
  k0_mult3_dvd : ∀ i : grid0.Coords, 256 ∣ (k0_mult3 i).toNat
  k0_t2_ok : k0_t2_loop.OK
  k0_off13_inb : ∀ k0_t2 : Fin k0_t2_loop.trips, ∀ a, (k0_off13 k0_t2) a + S1.size a ≤ S512.size a
  k0_off14_inb : ∀ k0_t2 : Fin k0_t2_loop.trips, ∀ a, (k0_off14 k0_t2) a + S1x16.size a ≤ S256x64.size a
  k0_off15_inb : ∀ k0_t2 : Fin k0_t2_loop.trips, ∀ a, (k0_off15 k0_t2) a + S1x128.size a ≤ S256x128.size a
  k0_off17_inb : ∀ k0_t2 : Fin k0_t2_loop.trips, ∀ a, (k0_off17 k0_t2) a + S1x16.size a ≤ S256x64.size a
  k0_off18_inb : ∀ k0_t2 : Fin k0_t2_loop.trips, ∀ a, (k0_off18 k0_t2) a + S1x16.size a ≤ S256x64.size a
  k0_off19_inb : ∀ k0_t2 : Fin k0_t2_loop.trips, ∀ a, (k0_off19 k0_t2) a + S1x128.size a ≤ S256x128.size a
  k0_off20_inb : ∀ k0_t2 : Fin k0_t2_loop.trips, ∀ a, (k0_off20 k0_t2) a + S1x16.size a ≤ S256x64.size a
  k0_off21_inb : ∀ k0_t2 : Fin k0_t2_loop.trips, ∀ a, (k0_off21 k0_t2) a + S1x16.size a ≤ S256x64.size a

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4

class Facts : Prop extends Facts₀ where

variable [Facts]
-- ==== ReferenceIdeal.lean ====
abbrev S16384x64 : Shape := ⟨2, ![16384, 64]⟩
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .i32⟩
  | .hbm, ⟨2, _⟩ => ⟨S1000000x64, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.Spec.lean ====
/-
  What both programs compute, as one function of the three argument arrays.

  The batch has 16384 rows of 64 numbers; each row carries a label, a row number of a table of 1000000 rows of
  64 numbers. The result's entry (b, d) is the batch's entry (b, d) times the table's entry (label of b, d).
  A label is read as a natural number and clamped onto the table's rows, so that the function is total; on labels
  that are row numbers (at most 999999) the clamp does nothing (`row_val`).
-/
import Idealize.ShloMosaic.PureOps
import Idealize.ShloMosaic.Lib.ValueIdx

namespace Cert.Spec

open Idealize.ShloMosaic Idealize.ShloMosaic.ValueIdx

/-- The batch and the result: 16384 rows of 64. -/
abbrev SB : Shape := ⟨2, ![16384, 64]⟩
/-- The labels: one per row of the batch. -/
abbrev SLab : Shape := ⟨1, ![16384]⟩
/-- The table: 1000000 rows of 64. -/
abbrev STab : Shape := ⟨2, ![1000000, 64]⟩

/-- The table row a label names, clamped onto the table. -/
def row (w : BitVec 32) : Fin 1000000 := ⟨min w.toNat 999999, by omega⟩

theorem row_val {w : BitVec 32} (h : w.toNat ≤ 999999) : (row w).val = w.toNat := by
  show min w.toNat 999999 = w.toNat
  omega

/-- Entry (b, d) of the result: the batch's entry times the table's entry in the row that b's label names. -/
def G {F : FTy → Type} [FloatOps F] (lat : FVec F SB .f32) (lab : IVec SLab 32) (tab : FVec F STab .f32) : FVec F SB .f32 :=
  fun i => FloatOps.mulf (lat i) (tab (ix2 (row (lab (ix1 (i 0)))) (i 1)))

/-- The labels are row numbers of the table. -/
def LabOK (lab : IVec SLab 32) : Prop := ∀ j, (lab j).toNat ≤ 999999

end Cert.Spec
-- ==== Proof.KI.Common.lean ====
/-
  The embedding lookup on the SparseCores: the program as the launch theorem sees it, the values @main computes before
  the call, who works on which rows, and what the call's handshakes carry.

  @main reads the table two rows at a time (500000 rows of 128), halves each label (the row of the paired table) and
  keeps 64 times its last bit (where in the paired row the label's own 64 numbers start). Each of the 32 vector subcores
  then takes 512 rows of the batch, fetches the paired rows its labels name, and multiplies, entry by entry, each row of
  the batch by the half of the paired row that is the label's own row of the table.
-/
import proofs.«206680_g87033217286338_cont_sun_m_31_32_alg».proof.KernelIdeal
import proofs.«206680_g87033217286338_cont_sun_m_31_32_alg».proof.Proof.Gen.KernelIdeal
import proofs.«206680_g87033217286338_cont_sun_m_31_32_alg».proof.Proof.Gen.KernelIdeal.Skeleton
import proofs.«206680_g87033217286338_cont_sun_m_31_32_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev latLoc (d : Dev nD) : Loc nD τ sig := (SparseCore.T d).loc main_arg0
abbrev labLoc (d : Dev nD) : Loc nD τ sig := (SparseCore.T d).loc main_arg1
abbrev tabLoc (d : Dev nD) : Loc nD τ sig := (SparseCore.T d).loc main_arg2
abbrev t2Loc (d : Dev nD) : Loc nD τ sig := (SparseCore.T d).loc main_v0
abbrev kLoc (d : Dev nD) : Loc nD τ sig := (SparseCore.T d).loc main_v2
abbrev offLoc (d : Dev nD) : Loc nD τ sig := (SparseCore.T d).loc main_v6
abbrev outLoc (d : Dev nD) : Loc nD τ sig := (SparseCore.T d).loc main_v7

variable [FloatOps F]

/-- The table's rows taken two at a time: 500000 rows of 128. -/
def vT2 (d : Dev nD) : Buf (Elt F) (t2Loc d) := shapeCast S500000x128 (m (tabLoc d)) shapeCasts_S1000000x64_S500000x128
/-- Half of each label: the row of the paired table. -/
def vK (d : Dev nD) : Buf (Elt F) (kLoc d) :=
  Host.shrui (m (labLoc d)) (broadcastInDim S16384 ![] bcast_S_S16384 (constantI S_ 32 1#32))
/-- 64 times each label's last bit: where in the paired row the label's own row starts. -/
def vOff (d : Dev nD) : Buf (Elt F) (offLoc d) :=
  muli (andi (m (labLoc d)) (broadcastInDim S16384 ![] bcast_S_S16384 (constantI S_ 32 1#32)))
    (broadcastInDim S16384 ![] bcast_S_S16384 (constantI S_ 32 64#32))
/-- What the result array ends at. -/
def vOut (d : Dev nD) : Buf (Elt F) (outLoc d) := Cert.Spec.G (m (latLoc d)) (m (labLoc d)) (m (tabLoc d))

/-! ## The arrays as the tiles address them -/

local notation "t2V" => (Memref.whole Cert.KernelIdeal.main_v0_scv : Memref Cert.KernelIdeal.sig Kind.scVector Space.hbm Cert.KernelIdeal.S500000x128 EltTy.f32)
local notation "latV" => (Memref.whole Cert.KernelIdeal.main_arg0_scv : Memref Cert.KernelIdeal.sig Kind.scVector Space.hbm Cert.KernelIdeal.S16384x64 EltTy.f32)
local notation "kV" => (Memref.whole Cert.KernelIdeal.main_v2_scv : Memref Cert.KernelIdeal.sig Kind.scVector Space.hbm Cert.KernelIdeal.S16384 EltTy.i32)
local notation "offV" => (Memref.whole Cert.KernelIdeal.main_v6_scv : Memref Cert.KernelIdeal.sig Kind.scVector Space.hbm Cert.KernelIdeal.S16384 EltTy.i32)
local notation "outV" => (Memref.whole Cert.KernelIdeal.main_v7_scv : Memref Cert.KernelIdeal.sig Kind.scVector Space.hbm Cert.KernelIdeal.S16384x64 EltTy.f32)
local notation "shV" => (Memref.whole Cert.KernelIdeal.cc0_scratch0 : Memref Cert.KernelIdeal.sig Kind.scVector Space.shared Cert.KernelIdeal.S32x512 EltTy.i32)

/-! ## Who works on what

The 16384 rows of the batch are cut into 32 blocks of 512 rows, one per vector subcore: subcore `i` of SparseCore `c`
works on block `2 i + c`. It works on its block in two chunks of 256 rows, so the result is cut into 64 chunks:
block `w` is chunks `2 w` and `2 w + 1`. Each SparseCore's shared scratch has 32 rows; the subcore working on block
`w` uses row `w` of its own SparseCore's. The arrays a subcore only reads it holds whole, at one of 32 read shares. -/

/-- The block of subcore `i` of SparseCore `c`. -/
def wid (c : Fin 2) (i : Fin 16) : Fin 32 := ⟨2 * i.val + c.val, by omega⟩
/-- Chunk `r` of block `w`. -/
def ch (w : Fin 32) (r : Fin 2) : Fin 64 := ⟨2 * w.val + r.val, by omega⟩
/-- The read share of the subcore working on block `w`. -/
abbrev tok (w : Fin 32) : PosShare TreeShare := Transfers.shareTok fullShare 32 w

theorem odiv : 64 ∣ S16384x64.size 0 := ⟨256, rfl⟩
theorem sdiv : 32 ∣ S32x512.size 0 := ⟨1, rfl⟩
/-- Chunk `j` of the result: rows `256 j` to `256 j + 255`. -/
abbrev oRect (j : Fin 64) : Rect S16384x64 := Rect.part (s := S16384x64) (a₀ := 0) odiv j
abbrev oSet (j : Fin 64) : Finset S16384x64.Idx := ((outV).view.slice (oRect j)).set
/-- Row `w` of a SparseCore's shared scratch. -/
abbrev shRect (w : Fin 32) : Rect S32x512 := Rect.part (s := S32x512) (a₀ := 0) sdiv w
abbrev shSet (w : Fin 32) : Finset S32x512.Idx := ((shV).view.slice (shRect w)).set
/-- SparseCore `c`'s shared scratch, as every subcore of it addresses it. -/
abbrev shRef (c : Fin τ.nSC) : DevRef τ sig := ⟨.shared, ⟨0, by decide⟩, c⟩
abbrev shLoc (d : Dev nD) (c : Fin τ.nSC) : Loc nD τ sig := (d, shRef c)

/-- The labels are rows of the table, on every device. -/
def LabOKm : Prop := ∀ d : Dev nD, Cert.Spec.LabOK (m (labLoc d))

/-! ## What the handshakes carry -/

/-- The four arrays a subcore only reads, whole, at the read share of block `w`: the paired table, the batch, the halved
    labels and the starts inside the paired rows — the last three as @main computed them from the arguments. -/
abbrev rdRes (d : Dev nD) (w : Fin 32) : sProp 𝕄 :=
  iprop((t2Loc d ↦{tok w} vT2 m d) ∗ (latLoc d ↦{tok w} m (latLoc d)) ∗ (kLoc d ↦{tok w} vK m d) ∗ (offLoc d ↦{tok w} vOff m d))
/-- The two chunks of block `w` of the result, at contents `f`. -/
abbrev outRes (d : Dev nD) (w : Fin 32) (f : Buf (Elt F) (outLoc d)) : sProp 𝕄 :=
  iprop((outLoc d ↦[oSet (ch w 0)]{fullShare} f) ∗ (outLoc d ↦[oSet (ch w 1)]{fullShare} f))
/-- What the subcore working on block `w` is handed of the arrays in HBM, and what it hands back: its chunks of the
    result at the specification's values. -/
abbrev goRes (d : Dev nD) (w : Fin 32) : sProp 𝕄 := iprop(rdRes m d w ∗ outRes d w (m (outLoc d)))
abbrev tdRes (d : Dev nD) (w : Fin 32) : sProp 𝕄 := iprop(rdRes m d w ∗ outRes d w (vOut m d))
/-- Row `w` of SparseCore `c`'s shared scratch, at some contents. -/
abbrev shRes (d : Dev nD) (c : Fin τ.nSC) (w : Fin 32) : sProp 𝕄 := iprop(∃ f : Buf (Elt F) (shLoc d c), shLoc d c ↦[shSet w]{fullShare} f)

/-- The block of task `i` of SparseCore `c` of the one call. -/
abbrev widK (c : Fin ((K (F := F)).nCore 0)) (i : Fin ((K (F := F)).nSub 0)) : Fin 32 := wid (Fin.cast nCore_zero c) (Fin.cast nSub_zero i)

/-- The one call takes, for each SparseCore, what its sixteen tasks are handed of the arrays in HBM, and brings back what
    they hand back; a task is also lent its row of its SparseCore's shared scratch. -/
def P : (K (F := F)).Pay (nD := nD) (Val := Elt F) (Name := ℕ) (U := UU) where
  st := fun q d c => match q with | 0 => bigSep Finset.univ fun i : Fin ((K (F := F)).nSub 0) => goRes m d (widK c i)
  dn := fun q d c => match q with | 0 => bigSep Finset.univ fun i : Fin ((K (F := F)).nSub 0) => tdRes m d (widK c i)
  go := fun q d c i => match q with | 0 => iprop(goRes m d (widK c i) ∗ shRes d ((K (F := F)).core 0 c) (widK c i))
  td := fun q d c i => match q with | 0 => iprop(tdRes m d (widK c i) ∗ shRes d ((K (F := F)).core 0 c) (widK c i))
  x := fun _ _ => iprop(emp)

instance P_storable : (P (F := F) m).IsStorable where
  st q d c := match q with
    | 0 => (inferInstance : BI.Storable (upEmb : UEmb _ 𝕄) (bigSep Finset.univ fun i : Fin ((K (F := F)).nSub 0) => goRes m d (widK c i)))
  dn q d c := match q with
    | 0 => (inferInstance : BI.Storable (upEmb : UEmb _ 𝕄) (bigSep Finset.univ fun i : Fin ((K (F := F)).nSub 0) => tdRes m d (widK c i)))
  go q d c i := match q with
    | 0 => (inferInstance : BI.Storable (upEmb : UEmb _ 𝕄) iprop(goRes m d (widK c i) ∗ shRes d ((K (F := F)).core 0 c) (widK c i)))
  td q d c i := match q with
    | 0 => (inferInstance : BI.Storable (upEmb : UEmb _ 𝕄) iprop(tdRes m d (widK c i) ∗ shRes d ((K (F := F)).core 0 c) (widK c i)))

/-- What the run leaves: the result at the specification's values, the three arguments as they were. -/
def QC : PUnit × MemSt nD τ sig (Elt F) → Prop := fun r => ∀ c : Dev nD,
  r.2.mem (outLoc c) = vOut m c ∧ r.2.mem (latLoc c) = m (latLoc c) ∧ r.2.mem (labLoc c) = m (labLoc c) ∧ r.2.mem (tabLoc c) = m (tabLoc c)

end Cert.Proof.KI
end
-- ==== Proof.KI.Launch.lean ====
/-
  The embedding lookup on the SparseCores: the launch. How what the call takes splits among the thirty-two vector
  subcores and comes back, the row of the shared scratch each is lent, @main on the TensorCore (the ten host operations,
  the call, the return), and the run of the whole thread family from the proof of one vector subcore's task.
-/
import proofs.«206680_g87033217286338_cont_sun_m_31_32_alg».proof.Proof.KI.Common
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## Blocks and chunks, counted two ways

Block `w` is subcore `w / 2` of SparseCore `w % 2`; chunk `j` is half `j % 2` of block `j / 2`. -/

/-- (SparseCore, subcore) ↦ block, a bijection. -/
def widEquiv : Fin 2 × Fin 16 ≃ Fin 32 where
  toFun p := wid p.1 p.2
  invFun w := (⟨w.val % 2, Nat.mod_lt _ (by decide)⟩, ⟨w.val / 2, by omega⟩)
  left_inv p := by
    rcases p with ⟨c, i⟩
    refine Prod.ext (Fin.ext ?_) (Fin.ext ?_)
    · show (2 * i.val + c.val) % 2 = c.val
      omega
    · show (2 * i.val + c.val) / 2 = i.val
      omega
  right_inv w := Fin.ext (by
    show 2 * (w.val / 2) + w.val % 2 = w.val
    omega)

/-- (block, half) ↦ chunk, a bijection. -/
def chEquiv : Fin 32 × Fin 2 ≃ Fin 64 where
  toFun p := ch p.1 p.2
  invFun j := (⟨j.val / 2, by omega⟩, ⟨j.val % 2, Nat.mod_lt _ (by decide)⟩)
  left_inv p := by
    rcases p with ⟨w, r⟩
    refine Prod.ext (Fin.ext ?_) (Fin.ext ?_)
    · show (2 * w.val + r.val) / 2 = w.val
      omega
    · show (2 * w.val + r.val) % 2 = r.val
      omega
  right_inv j := Fin.ext (by
    show 2 * (j.val / 2) + j.val % 2 = j.val
    omega)

/-- A family over the blocks, taken SparseCore by SparseCore and subcore by subcore of the call's grid. -/
theorem bigSep_blocks (Φ : Fin 32 → sProp 𝕄) :
    (bigSep Finset.univ fun c : Fin ((K (F := F)).nCore 0) => bigSep Finset.univ fun i : Fin ((K (F := F)).nSub 0) => Φ (widK c i))
      = bigSep Finset.univ Φ := by
  have e : (bigSep Finset.univ fun c : Fin ((K (F := F)).nCore 0) => bigSep Finset.univ fun i : Fin ((K (F := F)).nSub 0) => Φ (widK c i))
      = bigSep Finset.univ fun c : Fin 2 => bigSep Finset.univ fun i : Fin 16 => Φ (wid c i) :=
    bigSep_congr fun _ _ => bigSep_congr fun _ _ => congrArg Φ (congrArg₂ wid (Fin.ext rfl) (Fin.ext rfl))
  rw [e, bigSep_univ_equiv widEquiv Φ, bigSep_univ_prod]
  rfl

/-- A family over the chunks, taken block by block, each block's two. -/
theorem bigSep_chunks (Ψ : Fin 64 → sProp 𝕄) :
    (bigSep Finset.univ fun w : Fin 32 => iprop(Ψ (ch w 0) ∗ Ψ (ch w 1))) = bigSep Finset.univ Ψ := by
  rw [bigSep_univ_equiv chEquiv Ψ, bigSep_univ_prod]
  exact bigSep_congr fun w _ => (bigSep_fin_two fun r => Ψ (ch w r)).symm

/-! ## The result's chunks, the shared scratch's rows -/

theorem oSet_eq (j : Fin 64) : oSet j = (oRect j).set := by
  show ((View.whole (main_v7_scv : Ref sig .scVector)).slice (oRect j)).set = _
  rw [View.set_slice]; exact Finset.map_refl
theorem oSets_disjoint : ∀ i ∈ (Finset.univ : Finset (Fin 64)), ∀ j ∈ (Finset.univ : Finset (Fin 64)), i ≠ j → Disjoint (oSet i) (oSet j) :=
  fun i _ j _ h => by rw [oSet_eq, oSet_eq]; exact Rect.part_disjoint odiv h
theorem oSets_cover : (Finset.univ : Finset (Fin 64)).biUnion oSet = Finset.univ :=
  (Finset.biUnion_congr rfl fun i _ => oSet_eq i).trans (Rect.biUnion_part odiv)

theorem shSet_eq (w : Fin 32) : shSet w = (shRect w).set := by
  show ((View.whole (cc0_scratch0 : Ref sig .scVector)).slice (shRect w)).set = _
  rw [View.set_slice]; exact Finset.map_refl
theorem shSets_disjoint : ∀ i ∈ (Finset.univ : Finset (Fin 32)), ∀ j ∈ (Finset.univ : Finset (Fin 32)), i ≠ j → Disjoint (shSet i) (shSet j) :=
  fun i _ j _ h => by rw [shSet_eq, shSet_eq]; exact Rect.part_disjoint sdiv h
theorem shSets_cover : (Finset.univ : Finset (Fin 32)).biUnion shSet = Finset.univ :=
  (Finset.biUnion_congr rfl fun i _ => shSet_eq i).trans (Rect.biUnion_part sdiv)

/-- The result whole is its sixty-four chunks. -/
theorem outPts_chunks (d : Dev nD) (f : Buf (Elt F) (outLoc d)) :
    (outLoc d ↦{fullShare} f : sProp 𝕄) = bigSep Finset.univ fun j : Fin 64 => outLoc d ↦[oSet j]{fullShare} f := by
  rw [← pointsTo_biUnion Finset.univ (ℓ := outLoc d) oSet oSets_disjoint, oSets_cover]; try rfl

/-- A SparseCore's shared scratch whole is its thirty-two rows. -/
theorem shPts_rows (d : Dev nD) (c : Fin τ.nSC) (f : Buf (Elt F) (shLoc d c)) :
    (shLoc d c ↦{fullShare} f : sProp 𝕄) = bigSep Finset.univ fun w : Fin 32 => shLoc d c ↦[shSet w]{fullShare} f := by
  rw [← pointsTo_biUnion Finset.univ (ℓ := shLoc d c) shSet shSets_disjoint, shSets_cover]; try rfl

/-- The rows, each at contents of its own, are the scratch whole at some contents. -/
theorem shRows_join (d : Dev nD) (c : Fin τ.nSC) :
    (bigSep Finset.univ fun w : Fin 32 => shRes (F := F) d c w) ⊢ (iprop(∃ f, shLoc d c ↦{fullShare} f) : sProp 𝕄) := by
  refine (bigSep_exists_pi Finset.univ (fun w (f : Buf (Elt F) (shLoc d c)) => (shLoc d c ↦[shSet w]{fullShare} f : sProp 𝕄))).trans ?_
  iintro ⟨%fs, H⟩
  ihave H' := (pointsTo_biUnion_join Finset.univ shSet fs (fs 0) shSets_disjoint) $$ H
  icases H' with ⟨%g, -, Hg⟩
  rw [shSets_cover]
  iexists g; iexact Hg

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## What the call takes and brings back, array by array -/

/-- The tasks' holdings of the arrays in HBM, over both SparseCores: of each array read, the thirty-two read shares;
    the result whole. -/
theorem tasks_eq (d : Dev nD) (f : Buf (Elt F) (outLoc d)) :
    (bigSep Finset.univ fun c : Fin ((K (F := F)).nCore 0) => bigSep Finset.univ fun i : Fin ((K (F := F)).nSub 0) =>
        iprop(rdRes m d (widK c i) ∗ outRes d (widK c i) f))
      = iprop(((bigSep Finset.univ fun w : Fin 32 => t2Loc d ↦{tok w} vT2 m d) ∗ (bigSep Finset.univ fun w : Fin 32 => latLoc d ↦{tok w} m (latLoc d))
            ∗ (bigSep Finset.univ fun w : Fin 32 => kLoc d ↦{tok w} vK m d) ∗ (bigSep Finset.univ fun w : Fin 32 => offLoc d ↦{tok w} vOff m d))
          ∗ (outLoc d ↦{fullShare} f)) := by
  rw [bigSep_blocks (F := F) (fun w => iprop(rdRes m d w ∗ outRes d w f)), bigSep_sep', bigSep_sep', bigSep_sep', bigSep_sep',
    bigSep_chunks (fun j => (outLoc d ↦[oSet j]{fullShare} f : sProp 𝕄)), ← outPts_chunks]

theorem P_st (d : Dev nD) (c : Fin ((K (F := F)).nCore 0)) :
    (P m).st 0 d c = bigSep Finset.univ fun i : Fin ((K (F := F)).nSub 0) => goRes m d (widK c i) := rfl
theorem P_dn (d : Dev nD) (c : Fin ((K (F := F)).nCore 0)) :
    (P m).dn 0 d c = bigSep Finset.univ fun i : Fin ((K (F := F)).nSub 0) => tdRes m d (widK c i) := rfl
theorem P_go (d : Dev nD) (c : Fin ((K (F := F)).nCore 0)) (i : Fin ((K (F := F)).nSub 0)) :
    (P m).go 0 d c i = iprop(goRes m d (widK c i) ∗ shRes d ((K (F := F)).core 0 c) (widK c i)) := rfl
theorem P_td (d : Dev nD) (c : Fin ((K (F := F)).nCore 0)) (i : Fin ((K (F := F)).nSub 0)) :
    (P m).td 0 d c i = iprop(tdRes m d (widK c i) ∗ shRes d ((K (F := F)).core 0 c) (widK c i)) := rfl

/-! ## One SparseCore's operands among its sixteen tasks -/

/-- The sequencer lends each of its tasks its row of the shared scratch and has them all back. The rows of the other
    SparseCore's parity stay with it. -/
theorem ownBufs_lend (d : Dev nD) (c : Fin ((K (F := F)).nCore 0)) :
    (ownBufs (S d ((K (F := F)).core 0 c)) : sProp 𝕄)
      ⊢ iprop((bigSep Finset.univ fun i : Fin ((K (F := F)).nSub 0) => shRes d ((K (F := F)).core 0 c) (widK c i))
          ∗ ((bigSep Finset.univ fun i : Fin ((K (F := F)).nSub 0) => shRes d ((K (F := F)).core 0 c) (widK c i))
              -∗ ownBufs (S d ((K (F := F)).core 0 c)))) := by
  have hsplit : (bigSep Finset.univ fun w : Fin 32 => shRes (F := F) d ((K (F := F)).core 0 c) w)
      = iprop((bigSep Finset.univ fun i : Fin ((K (F := F)).nSub 0) => shRes d ((K (F := F)).core 0 c) (widK c i))
          ∗ bigSep (Finset.univ.erase c) fun c' : Fin ((K (F := F)).nCore 0) =>
              bigSep Finset.univ fun i : Fin ((K (F := F)).nSub 0) => shRes d ((K (F := F)).core 0 c) (widK c' i)) :=
    (bigSep_blocks (F := F) (fun w => shRes d ((K (F := F)).core 0 c) w)).symm.trans (bigSep_univ_split c)
  rw [ownBufs_S]
  iintro ⟨⟨%fsh, Hsh⟩, Hrest⟩
  ihave Hrows := ((Entails.of_eq (shPts_rows d ((K (F := F)).core 0 c) fsh)).trans (SparseCore.ent (bigSep_mono
      (Φ := fun w => (shLoc d ((K (F := F)).core 0 c) ↦[shSet w]{fullShare} fsh : sProp 𝕄))
      (Ψ := fun w => shRes (F := F) d ((K (F := F)).core 0 c) w)
      fun w _ => BI.BIClass.exists_intro (Φ := fun f => (shLoc d ((K (F := F)).core 0 c) ↦[shSet w]{fullShare} f : sProp 𝕄)) fsh))) $$ Hsh
  ihave Hrows' := (Entails.of_eq hsplit) $$ Hrows
  icases Hrows' with ⟨Hmine, Hothers⟩
  isplitl [Hmine]; · iexact Hmine
  iintro Hmine
  isplitl [Hmine Hothers]
  · iapply (shRows_join d ((K (F := F)).core 0 c))
    iapply (Entails.of_eq hsplit.symm)
    isplitl [Hmine]; · iexact Hmine
    iexact Hothers
  iexact Hrest

/-- SparseCore `c`'s operands are its tasks' already; the shared scratch goes out row by row and comes back. -/
theorem vecSplit : (K (F := F)).VecSplit (P m) 0 := by
  intro d c
  rw [P_st, P_dn, bigSep_congr (s := Finset.univ) (fun i _ => P_go m d c i), bigSep_congr (s := Finset.univ) (fun i _ => P_td m d c i),
    bigSep_sep' Finset.univ (fun i : Fin ((K (F := F)).nSub 0) => goRes m d (widK c i)) (fun i => shRes d ((K (F := F)).core 0 c) (widK c i)),
    bigSep_sep' Finset.univ (fun i : Fin ((K (F := F)).nSub 0) => tdRes m d (widK c i)) (fun i => shRes d ((K (F := F)).core 0 c) (widK c i))]
  iintro ⟨Hst, Hb⟩
  ihave Hb' := (ownBufs_lend d c) $$ Hb
  icases Hb' with ⟨Hsh, Hback⟩
  imodintro
  isplitl [Hst Hsh]
  · isplitl [Hst]; · iexact Hst
    iexact Hsh
  iintro ⟨Htd, Hsh⟩
  isplitl [Htd]; · iexact Htd
  iapply Hback; iexact Hsh

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The ten host operations before the call, in order. -/
def ops : List (HloOp τ sig (Elt F)) :=
  [StableHlo.reshape main_arg2 main_v0 rfl shapeCasts_S1000000x64_S500000x128,
   StableHlo.nullary main_c (constantI S_ 32 1#32),
   StableHlo.unary main_c main_v1 (broadcastInDim S16384 ![] bcast_S_S16384 : (⟨S_, .i32⟩ : BufTy).Contents (Elt F) → (⟨S16384, .i32⟩ : BufTy).Contents (Elt F)),
   StableHlo.binary main_arg1 main_v1 main_v2 (Host.shrui : (⟨S16384, .i32⟩ : BufTy).Contents (Elt F) → (⟨S16384, .i32⟩ : BufTy).Contents (Elt F) → (⟨S16384, .i32⟩ : BufTy).Contents (Elt F)),
   StableHlo.nullary main_c_0 (constantI S_ 32 1#32),
   StableHlo.unary main_c_0 main_v3 (broadcastInDim S16384 ![] bcast_S_S16384 : (⟨S_, .i32⟩ : BufTy).Contents (Elt F) → (⟨S16384, .i32⟩ : BufTy).Contents (Elt F)),
   StableHlo.binary main_arg1 main_v3 main_v4 (andi : (⟨S16384, .i32⟩ : BufTy).Contents (Elt F) → (⟨S16384, .i32⟩ : BufTy).Contents (Elt F) → (⟨S16384, .i32⟩ : BufTy).Contents (Elt F)),
   StableHlo.nullary main_c_1 (constantI S_ 32 64#32),
   StableHlo.unary main_c_1 main_v5 (broadcastInDim S16384 ![] bcast_S_S16384 : (⟨S_, .i32⟩ : BufTy).Contents (Elt F) → (⟨S16384, .i32⟩ : BufTy).Contents (Elt F)),
   StableHlo.binary main_v4 main_v5 main_v6 (muli : (⟨S16384, .i32⟩ : BufTy).Contents (Elt F) → (⟨S16384, .i32⟩ : BufTy).Contents (Elt F) → (⟨S16384, .i32⟩ : BufTy).Contents (Elt F))]

/-- @main is that line, then the call, then the return. -/
theorem main_eq (d : Dev nD) :
    Cert.KernelIdeal.main (F := F) d = StableHlo.seq (ops (F := F)) >>= fun _ => (Cert.KernelIdeal.sc (F := F)).run d 0 >>= fun _ => pure ⟨⟩ := rfl

theorem ops_sub : ∀ op ∈ ops (F := F), op.bufs ⊆ Pipeline.ucRefs τ sig := by
  intro op hop
  refine Pipeline.sub_ucRefs op ?_
  simp only [ops, List.mem_cons, List.mem_nil_iff, or_false] at hop
  rcases hop with rfl | rfl | rfl | rfl | rfl | rfl | rfl | rfl | rfl | rfl
  all_goals first
    | exact StableHlo.reshape_bufs_sub ..
    | exact StableHlo.nullary_bufs_sub ..
    | exact StableHlo.unary_bufs_sub ..
    | exact StableHlo.binary_bufs_sub ..

theorem ops_fresh : ∀ op ∈ ops (F := F), op.fresh = ∅ := by
  intro op hop
  simp only [ops, List.mem_cons, List.mem_nil_iff, or_false] at hop
  rcases hop with rfl | rfl | rfl | rfl | rfl | rfl | rfl | rfl | rfl | rfl <;> rfl

/-- The launch contents of device `d`'s buffers. -/
def V0 (d : Dev nD) : Valuation τ sig (Elt F) := fun b => m (d, b)

theorem unscoped_held (d : Dev nD) :
    (unscopedBufs d (fun b => m ((SparseCore.T d).loc b)) : sProp 𝕄) = StableHlo.held (d.tc : Thread nD τ) (Pipeline.ucRefs τ sig) (V0 m d) :=
  Pipeline.unscopedBufs_held (Ix := HIx 1) (Name := ℕ) (U := UU) (Lvl := ℕ) d (V0 m d)

/-- The seven arrays the proof follows: the three arguments, the three the call reads that @main computes, the result. -/
abbrev rLat : DevRef τ sig := Proc.devRef .tc (main_arg0 : Ref sig .tc)
abbrev rLab : DevRef τ sig := Proc.devRef .tc (main_arg1 : Ref sig .tc)
abbrev rTab : DevRef τ sig := Proc.devRef .tc (main_arg2 : Ref sig .tc)
abbrev rT2 : DevRef τ sig := Proc.devRef .tc (main_v0 : Ref sig .tc)
abbrev rK : DevRef τ sig := Proc.devRef .tc (main_v2 : Ref sig .tc)
abbrev rOff : DevRef τ sig := Proc.devRef .tc (main_v6 : Ref sig .tc)
abbrev rOut : DevRef τ sig := Proc.devRef .tc (main_v7 : Ref sig .tc)
abbrev S7 : Finset (DevRef τ sig) := {rLat, rLab, rTab, rT2, rK, rOff, rOut}

theorem S7_sub : S7 ⊆ Pipeline.ucRefs τ sig := by
  intro b hb
  simp only [Finset.mem_insert, Finset.mem_singleton] at hb
  rcases hb with rfl | rfl | rfl | rfl | rfl | rfl | rfl <;>
    exact Finset.mem_filter.mpr ⟨StableHlo.devRef_mem_tcRefs _, by decide⟩

theorem held_S7 (d : Dev nD) (W : Valuation τ sig (Elt F)) :
    (StableHlo.held (d.tc : Thread nD τ) S7 W : sProp 𝕄)
      = iprop((latLoc d ↦{fullShare} W rLat) ∗ (labLoc d ↦{fullShare} W rLab) ∗ (tabLoc d ↦{fullShare} W rTab) ∗ (t2Loc d ↦{fullShare} W rT2)
          ∗ (kLoc d ↦{fullShare} W rK) ∗ (offLoc d ↦{fullShare} W rOff) ∗ (outLoc d ↦{fullShare} W rOut)) := by
  unfold StableHlo.held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! What the seven hold after the line: the arguments and the result what they held, the other three the values the
    call is handed. -/

theorem after_lat (d : Dev nD) : StableHlo.after (ops (F := F)) (V0 m d) rLat = m (latLoc d) := by
  show StableHlo.after _ _ (Proc.devRef .tc (main_arg0 : Ref sig .tc)) = _
  unfold ops; after_results <;> rfl
theorem after_lab (d : Dev nD) : StableHlo.after (ops (F := F)) (V0 m d) rLab = m (labLoc d) := by
  show StableHlo.after _ _ (Proc.devRef .tc (main_arg1 : Ref sig .tc)) = _
  unfold ops; after_results <;> rfl
theorem after_tab (d : Dev nD) : StableHlo.after (ops (F := F)) (V0 m d) rTab = m (tabLoc d) := by
  show StableHlo.after _ _ (Proc.devRef .tc (main_arg2 : Ref sig .tc)) = _
  unfold ops; after_results <;> rfl
theorem after_out (d : Dev nD) : StableHlo.after (ops (F := F)) (V0 m d) rOut = m (outLoc d) := by
  show StableHlo.after _ _ (Proc.devRef .tc (main_v7 : Ref sig .tc)) = _
  unfold ops; after_results <;> rfl
theorem after_t2 (d : Dev nD) : StableHlo.after (ops (F := F)) (V0 m d) rT2 = vT2 m d := by
  show StableHlo.after _ _ (Proc.devRef .tc (main_v0 : Ref sig .tc)) = _
  unfold ops; after_results <;> rfl
theorem after_k (d : Dev nD) : StableHlo.after (ops (F := F)) (V0 m d) rK = vK m d := by
  show StableHlo.after _ _ (Proc.devRef .tc (main_v2 : Ref sig .tc)) = _
  unfold ops; after_results <;> rfl
theorem after_off (d : Dev nD) : StableHlo.after (ops (F := F)) (V0 m d) rOff = vOff m d := by
  show StableHlo.after _ _ (Proc.devRef .tc (main_v6 : Ref sig .tc)) = _
  unfold ops; after_results <;> rfl

/-- After the line the TensorCore holds, among the rest, the seven at those contents. -/
theorem held_after (d : Dev nD) :
    (StableHlo.held (d.tc : Thread nD τ) (Pipeline.ucRefs τ sig) (StableHlo.after (ops (F := F)) (V0 m d)) : sProp 𝕄)
      ⊢ iprop((latLoc d ↦{fullShare} m (latLoc d)) ∗ (labLoc d ↦{fullShare} m (labLoc d)) ∗ (tabLoc d ↦{fullShare} m (tabLoc d))
          ∗ (t2Loc d ↦{fullShare} vT2 m d) ∗ (kLoc d ↦{fullShare} vK m d) ∗ (offLoc d ↦{fullShare} vOff m d) ∗ (outLoc d ↦{fullShare} m (outLoc d))) := by
  rw [StableHlo.held_sub_split _ S7_sub, held_S7, after_lat, after_lab, after_tab, after_t2, after_k, after_off, after_out]
  exact sep_elim_left

/-- What the call takes for the two SparseCores, and what it brings back. -/
theorem st0_eq (d : Dev nD) :
    (bigSep Finset.univ fun c : Fin ((K (F := F)).nCore 0) => (P m).st 0 d c)
      = iprop(((bigSep Finset.univ fun w : Fin 32 => t2Loc d ↦{tok w} vT2 m d) ∗ (bigSep Finset.univ fun w : Fin 32 => latLoc d ↦{tok w} m (latLoc d))
            ∗ (bigSep Finset.univ fun w : Fin 32 => kLoc d ↦{tok w} vK m d) ∗ (bigSep Finset.univ fun w : Fin 32 => offLoc d ↦{tok w} vOff m d))
          ∗ (outLoc d ↦{fullShare} m (outLoc d))) :=
  (bigSep_congr fun c _ => P_st m d c).trans (tasks_eq m d (m (outLoc d)))
theorem dn0_eq (d : Dev nD) :
    (bigSep Finset.univ fun c : Fin ((K (F := F)).nCore 0) => (P m).dn 0 d c)
      = iprop(((bigSep Finset.univ fun w : Fin 32 => t2Loc d ↦{tok w} vT2 m d) ∗ (bigSep Finset.univ fun w : Fin 32 => latLoc d ↦{tok w} m (latLoc d))
            ∗ (bigSep Finset.univ fun w : Fin 32 => kLoc d ↦{tok w} vK m d) ∗ (bigSep Finset.univ fun w : Fin 32 => offLoc d ↦{tok w} vOff m d))
          ∗ (outLoc d ↦{fullShare} vOut m d)) :=
  (bigSep_congr fun c _ => P_dn m d c).trans (tasks_eq m d (vOut m d))

/-- What @main leaves the claim: the result at the specification's values, the three arguments at their launch contents. -/
abbrev FIN (d : Dev nD) : sProp 𝕄 :=
  iprop((outLoc d ↦{fullShare} vOut m d) ∗ (latLoc d ↦{fullShare} m (latLoc d)) ∗ (labLoc d ↦{fullShare} m (labLoc d)) ∗ (tabLoc d ↦{fullShare} m (tabLoc d)))

set_option backward.isDefEq.respectTransparency.types false in
/-- @main on device `d`'s TensorCore: the ten host operations in one step; each array the call only reads cut into its
    thirty-two read shares and a remainder, kept; the call; the shares of the batch joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (Cert.KernelIdeal.main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d (Pipeline.ucRefs τ sig) _ (ops (F := F)) ops_sub ops_fresh (V0 m d)) $$ [Hb Hheld]
  · isplitl [Hb]; · iexact Hb
    iexact Hheld
  iintro ⟨Hb, Hheld⟩
  ihave Hh := (held_after m d) $$ Hheld
  icases Hh with ⟨Hlat, Hlab, Htab, Ht2, Hk, Hoff, Hout⟩
  ihave Ht2' := (Transfers.pointsTo_toks_split fullShare 32) $$ Ht2
  icases Ht2' with ⟨Ht2d, Ht2t⟩
  ihave Hlat' := (Transfers.pointsTo_toks_split fullShare 32) $$ Hlat
  icases Hlat' with ⟨Hlatd, Hlatt⟩
  ihave Hk' := (Transfers.pointsTo_toks_split fullShare 32) $$ Hk
  icases Hk' with ⟨Hkd, Hkt⟩
  ihave Hoff' := (Transfers.pointsTo_toks_split fullShare 32) $$ Hoff
  icases Hoff' with ⟨Hoffd, Hofft⟩
  simp only [wp_bind, wp_pure]
  iapply ((K (F := F)).wp_run (D (F := F)) 𝒱 (EH := EH) (P := P m) κ d 0) $$ [Hst Ht2t Hlatt Hkt Hofft Hout Hlatd Hlab Htab]
  isplitr; · iexact Hctx
  isplitl [Hst]; · iexact Hst
  isplitl [Ht2t Hlatt Hkt Hofft Hout]
  · rw [st0_eq]
    isplitl [Ht2t Hlatt Hkt Hofft]
    · isplitl [Ht2t]; · iexact Ht2t
      isplitl [Hlatt]; · iexact Hlatt
      isplitl [Hkt]; · iexact Hkt
      iexact Hofft
    iexact Hout
  iintro ⟨Hst, Hdn⟩
  ihave Hdn' := (Entails.of_eq (dn0_eq m d)) $$ Hdn
  icases Hdn' with ⟨⟨-, Hlatt, -, -⟩, Hout⟩
  ihave Hlat := (Transfers.pointsTo_toks_join fullShare 32) $$ [Hlatd Hlatt]
  · isplitl [Hlatd]; · iexact Hlatd
    iexact Hlatt
  imodintro
  isplitl [Hst]; · iexact Hst
  isplitl [Hout]; · iexact Hout
  isplitl [Hlat]; · iexact Hlat
  isplitl [Hlab]; · iexact Hlab
  iexact Htab

def fq (d : Dev nD) (s' : Phys nD τ sig (Elt F)) : Prop :=
  s'.mem.mem (outLoc d) = vOut m d ∧ s'.mem.mem (latLoc d) = m (latLoc d) ∧ s'.mem.mem (labLoc d) = m (labLoc d) ∧ s'.mem.mem (tabLoc d) = m (tabLoc d)

set_option maxRecDepth 16384 in
theorem hfin (d : Dev nD) (s' : Phys nD τ sig (Elt F)) : iprop(FIN m d ∗ SI s') ⊢ (⌜fq m d s'⌝ : sProp 𝕄) := by
  iintro ⟨⟨Ho, Hlat, Hlab, Htab⟩, HSI⟩
  ihave H := (persistent_entails_right (SI_pointsTo_agree (st := s') (ℓ := outLoc d) (I := Finset.univ) (q := fullShare) (f := vOut m d))) $$ [HSI Ho]
  · isplitl [HSI] <;> iassumption
  icases H with ⟨%h1, HSI, -⟩
  ihave H := (persistent_entails_right (SI_pointsTo_agree (st := s') (ℓ := latLoc d) (I := Finset.univ) (q := fullShare) (f := m (latLoc d)))) $$ [HSI Hlat]
  · isplitl [HSI] <;> iassumption
  icases H with ⟨%h2, HSI, -⟩
  ihave H := (persistent_entails_right (SI_pointsTo_agree (st := s') (ℓ := labLoc d) (I := Finset.univ) (q := fullShare) (f := m (labLoc d)))) $$ [HSI Hlab]
  · isplitl [HSI] <;> iassumption
  icases H with ⟨%h3, HSI, -⟩
  ihave H := (SI_pointsTo_agree (st := s') (ℓ := tabLoc d) (I := Finset.univ) (q := fullShare) (f := m (tabLoc d))) $$ [HSI Htab]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

/-- From the proof of one vector subcore's task, every weakly fair execution of the whole thread family ends, with the
    result at the specification's values and the three arguments as they were. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ Cert.KernelIdeal.main (fun _ => iprop(emp)) (FIN m) (u₀ (F := F)) (sep_elim_left.trans (hu₀ m)) (hmain m ρ) (fq m) (hfin m) (QC m) (fun _ h => h)

end Cert.Proof.KI
end
-- ==== Proof.KI.Values.lean ====
/-
  What the words the subcores read say: a halved label is a row of the paired table, and 64 times a label's last bit
  is 0 or 64, so that the sixteen-lane windows the multiply reads at it and 16, 32, 48 past it stay inside a paired row.
-/
import proofs.«206680_g87033217286338_cont_sun_m_31_32_alg».proof.Proof.KI.Common

noncomputable section

namespace Cert.Proof.KI

open Cert.KernelIdeal Cert.KernelIdeal.Gen
open Idealize.ShloMosaic
open Idealize.ShloMosaic.SparseCore (S V T)

variable {F : FTy → Type}
variable (m : (ℓ : Loc nD τ sig) → Buf (Elt F) ℓ)
variable [FloatOps F]

/-- The last bit of a word, times 64, is 0 or 64. -/
theorem bit_times_64 (x : BitVec 32) : IntOp.muli (IntOp.andi x 1#32) 64#32 = 0#32 ∨ IntOp.muli (IntOp.andi x 1#32) 64#32 = 64#32 := by
  have h : x &&& 1#32 = 0#32 ∨ x &&& 1#32 = 1#32 := by
    have e : (x &&& 1#32).toNat = x.toNat % 2 := by
      rw [BitVec.toNat_and]; exact Nat.and_one_is_mod _
    rcases Nat.mod_two_eq_zero_or_one x.toNat with h | h
    · left; apply BitVec.eq_of_toNat_eq; rw [e, h]; rfl
    · right; apply BitVec.eq_of_toNat_eq; rw [e, h]; rfl
  unfold IntOp.muli IntOp.andi
  rcases h with h | h <;> rw [h]
  · left; decide
  · right; decide

/-- Every start inside a paired row is 0 or 64. -/
theorem vOff_cases (d : Dev nD) (j : S16384.Idx) : vOff m d j = 0#32 ∨ vOff m d j = 64#32 :=
  bit_times_64 (m (labLoc d) j)

/-- Half of a label that is a row of the table is a row of the paired table. -/
theorem half_lt (x : BitVec 32) (h : x.toNat ≤ 999999) : (IntOp.shrui .host x 1#32).toNat < 500000 := by
  unfold IntOp.shrui
  rw [if_pos (by decide)]
  show (x >>> (1 : Nat)).toNat < 500000
  rw [BitVec.toNat_ushiftRight, Nat.shiftRight_eq_div_pow]
  omega

/-- Every halved label is a row of the paired table. -/
theorem vK_lt (hlab : LabOKm m) (d : Dev nD) (j : S16384.Idx) : (vK m d j).toNat < 500000 :=
  half_lt _ (hlab d j)

/-- A start that is 0 or 64 passes the check the first multiply loop makes of the word it loads. -/
theorem chk1_of (v : BitVec 32) (h : v = 0#32 ∨ v = 64#32) : k0_chk1 v := by
  rcases h with rfl | rfl <;> decide
/-- The same for the second loop. -/
theorem chk2_of (v : BitVec 32) (h : v = 0#32 ∨ v = 64#32) : k0_chk2 v := by
  rcases h with rfl | rfl <;> decide

end Cert.Proof.KI
end
-- ==== Proof.KI.TileDefs.lean ====
/-
  One vector subcore's task, set up: the arrays as the subcore's program slices them, which of the launch's pieces those
  slices are, the subcore's own scratch and transfer cells, and what the two multiply loops keep true.

  The subcore at grid point (c, i) works on block w = 2 i + c. Its slices of the batch-sized arrays start at row 512 w;
  the two chunks of the result it writes are chunks 2 w and 2 w + 1; its row of the shared scratch is row w.
  A multiply loop runs over the 256 rows of a chunk; before trip k the rows before k have been multiplied, each by the
  64 numbers of its fetched paired row that start at the row's start word.
-/
import proofs.«206680_g87033217286338_cont_sun_m_31_32_alg».proof.Proof.KI.Values

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t2V" => (Memref.whole Cert.KernelIdeal.main_v0_scv : Memref Cert.KernelIdeal.sig Kind.scVector Space.hbm Cert.KernelIdeal.S500000x128 EltTy.f32)
local notation "latV" => (Memref.whole Cert.KernelIdeal.main_arg0_scv : Memref Cert.KernelIdeal.sig Kind.scVector Space.hbm Cert.KernelIdeal.S16384x64 EltTy.f32)
local notation "kV" => (Memref.whole Cert.KernelIdeal.main_v2_scv : Memref Cert.KernelIdeal.sig Kind.scVector Space.hbm Cert.KernelIdeal.S16384 EltTy.i32)
local notation "offV" => (Memref.whole Cert.KernelIdeal.main_v6_scv : Memref Cert.KernelIdeal.sig Kind.scVector Space.hbm Cert.KernelIdeal.S16384 EltTy.i32)
local notation "outV" => (Memref.whole Cert.KernelIdeal.main_v7_scv : Memref Cert.KernelIdeal.sig Kind.scVector Space.hbm Cert.KernelIdeal.S16384x64 EltTy.f32)
local notation "shV" => (Memref.whole Cert.KernelIdeal.cc0_scratch0 : Memref Cert.KernelIdeal.sig Kind.scVector Space.shared Cert.KernelIdeal.S32x512 EltTy.i32)
local notation "sOff" => (Memref.whole Cert.KernelIdeal.cc0_scratch1 : Memref Cert.KernelIdeal.sig Kind.scVector Space.smem Cert.KernelIdeal.S512 EltTy.i32)
local notation "sK" => (Memref.whole Cert.KernelIdeal.cc0_scratch2 : Memref Cert.KernelIdeal.sig Kind.scVector Space.vmem Cert.KernelIdeal.S512 EltTy.i32)
local notation "sRows" => (Memref.whole Cert.KernelIdeal.cc0_scratch3 : Memref Cert.KernelIdeal.sig Kind.scVector Space.vmem Cert.KernelIdeal.S256x128 EltTy.f32)
local notation "sLat" => (Memref.whole Cert.KernelIdeal.cc0_scratch4 : Memref Cert.KernelIdeal.sig Kind.scVector Space.vmem Cert.KernelIdeal.S256x64 EltTy.f32)

variable [FloatOps F]

section Tile
variable (d : Dev nD) (L : grid0.Coords)

abbrev cV (L : grid0.Coords) : Fin τ.nSC := (L 0).castLE hcore0
abbrev jV (L : grid0.Coords) : Fin τ.nSub := (L 1).castLE hsub0
/-- The block the subcore at grid point `L` works on. -/
def wL (L : grid0.Coords) : Fin 32 := ⟨2 * (L 1).val + (L 0).val, by have h0 : (L 0).val < 2 := (L 0).isLt; have h1 : (L 1).val < 16 := (L 1).isLt; omega⟩

/-- The subcore's row of the shared scratch, as the program slices it. -/
abbrev shRowK (L : grid0.Coords) : Memref sig .scVector .shared S512 .i32 :=
  ((shV).slice (Rect.unit (s := S32x512) (k0_off1 L) S1x512.size (k0_off1_inb L)) (fun _ => rfl)).squeeze S512 squeezes_S1x512_S512
/-- Its two chunks of the result, as the program slices them. -/
abbrev outCh0 (L : grid0.Coords) : Memref sig .scVector .hbm S256x64 .f32 :=
  (outV).slice (Rect.unit (s := S16384x64) (k0_off3 L 0#32) S256x64.size (k0_off3_inb L 0)) (fun _ => rfl)
abbrev outCh1 (L : grid0.Coords) : Memref sig .scVector .hbm S256x64 .f32 :=
  (outV).slice (Rect.unit (s := S16384x64) (k0_off3 L 256#32) S256x64.size (k0_off3_inb L 1)) (fun _ => rfl)

omit [FloatOps F] in
theorem off3_0 : k0_off3 L 0#32 = ![1024 * (L 1).val + 512 * (L 0).val, 0] := k0_off3_eq L ⟨0, by decide⟩
omit [FloatOps F] in
theorem off3_1 : k0_off3 L 256#32 = ![1024 * (L 1).val + 512 * (L 0).val + 256, 0] := k0_off3_eq L ⟨1, by decide⟩

omit [FloatOps F] in
theorem rect_outCh0 : Rect.unit (s := S16384x64) (k0_off3 L 0#32) S256x64.size (k0_off3_inb L 0) = oRect (ch (wL L) 0) := by
  unfold oRect Rect.part Rect.block
  congr 1 <;> funext a
  · rw [off3_0]
    match a with
    | 0 => simp [Shape.partIx, Shape.partSize, ch, wL]; omega
    | 1 => simp [Shape.partIx, Shape.partSize]
  · match a with
    | 0 => simp [Shape.partSize]
    | 1 => simp [Shape.partSize]
omit [FloatOps F] in
theorem rect_outCh1 : Rect.unit (s := S16384x64) (k0_off3 L 256#32) S256x64.size (k0_off3_inb L 1) = oRect (ch (wL L) 1) := by
  unfold oRect Rect.part Rect.block
  congr 1 <;> funext a
  · rw [off3_1]
    match a with
    | 0 => simp [Shape.partIx, Shape.partSize, ch, wL]; omega
    | 1 => simp [Shape.partIx, Shape.partSize]
  · match a with
    | 0 => simp [Shape.partSize]
    | 1 => simp [Shape.partSize]
omit [FloatOps F] in
theorem rect_shRowK : Rect.unit (s := S32x512) (k0_off1 L) S1x512.size (k0_off1_inb L) = shRect (wL L) := by
  unfold shRect Rect.part Rect.block
  congr 1 <;> funext a
  · rw [k0_off1_eq]
    match a with
    | 0 => simp [Shape.partIx, Shape.partSize, wL]
    | 1 => simp [Shape.partIx, Shape.partSize]
  · match a with
    | 0 => simp [Shape.partSize]
    | 1 => simp [Shape.partSize]

omit [FloatOps F] in
theorem set_outCh0 : (outCh0 L).view.set = oSet (ch (wL L) 0) := by
  show ((outV).view.slice (Rect.unit (s := S16384x64) (k0_off3 L 0#32) S256x64.size (k0_off3_inb L 0))).set = ((outV).view.slice (oRect (ch (wL L) 0))).set
  exact rect_outCh0 L ▸ rfl
omit [FloatOps F] in
theorem set_outCh1 : (outCh1 L).view.set = oSet (ch (wL L) 1) := by
  show ((outV).view.slice (Rect.unit (s := S16384x64) (k0_off3 L 256#32) S256x64.size (k0_off3_inb L 1))).set = ((outV).view.slice (oRect (ch (wL L) 1))).set
  exact rect_outCh1 L ▸ rfl
omit [FloatOps F] in
theorem set_shRowK : (shRowK L).view.set = shSet (wL L) := by
  show (((shV).view.slice (Rect.unit (s := S32x512) (k0_off1 L) S1x512.size (k0_off1_inb L))).reshape S512 squeezes_S1x512_S512.numel_eq).set
    = ((shV).view.slice (shRect (wL L))).set
  rw [View.set_reshape]
  exact rect_shRowK L ▸ rfl

omit [FloatOps F] in
theorem pts_t2 (q : PosShare TreeShare) (f : Buf (Elt F) (t2Loc d)) :
    ((t2V).view.loc (V d (cV L) (jV L)) ↦{q} f : sProp 𝕄) = t2Loc d ↦{q} f := rfl
omit [FloatOps F] in
theorem pts_lat (q : PosShare TreeShare) (f : Buf (Elt F) (latLoc d)) :
    ((latV).view.loc (V d (cV L) (jV L)) ↦{q} f : sProp 𝕄) = latLoc d ↦{q} f := rfl
omit [FloatOps F] in
theorem pts_k (q : PosShare TreeShare) (f : Buf (Elt F) (kLoc d)) :
    ((kV).view.loc (V d (cV L) (jV L)) ↦{q} f : sProp 𝕄) = kLoc d ↦{q} f := rfl
omit [FloatOps F] in
theorem pts_off (q : PosShare TreeShare) (f : Buf (Elt F) (offLoc d)) :
    ((offV).view.loc (V d (cV L) (jV L)) ↦{q} f : sProp 𝕄) = offLoc d ↦{q} f := rfl
omit [FloatOps F] in
theorem pts_outCh0 (f : Buf (Elt F) (outLoc d)) :
    ((outCh0 L).view.loc (V d (cV L) (jV L)) ↦[(outCh0 L).view.set]{fullShare} f : sProp 𝕄) = outLoc d ↦[oSet (ch (wL L) 0)]{fullShare} f := by
  rw [set_outCh0]
omit [FloatOps F] in
theorem pts_outCh1 (f : Buf (Elt F) (outLoc d)) :
    ((outCh1 L).view.loc (V d (cV L) (jV L)) ↦[(outCh1 L).view.set]{fullShare} f : sProp 𝕄) = outLoc d ↦[oSet (ch (wL L) 1)]{fullShare} f := by
  rw [set_outCh1]
omit [FloatOps F] in
theorem pts_shRowK (f : Buf (Elt F) (shLoc d (cV L))) :
    ((shRowK L).view.loc (V d (cV L) (jV L)) ↦[(shRowK L).view.set]{fullShare} f : sProp 𝕄) = shLoc d (cV L) ↦[shSet (wL L)]{fullShare} f := by
  rw [set_shRowK]; rfl
omit [FloatOps F] in
theorem pts_sOff (f : Buf (Elt F) ((V d (cV L) (jV L)).loc cc0_scratch1)) :
    ((sOff).view.loc (V d (cV L) (jV L)) ↦{fullShare} f : sProp 𝕄) = (V d (cV L) (jV L)).loc cc0_scratch1 ↦{fullShare} f := rfl
omit [FloatOps F] in
theorem pts_sK (f : Buf (Elt F) ((V d (cV L) (jV L)).loc cc0_scratch2)) :
    ((sK).view.loc (V d (cV L) (jV L)) ↦{fullShare} f : sProp 𝕄) = (V d (cV L) (jV L)).loc cc0_scratch2 ↦{fullShare} f := rfl
omit [FloatOps F] in
theorem pts_sRows (f : Buf (Elt F) ((V d (cV L) (jV L)).loc cc0_scratch3)) :
    ((sRows).view.loc (V d (cV L) (jV L)) ↦{fullShare} f : sProp 𝕄) = (V d (cV L) (jV L)).loc cc0_scratch3 ↦{fullShare} f := rfl
omit [FloatOps F] in
theorem pts_sLat (f : Buf (Elt F) ((V d (cV L) (jV L)).loc cc0_scratch4)) :
    ((sLat).view.loc (V d (cV L) (jV L)) ↦{fullShare} f : sProp 𝕄) = (V d (cV L) (jV L)).loc cc0_scratch4 ↦{fullShare} f := rfl

abbrev cell (d : Dev nD) (c : Fin τ.nSC) (i : Fin τ.nSub) (s : DmaSem sig) : GSem nD τ sig := (V d c i, .dma s)

/-- The subcore's 512 halved labels, as the program slices them. -/
abbrev kSliceK (L : grid0.Coords) : Memref sig .scVector .hbm S512 .i32 :=
  (kV).slice (Rect.unit (s := S16384) (k0_off2 L) S512.size (k0_off2_inb L)) (fun _ => rfl)

/-- Whatever the index scratch held before, once the subcore's halved labels have landed in it every word of either
    half of it is a row of the paired table. -/
theorem k_inb (hlab : LabOKm m) (g : Buf (Elt F) ((V d (cV L) (jV L)).loc cc0_scratch2)) (pay : S512.Idx → Elt F .i32)
    (hpay : pay = (kSliceK L).view.read (Elt F) (vK m d)) (off : Fin 1 → Nat) (hoff : ∀ a, off a + S256.size a ≤ S512.size a) :
    ∀ x, (((sK).slice (Rect.unit (s := S512) off S256.size hoff) (fun _ => rfl)).view.read (Elt F)
        (View.write (Elt F) (sK).view g pay Finset.univ) x).toNat < 500000 := by
  subst hpay; intro x
  rw [View.write_whole_univ]
  rw [show ∀ (f : S512.Idx → Elt F .i32) j, ((sK).slice (Rect.unit (s := S512) off S256.size hoff) (fun _ => rfl)).view.read (Elt F) f j
      = f (((sK).slice (Rect.unit (s := S512) off S256.size hoff) (fun _ => rfl)).view.emb j) from fun f j => (View.read_apply _ _).trans (cast_eq _ _)]
  rw [show ∀ j, (kSliceK L).view.read (Elt F) (vK m d) j = vK m d ((kSliceK L).view.emb j) from fun j => (View.read_apply _ _).trans (cast_eq _ _)]
  exact vK_lt m hlab d _
omit [FloatOps F] in
/-- The subcore's seven transfer cells are among its own: they are them, each at zero, and the rest. -/
theorem ownSems0_V :
    (ownSems0 (V d (cV L) (jV L)) : sProp 𝕄)
      = iprop(semVal (cell d (cV L) (jV L) cc0_scratch5.sem) 0 ∗ semVal (cell d (cV L) (jV L) cc0_scratch6.sem) 0 ∗ semVal (cell d (cV L) (jV L) cc0_scoped0.sem) 0 ∗ semVal (cell d (cV L) (jV L) cc0_scoped1.sem) 0 ∗ semVal (cell d (cV L) (jV L) cc0_scoped2.sem) 0 ∗ semVal (cell d (cV L) (jV L) cc0_scoped3.sem) 0 ∗ semVal (cell d (cV L) (jV L) cc0_scoped4.sem) 0
          ∗ bigSep ((((((((ownCells (V d (cV L) (jV L))).erase (cell d (cV L) (jV L) cc0_scratch5.sem)).erase (cell d (cV L) (jV L) cc0_scratch6.sem)).erase (cell d (cV L) (jV L) cc0_scoped0.sem)).erase (cell d (cV L) (jV L) cc0_scoped1.sem)).erase (cell d (cV L) (jV L) cc0_scoped2.sem)).erase (cell d (cV L) (jV L) cc0_scoped3.sem)).erase (cell d (cV L) (jV L) cc0_scoped4.sem)) fun g => semVal g 0) := by
  unfold SparseCore.Cfg.ownSems0
  rw [SparseCore.bigSep_erase' ((mem_ownCells (g := (cell d (cV L) (jV L) cc0_scratch5.sem))).mpr ⟨rfl, by show (SemLoc.dma cc0_scratch5.sem : SemLoc sig).isScoped .scVector = true; decide⟩),
    SparseCore.bigSep_erase' (Finset.mem_erase.mpr ⟨(fun e => absurd (Prod.mk.inj e).2 (by decide)), ((mem_ownCells (g := (cell d (cV L) (jV L) cc0_scratch6.sem))).mpr ⟨rfl, by show (SemLoc.dma cc0_scratch6.sem : SemLoc sig).isScoped .scVector = true; decide⟩)⟩),
    SparseCore.bigSep_erase' (Finset.mem_erase.mpr ⟨(fun e => absurd (Prod.mk.inj e).2 (by decide)), (Finset.mem_erase.mpr ⟨(fun e => absurd (Prod.mk.inj e).2 (by decide)), ((mem_ownCells (g := (cell d (cV L) (jV L) cc0_scoped0.sem))).mpr ⟨rfl, by show (SemLoc.dma cc0_scoped0.sem : SemLoc sig).isScoped .scVector = true; decide⟩)⟩)⟩),
    SparseCore.bigSep_erase' (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), ((mem_ownCells (g := (cell d (cV L) (jV L) cc0_scoped1.sem))).mpr ⟨rfl, by show (SemLoc.dma cc0_scoped1.sem : SemLoc sig).isScoped .scVector = true; decide⟩)⟩)⟩)⟩),
    SparseCore.bigSep_erase' (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), ((mem_ownCells (g := (cell d (cV L) (jV L) cc0_scoped2.sem))).mpr ⟨rfl, by show (SemLoc.dma cc0_scoped2.sem : SemLoc sig).isScoped .scVector = true; decide⟩)⟩)⟩)⟩)⟩),
    SparseCore.bigSep_erase' (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), ((mem_ownCells (g := (cell d (cV L) (jV L) cc0_scoped3.sem))).mpr ⟨rfl, by show (SemLoc.dma cc0_scoped3.sem : SemLoc sig).isScoped .scVector = true; decide⟩)⟩)⟩)⟩)⟩)⟩),
    SparseCore.bigSep_erase' (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), ((mem_ownCells (g := (cell d (cV L) (jV L) cc0_scoped4.sem))).mpr ⟨rfl, by show (SemLoc.dma cc0_scoped4.sem : SemLoc sig).isScoped .scVector = true; decide⟩)⟩)⟩)⟩)⟩)⟩)⟩)]

omit [FloatOps F] in
/-- Its four scratch buffers are among its own: they are them, each at some contents, and the rest. -/
theorem ownBufs_V :
    (ownBufs (V d (cV L) (jV L)) : sProp 𝕄)
      = iprop((∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep (((((ownRefs (τ := τ) (.scVector (cV L) (jV L))).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch1) rfl)).trans ?_
  rw [SparseCore.bigSep_erase' (Finset.mem_erase.mpr ⟨fun e => absurd (Proc.devRef_injective _ e) (show (cc0_scratch2 : Ref sig .scVector) ≠ cc0_scratch1 by decide), (SparseCore.Cfg.mem_ownRefs_of_owner (p := Proc.scVector (cV L) (jV L)) (b := (Proc.scVector (cV L) (jV L)).devRef cc0_scratch2) rfl)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (SparseCore.Cfg.mem_ownRefs_of_owner (p := Proc.scVector (cV L) (jV L)) (b := (Proc.scVector (cV L) (jV L)).devRef cc0_scratch3) rfl)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (SparseCore.Cfg.mem_ownRefs_of_owner (p := Proc.scVector (cV L) (jV L)) (b := (Proc.scVector (cV L) (jV L)).devRef cc0_scratch4) rfl)⟩)⟩)⟩)]

/-- Where row `i 0` of the multiply reads the fetched paired rows: the same row, at the row's start plus the column. The
    start is word `256 r + i 0` of the starts the subcore fetched (`r` the chunk). Reduced into range so that the index is
    total; on starts that are 0 or 64 nothing is reduced. -/
def rowsIdx (r : Nat) (cOff : S512.Idx → BitVec 32) (i : S256x64.Idx) : S256x128.Idx :=
  ValueIdx.ix2 (⟨(i 0).val, (i 0).isLt⟩ : Fin 256)
    (⟨((cOff (ValueIdx.ix1 (⟨(256 * r + (i 0).val) % 512, Nat.mod_lt _ (by decide)⟩ : Fin 512))).toNat + (i 1).val) % 128, Nat.mod_lt _ (by decide)⟩ : Fin 128)

/-- The batch chunk once its rows before `k` have been multiplied by their halves of the fetched paired rows. -/
def latAfter (r : Nat) (cOff : S512.Idx → BitVec 32) (cRows : S256x128.Idx → F .f32) (cLat : S256x64.Idx → F .f32) (k : Nat) :
    S256x64.Idx → F .f32 :=
  fun i => if (i 0).val < k then FloatOps.mulf (cLat i) (cRows (rowsIdx r cOff i)) else cLat i

/-- The first multiply loop before trip `k`: the fetched starts and paired rows as they are, the batch chunk with its rows
    before `k` multiplied. -/
def inv1 (cOff : Buf (Elt F) ((V d (cV L) (jV L)).loc cc0_scratch1)) (cRows : Buf (Elt F) ((V d (cV L) (jV L)).loc cc0_scratch3))
    (cLat : Buf (Elt F) ((V d (cV L) (jV L)).loc cc0_scratch4)) (k : Nat) (_ : BitVec 32) : sProp 𝕄 :=
  iprop(((sOff).view.loc (V d (cV L) (jV L)) ↦{fullShare} cOff)
    ∗ ((sRows).view.loc (V d (cV L) (jV L)) ↦{fullShare} cRows)
    ∗ ((sLat).view.loc (V d (cV L) (jV L)) ↦{fullShare} latAfter 0 cOff cRows cLat k))

/-- The second multiply loop before trip `k`: the same over the second chunk, whose starts are the second half of the
    fetched starts. -/
def inv2 (cOff : Buf (Elt F) ((V d (cV L) (jV L)).loc cc0_scratch1)) (cRows : Buf (Elt F) ((V d (cV L) (jV L)).loc cc0_scratch3))
    (cLat : Buf (Elt F) ((V d (cV L) (jV L)).loc cc0_scratch4)) (k : Nat) (_ : BitVec 32) : sProp 𝕄 :=
  iprop(((sOff).view.loc (V d (cV L) (jV L)) ↦{fullShare} cOff)
    ∗ ((sRows).view.loc (V d (cV L) (jV L)) ↦{fullShare} cRows)
    ∗ ((sLat).view.loc (V d (cV L) (jV L)) ↦{fullShare} latAfter 1 cOff cRows cLat k))

end Tile
end Cert.Proof.KI
end
-- ==== Proof.KI.Trips.lean ====
/-
  One trip of each multiply loop. Row k of the batch chunk is 64 numbers, handled as four groups of sixteen lanes; group j
  is replaced by its product, lane by lane, with the sixteen numbers of row k of the fetched paired rows that start at
  the row's start word plus 16 j. The start word is 0 or 64, so every group's window lies inside the 128 numbers of the
  paired row, and together the four groups are the 64 numbers starting at the start word.
-/
import proofs.«206680_g87033217286338_cont_sun_m_31_32_alg».proof.Proof.KI.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t2V" => (Memref.whole Cert.KernelIdeal.main_v0_scv : Memref Cert.KernelIdeal.sig Kind.scVector Space.hbm Cert.KernelIdeal.S500000x128 EltTy.f32)
local notation "latV" => (Memref.whole Cert.KernelIdeal.main_arg0_scv : Memref Cert.KernelIdeal.sig Kind.scVector Space.hbm Cert.KernelIdeal.S16384x64 EltTy.f32)
local notation "kV" => (Memref.whole Cert.KernelIdeal.main_v2_scv : Memref Cert.KernelIdeal.sig Kind.scVector Space.hbm Cert.KernelIdeal.S16384 EltTy.i32)
local notation "offV" => (Memref.whole Cert.KernelIdeal.main_v6_scv : Memref Cert.KernelIdeal.sig Kind.scVector Space.hbm Cert.KernelIdeal.S16384 EltTy.i32)
local notation "outV" => (Memref.whole Cert.KernelIdeal.main_v7_scv : Memref Cert.KernelIdeal.sig Kind.scVector Space.hbm Cert.KernelIdeal.S16384x64 EltTy.f32)
local notation "shV" => (Memref.whole Cert.KernelIdeal.cc0_scratch0 : Memref Cert.KernelIdeal.sig Kind.scVector Space.shared Cert.KernelIdeal.S32x512 EltTy.i32)
local notation "sOff" => (Memref.whole Cert.KernelIdeal.cc0_scratch1 : Memref Cert.KernelIdeal.sig Kind.scVector Space.smem Cert.KernelIdeal.S512 EltTy.i32)
local notation "sK" => (Memref.whole Cert.KernelIdeal.cc0_scratch2 : Memref Cert.KernelIdeal.sig Kind.scVector Space.vmem Cert.KernelIdeal.S512 EltTy.i32)
local notation "sRows" => (Memref.whole Cert.KernelIdeal.cc0_scratch3 : Memref Cert.KernelIdeal.sig Kind.scVector Space.vmem Cert.KernelIdeal.S256x128 EltTy.f32)
local notation "sLat" => (Memref.whole Cert.KernelIdeal.cc0_scratch4 : Memref Cert.KernelIdeal.sig Kind.scVector Space.vmem Cert.KernelIdeal.S256x64 EltTy.f32)

variable [FloatOps F]

section Pure

/-- A list of pieces that all lie in row `k`, together cover row `k`, and each hold the products of that row: written over
    the chunk with the rows before `k` multiplied, they leave the chunk with the rows before `k + 1` multiplied. -/
theorem writes_row (r : Nat) (cOff : S512.Idx → BitVec 32) (cRows : S256x128.Idx → F .f32) (cLat : S256x64.Idx → F .f32) (k : Nat)
    (L : List (View.Piece (Elt F) S256x64 .f32))
    (hrow : ∀ p ∈ L, ∀ i ∈ p.1.set, (i 0).val = k)
    (hcov : ∀ i : S256x64.Idx, (i 0).val = k → ∃ p ∈ L, i ∈ p.1.set)
    (hpay : ∀ p ∈ L, ∀ x, p.2 x = FloatOps.mulf (cLat (p.1.emb x)) (cRows (rowsIdx r cOff (p.1.emb x)))) :
    (sLat).view.writes (Elt F) (latAfter r cOff cRows cLat k) L = latAfter r cOff cRows cLat (k + 1) := by
  funext i
  by_cases h : (i 0).val = k
  · refine (View.read_writes_apply_of_pieces (sLat).view (latAfter r cOff cRows cLat k) (latAfter r cOff cRows cLat (k + 1)) L ?_ i (hcov i h))
    intro p hp x
    have hx : ((p.1.emb x) 0).val = k := hrow p hp _ (by rw [← Rect.map_emb_univ]; exact Finset.mem_map_of_mem _ (Finset.mem_univ x))
    rw [hpay p hp x]
    unfold latAfter
    rw [if_pos (by omega)]
  · refine (View.read_writes_apply_of_forall_not_mem (sLat).view (latAfter r cOff cRows cLat k) i L (fun p hp hm => h (hrow p hp i hm))).trans ?_
    show latAfter r cOff cRows cLat k i = latAfter r cOff cRows cLat (k + 1) i
    unfold latAfter
    by_cases h' : (i 0).val < k
    · rw [if_pos h', if_pos (by omega)]
    · rw [if_neg h', if_neg (by omega)]

end Pure

section Pure2

/-- The four sixteen-lane groups of row `k`, each holding that row's products: see `writes_row`. -/
theorem writes_four (r : Nat) (cOff : S512.Idx → BitVec 32) (cRows : S256x128.Idx → F .f32) (cLat : S256x64.Idx → F .f32) (k : Nat)
    (o0 o1 o2 o3 : Fin 2 → Nat) (h0 : o0 = ![k, 0]) (h1 : o1 = ![k, 16]) (h2 : o2 = ![k, 32]) (h3 : o3 = ![k, 48])
    (inb0 : ∀ a, o0 a + S1x16.size a ≤ S256x64.size a) (inb1 : ∀ a, o1 a + S1x16.size a ≤ S256x64.size a)
    (inb2 : ∀ a, o2 a + S1x16.size a ≤ S256x64.size a) (inb3 : ∀ a, o3 a + S1x16.size a ≤ S256x64.size a)
    (w0 : (Rect.unit (s := S256x64) o0 S1x16.size inb0).shape.Idx → F .f32)
    (w1 : (Rect.unit (s := S256x64) o1 S1x16.size inb1).shape.Idx → F .f32)
    (w2 : (Rect.unit (s := S256x64) o2 S1x16.size inb2).shape.Idx → F .f32)
    (w3 : (Rect.unit (s := S256x64) o3 S1x16.size inb3).shape.Idx → F .f32)
    (hw0 : ∀ x, w0 x = FloatOps.mulf (cLat ((Rect.unit (s := S256x64) o0 S1x16.size inb0).emb x)) (cRows (rowsIdx r cOff ((Rect.unit (s := S256x64) o0 S1x16.size inb0).emb x))))
    (hw1 : ∀ x, w1 x = FloatOps.mulf (cLat ((Rect.unit (s := S256x64) o1 S1x16.size inb1).emb x)) (cRows (rowsIdx r cOff ((Rect.unit (s := S256x64) o1 S1x16.size inb1).emb x))))
    (hw2 : ∀ x, w2 x = FloatOps.mulf (cLat ((Rect.unit (s := S256x64) o2 S1x16.size inb2).emb x)) (cRows (rowsIdx r cOff ((Rect.unit (s := S256x64) o2 S1x16.size inb2).emb x))))
    (hw3 : ∀ x, w3 x = FloatOps.mulf (cLat ((Rect.unit (s := S256x64) o3 S1x16.size inb3).emb x)) (cRows (rowsIdx r cOff ((Rect.unit (s := S256x64) o3 S1x16.size inb3).emb x)))) :
    (sLat).view.writes (Elt F) (latAfter r cOff cRows cLat k)
        [⟨Rect.unit (s := S256x64) o3 S1x16.size inb3, w3⟩, ⟨Rect.unit (s := S256x64) o2 S1x16.size inb2, w2⟩,
         ⟨Rect.unit (s := S256x64) o1 S1x16.size inb1, w1⟩, ⟨Rect.unit (s := S256x64) o0 S1x16.size inb0, w0⟩]
      = latAfter r cOff cRows cLat (k + 1) := by
  subst h0 h1 h2 h3
  apply writes_row
  · intro p hp i hi
    simp only [List.mem_cons, List.not_mem_nil, _root_.or_false] at hp
    rcases hp with rfl | rfl | rfl | rfl
    all_goals
      dsimp only at hi
      have h := (Rect.mem_set_unit.mp hi) 0
      change k ≤ (i 0).val ∧ (i 0).val < k + 1 at h
      omega
  · intro i hi
    have h1 : (i 1).val < 64 := (i 1).isLt
    by_cases c1 : (i 1).val < 16
    · refine ⟨⟨Rect.unit (s := S256x64) ![k, 0] S1x16.size inb0, w0⟩, List.mem_cons_of_mem _ (List.mem_cons_of_mem _ (List.mem_cons_of_mem _ List.mem_cons_self)), (Rect.mem_set_unit (inb := inb0)).mpr (Fin.forall_fin_two.mpr ⟨?_, ?_⟩)⟩
      · show k ≤ (i 0).val ∧ (i 0).val < k + 1; omega
      · show 0 ≤ (i 1).val ∧ (i 1).val < 0 + 16; omega
    by_cases c2 : (i 1).val < 32
    · refine ⟨⟨Rect.unit (s := S256x64) ![k, 16] S1x16.size inb1, w1⟩, List.mem_cons_of_mem _ (List.mem_cons_of_mem _ List.mem_cons_self), (Rect.mem_set_unit (inb := inb1)).mpr (Fin.forall_fin_two.mpr ⟨?_, ?_⟩)⟩
      · show k ≤ (i 0).val ∧ (i 0).val < k + 1; omega
      · show 16 ≤ (i 1).val ∧ (i 1).val < 16 + 16; omega
    by_cases c3 : (i 1).val < 48
    · refine ⟨⟨Rect.unit (s := S256x64) ![k, 32] S1x16.size inb2, w2⟩, List.mem_cons_of_mem _ List.mem_cons_self, (Rect.mem_set_unit (inb := inb2)).mpr (Fin.forall_fin_two.mpr ⟨?_, ?_⟩)⟩
      · show k ≤ (i 0).val ∧ (i 0).val < k + 1; omega
      · show 32 ≤ (i 1).val ∧ (i 1).val < 32 + 16; omega
    · refine ⟨⟨Rect.unit (s := S256x64) ![k, 48] S1x16.size inb3, w3⟩, List.mem_cons_self, (Rect.mem_set_unit (inb := inb3)).mpr (Fin.forall_fin_two.mpr ⟨?_, ?_⟩)⟩
      · show k ≤ (i 0).val ∧ (i 0).val < k + 1; omega
      · show 48 ≤ (i 1).val ∧ (i 1).val < 48 + 16; omega
  · intro p hp x
    simp only [List.mem_cons, List.not_mem_nil, _root_.or_false] at hp
    rcases hp with rfl | rfl | rfl | rfl
    · exact hw3 x
    · exact hw2 x
    · exact hw1 x
    · exact hw0 x

/-- A shape cast read at an index is the operand at the index with the same row-major position. -/
theorem shapeCast_at {α : Type} {s t : Shape} (x : s.Idx → α) (h : s.ShapeCasts t) (j : t.Idx) (k : s.Idx)
    (hk : (s.rowMajor k).val = (t.rowMajor j).val) : shapeCast t x h j = x k := by
  unfold shapeCast
  exact congrArg x (Shape.reshapeEquiv_eq_of_rowMajor h hk)

/-- A group's product at a lane: the product of the batch lane and the paired lane. -/
theorem pay_apply (a : Vec F S1x16 .f32) (b : Vec F S16 .f32) (x : S1x16.Idx) :
    shapeCast S1x16 (mulf (shapeCast S16 a shapeCasts_S1x16_S16) (shapeCast S16 b shapeCasts_S16_S16)) shapeCasts_S16_S1x16 x
      = FloatOps.mulf (a x) (b (ValueIdx.ix1 (⟨(x 1).val, (x 1).isLt⟩ : Fin 16))) := by
  have h0 : (x 0).val = 0 := by have h : (x 0).val < 1 := (x 0).isLt; omega
  have e : (S16.rowMajor (ValueIdx.ix1 (⟨(x 1).val, (x 1).isLt⟩ : Fin 16))).val = (S1x16.rowMajor x).val := by
    rw [Shape.rowMajor_val_one, Shape.rowMajor_val_two, h0]
    show (x 1).val = 0 * 16 + (x 1).val
    omega
  rw [shapeCast_at _ shapeCasts_S16_S1x16 x (ValueIdx.ix1 (⟨(x 1).val, (x 1).isLt⟩ : Fin 16)) e]
  show FloatOps.mulf (shapeCast S16 a shapeCasts_S1x16_S16 _) (shapeCast S16 b shapeCasts_S16_S16 _) = _
  rw [shapeCast_at a shapeCasts_S1x16_S16 _ x e.symm, shapeCast_at b shapeCasts_S16_S16 _ _ rfl]

/-- A load of sixteen lanes of row `k` of the batch chunk, before trip `k`: the lanes as fetched. -/
theorem lat_load (r : Nat) (cOff : S512.Idx → BitVec 32) (cRows : S256x128.Idx → F .f32) (cLat : S256x64.Idx → F .f32) (k : Nat)
    (o : Fin 2 → Nat) (ho : o 0 = k) (inb : ∀ a, o a + S1x16.size a ≤ S256x64.size a)
    (x : (Rect.unit (s := S256x64) o S1x16.size inb).shape.Idx) :
    (sLat).view.readAt (Elt F) (Rect.unit (s := S256x64) o S1x16.size inb).toLoadRect (latAfter r cOff cRows cLat k) x
      = cLat ((Rect.unit (s := S256x64) o S1x16.size inb).emb x) := by
  show latAfter r cOff cRows cLat k ((Rect.unit (s := S256x64) o S1x16.size inb).emb x) = _
  unfold latAfter
  rw [if_neg]
  show ¬ (o 0 + 1 * (x 0).val < k)
  omega

/-- The start word of row `n`. -/
theorem start_load (cOff : S512.Idx → BitVec 32) (o : Fin 1 → Nat) (n : Nat) (hn : n < 512) (ho : o = ![n])
    (inb : ∀ a, o a + S1.size a ≤ S512.size a) (x : (Rect.unit (s := S512) o S1.size inb).shape.Idx) :
    (sOff).view.readAt (Elt F) (Rect.unit (s := S512) o S1.size inb).toLoadRect cOff x = cOff (ValueIdx.ix1 (⟨n, hn⟩ : Fin 512)) := by
  subst ho
  show cOff _ = cOff _
  congr 1
  funext a; apply Fin.ext
  have hx : (x 0).val = 0 := by have h : (x 0).val < 1 := (x 0).isLt; omega
  match a with
  | ⟨0, _⟩ =>
    show n + 1 * (x 0).val = n
    omega

end Pure2

section Pure3

/-- A load of sixteen lanes of fetched paired row `k`, from lane `n` on. -/
theorem rows_load (cRows : S256x128.Idx → F .f32) (k : Nat) (hk : k < 256)
    (oR : Fin 2 → Nat) (hR : oR = ![k, 0]) (inbR : ∀ a, oR a + S1x128.size a ≤ S256x128.size a)
    (hst : ∀ a, (Rect.unit (s := S256x128) oR S1x128.size inbR).stride a = 1)
    (oW : Fin 1 → Nat) (n : Nat) (hW : oW = ![n]) (inbW : ∀ a, oW a + S16.size a ≤ S128.size a)
    (y : (Rect.unit (s := S128) oW S16.size inbW).shape.Idx) (hn : n + (y 0).val < 128) :
    (((sRows).slice (Rect.unit (s := S256x128) oR S1x128.size inbR) hst).squeeze S128 squeezes_S1x128_S128).view.readAt (Elt F)
        (Rect.unit (s := S128) oW S16.size inbW).toLoadRect cRows y
      = cRows (ValueIdx.ix2 (⟨k, hk⟩ : Fin 256) (⟨n + (y 0).val, hn⟩ : Fin 128)) := by
  subst hR hW
  show cRows ((Rect.unit (s := S256x128) ![k, 0] S1x128.size inbR).emb
      (Shape.reshapeEquiv squeezes_S1x128_S128.numel_eq ((Rect.unit (s := S128) ![n] S16.size inbW).emb y))) = _
  have e : Shape.reshapeEquiv squeezes_S1x128_S128.numel_eq ((Rect.unit (s := S128) ![n] S16.size inbW).emb y)
      = ValueIdx.ix2 (⟨0, Nat.one_pos⟩ : Fin 1) (⟨n + (y 0).val, hn⟩ : Fin 128) :=
    Shape.reshapeEquiv_eq_of_rowMajor _ (by
      rw [Shape.rowMajor_val_two, Shape.rowMajor_val_one]
      show 0 * 128 + (n + (y 0).val) = n + 1 * (y 0).val
      omega)
  rw [e]
  congr 1
  funext a; apply Fin.ext
  match a with
  | ⟨0, _⟩ => show k + 1 * 0 = k; omega
  | ⟨1, _⟩ => show 0 + 1 * (n + (y 0).val) = n + (y 0).val; omega

/-- One group of one trip: the payload written is the product the invariant names, at every lane. -/
theorem group_eq (r : Nat) (hr : r < 2) (cOff : S512.Idx → BitVec 32) (cRows : S256x128.Idx → F .f32) (cLat : S256x64.Idx → F .f32)
    (hoff : ∀ t, cOff t = 0#32 ∨ cOff t = 64#32) (k : Nat) (hk : k < 256) (j : Nat) (hj : j < 4)
    (n : Nat) (hn5 : n < 512) (hnk : n = 256 * r + k)
    (w : BitVec 32) (hw : w = cOff (ValueIdx.ix1 (⟨n, hn5⟩ : Fin 512)))
    (c : BitVec 32) (hc : c = BitVec.ofNat 32 (16 * j))
    (oS oL : Fin 2 → Nat) (hS : oS = ![k, 16 * j]) (hL : oL = ![k, 16 * j])
    (inbS : ∀ a, oS a + S1x16.size a ≤ S256x64.size a) (inbL : ∀ a, oL a + S1x16.size a ≤ S256x64.size a)
    (oR : Fin 2 → Nat) (hR : oR = ![k, 0]) (inbR : ∀ a, oR a + S1x128.size a ≤ S256x128.size a)
    (hst : ∀ a, (Rect.unit (s := S256x128) oR S1x128.size inbR).stride a = 1)
    (oW : Fin 1 → Nat) (hW : oW = ![(Scalar.indexCast (Scalar.addi w c)).toNat]) (inbW : ∀ a, oW a + S16.size a ≤ S128.size a)
    (x : S1x16.Idx) :
    shapeCast S1x16 (mulf
        (shapeCast S16 ((sLat).view.readAt (Elt F) (Rect.unit (s := S256x64) oL S1x16.size inbL).toLoadRect (latAfter r cOff cRows cLat k)) shapeCasts_S1x16_S16)
        (shapeCast S16 ((((sRows).slice (Rect.unit (s := S256x128) oR S1x128.size inbR) hst).squeeze S128 squeezes_S1x128_S128).view.readAt (Elt F)
          (Rect.unit (s := S128) oW S16.size inbW).toLoadRect cRows) shapeCasts_S16_S16)) shapeCasts_S16_S1x16 x
      = FloatOps.mulf (cLat ((Rect.unit (s := S256x64) oS S1x16.size inbS).emb x))
          (cRows (rowsIdx r cOff ((Rect.unit (s := S256x64) oS S1x16.size inbS).emb x))) := by
  have hx0 : (x 0).val = 0 := by have h : (x 0).val < 1 := (x 0).isLt; omega
  have hx1 : (x 1).val < 16 := (x 1).isLt
  have hw' : w = 0#32 ∨ w = 64#32 := hw ▸ hoff _
  have hn : (Scalar.indexCast (Scalar.addi w c)).toNat = w.toNat + 16 * j := by
    subst hc
    rcases hw' with rfl | rfl <;> interval_cases j <;> rfl
  have hwn : w.toNat = 0 ∨ w.toNat = 64 := by rcases hw' with rfl | rfl <;> [left; right] <;> rfl
  rw [pay_apply]
  rw [lat_load r cOff cRows cLat k oL (by rw [hL]; rfl) inbL x]
  rw [rows_load cRows k hk oR hR inbR hst oW _ hW inbW _ (by show _ + (x 1).val < 128; omega)]
  subst hS hL
  congr 2
  unfold rowsIdx
  funext a; apply Fin.ext
  match a with
  | ⟨0, _⟩ => show k = k + 1 * (x 0).val; omega
  | ⟨1, _⟩ =>
    show (Scalar.indexCast (Scalar.addi w c)).toNat + (x 1).val
      = ((cOff (ValueIdx.ix1 (⟨(256 * r + (k + 1 * (x 0).val)) % 512, Nat.mod_lt _ (by decide)⟩ : Fin 512))).toNat + (16 * j + 1 * (x 1).val)) % 128
    have e : (ValueIdx.ix1 (⟨(256 * r + (k + 1 * (x 0).val)) % 512, Nat.mod_lt _ (by decide)⟩ : Fin 512))
        = ValueIdx.ix1 (⟨n, hn5⟩ : Fin 512) := by
      congr 2; omega
    rw [e, ← hw, hn]
    omega

end Pure3

section Trips
variable (d : Dev nD) (L : grid0.Coords)

set_option maxHeartbeats 4000000 in
/-- One trip of the first multiply loop: from "the rows before k are multiplied" to "the rows before k + 1 are". -/
theorem trip1 (cOff : Buf (Elt F) ((V d (cV L) (jV L)).loc cc0_scratch1)) (cRows : Buf (Elt F) ((V d (cV L) (jV L)).loc cc0_scratch3))
    (cLat : Buf (Elt F) ((V d (cV L) (jV L)).loc cc0_scratch4)) (hoff : ∀ j, cOff j = 0#32 ∨ cOff j = 64#32)
    (k : Fin k0_t1_loop.trips) (acc : BitVec 32) :
    inv1 (F := F) d L cOff cRows cLat k.val acc
      ⊢ wp frame (wpE (defs₀ (F := F)) 𝒱₀ (V d (cV L) (jV L)) none) Set.univ
          (k0_t1_body L t2V (Memref.isWhole_whole _) latV (Memref.isWhole_whole _) kV (Memref.isWhole_whole _) offV (Memref.isWhole_whole _)
            outV (Memref.isWhole_whole _) shV (Memref.isWhole_whole _) sOff (Memref.isWhole_whole _) sK (Memref.isWhole_whole _)
            sRows (Memref.isWhole_whole _) sLat (Memref.isWhole_whole _) cc0_scratch5 cc0_scratch6 cc0_scoped0 cc0_scoped1 cc0_scoped2 cc0_scoped3 cc0_scoped4 0#32 k acc)
          fun acc' => inv1 (F := F) d L cOff cRows cLat (k.val + 1) acc' := by
  unfold inv1 k0_t1_body
  iintro ⟨HsOff, HsRows, HsLat⟩
  sl_exec (disch := first | (apply chk1_of; apply hoff) | skip)
  sl_step
  have hk : k.val < 256 := lt_of_lt_of_le k.isLt k0_t1_abs.2.1
  have hw : trip1.sl.r d L cOff k = cOff (ValueIdx.ix1 (⟨k.val, by omega⟩ : Fin 512)) :=
    start_load cOff (k0_off4 k) (k.val) (by omega) (k0_off4_eq k) (k0_off4_inb k) _
  have hchk : k0_chk1 (trip1.sl.r d L cOff k) := chk1_of _ (by rw [hw]; exact hoff _)
  have key := writes_four (F := F) 0 cOff cRows cLat k.val (k0_off8 k) (k0_off9 k) (k0_off11 k) (k0_off12 k)
      (k0_off8_eq k) (k0_off9_eq k) (k0_off11_eq k) (k0_off12_eq k) (k0_off8_inb k) (k0_off9_inb k) (k0_off11_inb k) (k0_off12_inb k)
      (k0_pay5 (View.readAt (Elt F) (sLat).view (Rect.unit (s := S256x64) (k0_off5 k) S1x16.size (k0_off5_inb k)).toLoadRect (latAfter 0 cOff cRows cLat k.val)) (trip1.sl.v38 d L cOff cRows hoff k))
      (k0_pay6 (trip1.sl.v46 d L cOff cRows cLat k) (trip1.sl.v52 d L cOff cRows hoff k))
      (k0_pay1 (trip1.sl.r_1 d L cOff cRows cLat hoff k))
      (k0_pay2 (trip1.sl.v74 d L cOff cRows cLat k) (trip1.sl.v80 d L cOff cRows hoff k))
      (fun x => group_eq (F := F) 0 (by decide) cOff cRows cLat hoff k.val hk 0 (by decide) (k.val) (by omega) (by omega) (trip1.sl.r d L cOff k) hw 0#32 rfl
          (k0_off8 k) (k0_off5 k) (k0_off8_eq k) (k0_off5_eq k) (k0_off8_inb k) (k0_off5_inb k)
          (k0_off6 k) (k0_off6_eq k) (k0_off6_inb k) (fun _ => rfl)
          (k0_off7 (trip1.sl.r d L cOff k) 0#32) rfl (k0_off7_inb _ hchk 0) x)
      (fun x => group_eq (F := F) 0 (by decide) cOff cRows cLat hoff k.val hk 1 (by decide) (k.val) (by omega) (by omega) (trip1.sl.r d L cOff k) hw 16#32 rfl
          (k0_off9 k) (k0_off9 k) (k0_off9_eq k) (k0_off9_eq k) (k0_off9_inb k) (k0_off9_inb k)
          (k0_off10 k) (k0_off10_eq k) (k0_off10_inb k) (fun _ => rfl)
          (k0_off7 (trip1.sl.r d L cOff k) 16#32) rfl (k0_off7_inb _ hchk 1) x)
      (fun x => group_eq (F := F) 0 (by decide) cOff cRows cLat hoff k.val hk 2 (by decide) (k.val) (by omega) (by omega) (trip1.sl.r d L cOff k) hw 32#32 rfl
          (k0_off11 k) (k0_off11 k) (k0_off11_eq k) (k0_off11_eq k) (k0_off11_inb k) (k0_off11_inb k)
          (k0_off10 k) (k0_off10_eq k) (k0_off10_inb k) (fun _ => rfl)
          (k0_off7 (trip1.sl.r d L cOff k) 32#32) rfl (k0_off7_inb _ hchk 2) x)
      (fun x => group_eq (F := F) 0 (by decide) cOff cRows cLat hoff k.val hk 3 (by decide) (k.val) (by omega) (by omega) (trip1.sl.r d L cOff k) hw 48#32 rfl
          (k0_off12 k) (k0_off12 k) (k0_off12_eq k) (k0_off12_eq k) (k0_off12_inb k) (k0_off12_inb k)
          (k0_off10 k) (k0_off10_eq k) (k0_off10_inb k) (fun _ => rfl)
          (k0_off7 (trip1.sl.r d L cOff k) 48#32) rfl (k0_off7_inb _ hchk 3) x)
  isplitl [HsOff]
  · iexact HsOff
  isplitl [HsRows]
  · iexact HsRows
  rw [← key]
  iexact HsLat

set_option maxHeartbeats 4000000 in
/-- One trip of the second multiply loop: the same over the second chunk. -/
theorem trip2 (cOff : Buf (Elt F) ((V d (cV L) (jV L)).loc cc0_scratch1)) (cRows : Buf (Elt F) ((V d (cV L) (jV L)).loc cc0_scratch3))
    (cLat : Buf (Elt F) ((V d (cV L) (jV L)).loc cc0_scratch4)) (hoff : ∀ j, cOff j = 0#32 ∨ cOff j = 64#32)
    (k : Fin k0_t2_loop.trips) (acc : BitVec 32) :
    inv2 (F := F) d L cOff cRows cLat k.val acc
      ⊢ wp frame (wpE (defs₀ (F := F)) 𝒱₀ (V d (cV L) (jV L)) none) Set.univ
          (k0_t2_body L t2V (Memref.isWhole_whole _) latV (Memref.isWhole_whole _) kV (Memref.isWhole_whole _) offV (Memref.isWhole_whole _)
            outV (Memref.isWhole_whole _) shV (Memref.isWhole_whole _) sOff (Memref.isWhole_whole _) sK (Memref.isWhole_whole _)
            sRows (Memref.isWhole_whole _) sLat (Memref.isWhole_whole _) cc0_scratch5 cc0_scratch6 cc0_scoped0 cc0_scoped1 cc0_scoped2 cc0_scoped3 cc0_scoped4 k acc)
          fun acc' => inv2 (F := F) d L cOff cRows cLat (k.val + 1) acc' := by
  unfold inv2 k0_t2_body
  iintro ⟨HsOff, HsRows, HsLat⟩
  sl_exec (disch := first | (apply chk2_of; apply hoff) | skip)
  sl_step
  have hk : k.val < 256 := lt_of_lt_of_le k.isLt k0_t2_abs.2.1
  have hw : trip2.sl.r d L cOff k = cOff (ValueIdx.ix1 (⟨k.val + 256, by omega⟩ : Fin 512)) :=
    start_load cOff (k0_off13 k) (k.val + 256) (by omega) (k0_off13_eq k) (k0_off13_inb k) _
  have hchk : k0_chk2 (trip2.sl.r d L cOff k) := chk2_of _ (by rw [hw]; exact hoff _)
  have key := writes_four (F := F) 1 cOff cRows cLat k.val (k0_off17 k) (k0_off18 k) (k0_off20 k) (k0_off21 k)
      (k0_off17_eq k) (k0_off18_eq k) (k0_off20_eq k) (k0_off21_eq k) (k0_off17_inb k) (k0_off18_inb k) (k0_off20_inb k) (k0_off21_inb k)
      (k0_pay8 (View.readAt (Elt F) (sLat).view (Rect.unit (s := S256x64) (k0_off14 k) S1x16.size (k0_off14_inb k)).toLoadRect (latAfter 1 cOff cRows cLat k.val)) (trip2.sl.v38 d L cOff cRows hoff k))
      (k0_pay9 (trip2.sl.v46 d L cOff cRows cLat k) (trip2.sl.v52 d L cOff cRows hoff k))
      (k0_pay3 (trip2.sl.r_1 d L cOff cRows cLat hoff k))
      (k0_pay4 (trip2.sl.v74 d L cOff cRows cLat k) (trip2.sl.v80 d L cOff cRows hoff k))
      (fun x => group_eq (F := F) 1 (by decide) cOff cRows cLat hoff k.val hk 0 (by decide) (k.val + 256) (by omega) (by omega) (trip2.sl.r d L cOff k) hw 0#32 rfl
          (k0_off17 k) (k0_off14 k) (k0_off17_eq k) (k0_off14_eq k) (k0_off17_inb k) (k0_off14_inb k)
          (k0_off15 k) (k0_off15_eq k) (k0_off15_inb k) (fun _ => rfl)
          (k0_off16 (trip2.sl.r d L cOff k) 0#32) rfl (k0_off16_inb _ hchk 0) x)
      (fun x => group_eq (F := F) 1 (by decide) cOff cRows cLat hoff k.val hk 1 (by decide) (k.val + 256) (by omega) (by omega) (trip2.sl.r d L cOff k) hw 16#32 rfl
          (k0_off18 k) (k0_off18 k) (k0_off18_eq k) (k0_off18_eq k) (k0_off18_inb k) (k0_off18_inb k)
          (k0_off19 k) (k0_off19_eq k) (k0_off19_inb k) (fun _ => rfl)
          (k0_off16 (trip2.sl.r d L cOff k) 16#32) rfl (k0_off16_inb _ hchk 1) x)
      (fun x => group_eq (F := F) 1 (by decide) cOff cRows cLat hoff k.val hk 2 (by decide) (k.val + 256) (by omega) (by omega) (trip2.sl.r d L cOff k) hw 32#32 rfl
          (k0_off20 k) (k0_off20 k) (k0_off20_eq k) (k0_off20_eq k) (k0_off20_inb k) (k0_off20_inb k)
          (k0_off19 k) (k0_off19_eq k) (k0_off19_inb k) (fun _ => rfl)
          (k0_off16 (trip2.sl.r d L cOff k) 32#32) rfl (k0_off16_inb _ hchk 2) x)
      (fun x => group_eq (F := F) 1 (by decide) cOff cRows cLat hoff k.val hk 3 (by decide) (k.val + 256) (by omega) (by omega) (trip2.sl.r d L cOff k) hw 48#32 rfl
          (k0_off21 k) (k0_off21 k) (k0_off21_eq k) (k0_off21_eq k) (k0_off21_inb k) (k0_off21_inb k)
          (k0_off19 k) (k0_off19_eq k) (k0_off19_inb k) (fun _ => rfl)
          (k0_off16 (trip2.sl.r d L cOff k) 48#32) rfl (k0_off16_inb _ hchk 3) x)
  isplitl [HsOff]
  · iexact HsOff
  isplitl [HsRows]
  · iexact HsRows
  rw [← key]
  iexact HsLat

end Trips
end Cert.Proof.KI
end
-- ==== Proof.KI.Bridge.lean ====
/-
  What a subcore's two written chunks hold is the specification.

  The paired table holds the table's rows two at a time: row R of it is rows 2 R and 2 R + 1 of the table side by side,
  so its entry (R, X) is the table's entry (2 R + X / 64, X mod 64). A label l names row l / 2 of the paired table
  and, inside it, the 64 numbers starting at 64 (l mod 2): entry (l / 2, 64 (l mod 2) + c) is the table's entry (l, c).
  After a multiply loop's 256 trips every row of the batch chunk has been multiplied by those 64 numbers of the paired
  row its halved label fetched; with the batch chunk, the halved labels and the start words read at the subcore's rows
  512 w + 256 r + a of the batch-sized arrays, that is the specification's value at those rows.
-/
import proofs.«206680_g87033217286338_cont_sun_m_31_32_alg».proof.Proof.KI.TileDefs
import Idealize.ShloMosaic.Lib.Pipeline.Value
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t2V" => (Memref.whole Cert.KernelIdeal.main_v0_scv : Memref Cert.KernelIdeal.sig Kind.scVector Space.hbm Cert.KernelIdeal.S500000x128 EltTy.f32)
local notation "latV" => (Memref.whole Cert.KernelIdeal.main_arg0_scv : Memref Cert.KernelIdeal.sig Kind.scVector Space.hbm Cert.KernelIdeal.S16384x64 EltTy.f32)
local notation "kV" => (Memref.whole Cert.KernelIdeal.main_v2_scv : Memref Cert.KernelIdeal.sig Kind.scVector Space.hbm Cert.KernelIdeal.S16384 EltTy.i32)
local notation "offV" => (Memref.whole Cert.KernelIdeal.main_v6_scv : Memref Cert.KernelIdeal.sig Kind.scVector Space.hbm Cert.KernelIdeal.S16384 EltTy.i32)
local notation "outV" => (Memref.whole Cert.KernelIdeal.main_v7_scv : Memref Cert.KernelIdeal.sig Kind.scVector Space.hbm Cert.KernelIdeal.S16384x64 EltTy.f32)
local notation "shV" => (Memref.whole Cert.KernelIdeal.cc0_scratch0 : Memref Cert.KernelIdeal.sig Kind.scVector Space.shared Cert.KernelIdeal.S32x512 EltTy.i32)
local notation "sOff" => (Memref.whole Cert.KernelIdeal.cc0_scratch1 : Memref Cert.KernelIdeal.sig Kind.scVector Space.smem Cert.KernelIdeal.S512 EltTy.i32)
local notation "sK" => (Memref.whole Cert.KernelIdeal.cc0_scratch2 : Memref Cert.KernelIdeal.sig Kind.scVector Space.vmem Cert.KernelIdeal.S512 EltTy.i32)
local notation "sRows" => (Memref.whole Cert.KernelIdeal.cc0_scratch3 : Memref Cert.KernelIdeal.sig Kind.scVector Space.vmem Cert.KernelIdeal.S256x128 EltTy.f32)
local notation "sLat" => (Memref.whole Cert.KernelIdeal.cc0_scratch4 : Memref Cert.KernelIdeal.sig Kind.scVector Space.vmem Cert.KernelIdeal.S256x64 EltTy.f32)

variable [FloatOps F]

open Idealize.ShloMosaic.ValueIdx

section Bridge
variable (d : Dev nD) (L : grid0.Coords)

omit [FloatOps F] in
theorem wL_lt : (wL L).val < 32 := (wL L).isLt

/-- Row `a` of chunk `r` of the subcore's block, as a row of the batch-sized arrays. -/
def gRow (L : grid0.Coords) (r : Fin 2) (a : Fin 256) : Fin 16384 :=
  ⟨512 * (wL L).val + 256 * r.val + a.val, by have := (wL L).isLt; have := r.isLt; have := a.isLt; omega⟩
/-- Word `q` of the subcore's 512, as an index of the batch-sized arrays. -/
def gWord (L : grid0.Coords) (q : Fin 512) : Fin 16384 :=
  ⟨512 * (wL L).val + q.val, by have := (wL L).isLt; have := q.isLt; omega⟩

omit [FloatOps F] in
/-- Half of a word, and 64 times its last bit, as numbers. -/
theorem half_toNat (x : BitVec 32) : (IntOp.shrui .host x 1#32).toNat = x.toNat / 2 := by
  unfold IntOp.shrui
  rw [if_pos (by decide)]
  show (x >>> (1 : Nat)).toNat = x.toNat / 2
  rw [BitVec.toNat_ushiftRight, Nat.shiftRight_eq_div_pow]
omit [FloatOps F] in
theorem bit64_toNat (x : BitVec 32) : (IntOp.muli (IntOp.andi x 1#32) 64#32).toNat = 64 * (x.toNat % 2) := by
  have e : (x &&& 1#32).toNat = x.toNat % 2 := by
    rw [BitVec.toNat_and]; exact Nat.and_one_is_mod _
  unfold IntOp.muli IntOp.andi
  rw [BitVec.toNat_mul, e]
  have h2 : x.toNat % 2 < 2 := Nat.mod_lt _ (by decide)
  show x.toNat % 2 * 64 % 2 ^ 32 = 64 * (x.toNat % 2)
  omega

/-- The paired table at a label's half and start is the table at the label. -/
theorem table_half (tab : S1000000x64.Idx → F .f32) (x : BitVec 32) (hx : x.toNat ≤ 999999) (c : Fin 64)
    (hK : (IntOp.shrui .host x 1#32).toNat < 500000) :
    shapeCast S500000x128 tab shapeCasts_S1000000x64_S500000x128
      (ix2 (⟨(IntOp.shrui .host x 1#32).toNat, hK⟩ : Fin 500000)
        (⟨((IntOp.muli (IntOp.andi x 1#32) 64#32).toNat + c.val) % 128, Nat.mod_lt _ (by decide)⟩ : Fin 128))
    = tab (ix2 (Cert.Spec.row x) c) := by
  apply shapeCast_apply
  rw [Shape.rowMajor_val_two, Shape.rowMajor_val_two]
  have h1 := half_toNat x
  have h2 := bit64_toNat x
  have h3 := Cert.Spec.row_val hx
  have hc := c.isLt
  show (Cert.Spec.row x).val * 64 + c.val
    = (IntOp.shrui .host x 1#32).toNat * 128 + ((IntOp.muli (IntOp.andi x 1#32) 64#32).toNat + c.val) % 128
  rw [h1, h2, h3]
  omega

omit [FloatOps F] in
theorem ix2_fst {n0 n1 : Nat} (a : Fin n0) (b : Fin n1) : ((ix2 a b) 0 : Fin n0) = a := rfl
omit [FloatOps F] in
theorem ix2_snd {n0 n1 : Nat} (a : Fin n0) (b : Fin n1) : ((ix2 a b) 1 : Fin n1) = b := rfl

/-- After all 256 trips of a multiply loop over chunk `r`, the batch chunk is the specification's values at the
    subcore's rows, provided the three scratch contents are what was fetched: the start words and the batch chunk the
    arrays at the subcore's rows, the paired rows the paired table at the rows the halved labels name. -/
theorem chunk_eq (hlab : LabOKm m) (r : Fin 2) (cOff : S512.Idx → BitVec 32) (cRows : S256x128.Idx → F .f32) (cLat : S256x64.Idx → F .f32)
    (hOff : ∀ q : Fin 512, cOff (ix1 q) = vOff m d (ix1 (gWord L q)))
    (hLat : ∀ (a : Fin 256) (c : Fin 64), cLat (ix2 a c) = m (latLoc d) (ix2 (gRow L r a) c))
    (hRows : ∀ (a : Fin 256) (X : Fin 128), cRows (ix2 a X)
      = vT2 m d (ix2 (⟨(vK m d (ix1 (gRow L r a))).toNat, vK_lt m hlab d _⟩ : Fin 500000) X))
    (a : Fin 256) (c : Fin 64) :
    latAfter r.val cOff cRows cLat 256 (ix2 a c) = vOut m d (ix2 (gRow L r a) c) := by
  have hq : (256 * r.val + a.val) % 512 = 256 * r.val + a.val := Nat.mod_eq_of_lt (by have := r.isLt; have := a.isLt; omega)
  have hri : rowsIdx r.val cOff (ix2 a c)
      = ix2 a (⟨((cOff (ix1 (⟨256 * r.val + a.val, by have := r.isLt; have := a.isLt; omega⟩ : Fin 512))).toNat + c.val) % 128,
          Nat.mod_lt _ (by decide)⟩ : Fin 128) := by
    unfold rowsIdx
    funext b
    match b with
    | ⟨0, _⟩ => rfl
    | ⟨1, _⟩ =>
      apply Fin.ext
      show ((cOff (ix1 (⟨(256 * r.val + a.val) % 512, _⟩ : Fin 512))).toNat + c.val) % 128
        = ((cOff (ix1 (⟨256 * r.val + a.val, _⟩ : Fin 512))).toNat + c.val) % 128
      simp only [hq]
  unfold latAfter
  rw [if_pos (show ((ix2 a c) 0).val < 256 from a.isLt), hri, hLat, hRows, hOff]
  have hg : gWord L (⟨256 * r.val + a.val, by have := r.isLt; have := a.isLt; omega⟩ : Fin 512) = gRow L r a := by
    apply Fin.ext; show 512 * (wL L).val + (256 * r.val + a.val) = 512 * (wL L).val + 256 * r.val + a.val; omega
  rw [hg]
  exact congrArg (FloatOps.mulf (m (latLoc d) (ix2 (gRow L r a) c)))
    (table_half (m (tabLoc d)) (m (labLoc d) (ix1 (gRow L r a))) (hlab d _) c (vK_lt m hlab d _))

/-! ## Where the subcore's slices sit -/

/-- The subcore's 512 start words, its two chunks of the batch, all of the paired table, and the two halves of its
    fetched halved labels, as the program slices them. -/
abbrev offSliceK (L : grid0.Coords) : Memref sig .scVector .hbm S512 .i32 :=
  (offV).slice (Rect.unit (s := S16384) (k0_off2 L) S512.size (k0_off2_inb L)) (fun _ => rfl)
abbrev latCh0 (L : grid0.Coords) : Memref sig .scVector .hbm S256x64 .f32 :=
  (latV).slice (Rect.unit (s := S16384x64) (k0_off3 L 0#32) S256x64.size (k0_off3_inb L 0)) (fun _ => rfl)
abbrev latCh1 (L : grid0.Coords) : Memref sig .scVector .hbm S256x64 .f32 :=
  (latV).slice (Rect.unit (s := S16384x64) (k0_off3 L 256#32) S256x64.size (k0_off3_inb L 1)) (fun _ => rfl)
abbrev t2All : Memref sig .scVector .hbm S500000x128 .f32 :=
  (t2V).slice (Rect.unit (s := S500000x128) ![0, 0] S500000x128.size inb_S500000x128_S500000x128_0_0) (fun _ => rfl)
abbrev kHalf0 : Memref sig .scVector .vmem S256 .i32 :=
  (sK).slice (Rect.unit (s := S512) ![0] S256.size inb_S512_S256_0) (fun _ => rfl)
abbrev kHalf1 : Memref sig .scVector .vmem S256 .i32 :=
  (sK).slice (Rect.unit (s := S512) ![256] S256.size inb_S512_S256_256) (fun _ => rfl)

omit [FloatOps F] in
theorem off2_val : (k0_off2 L) 0 = 512 * (wL L).val := by
  rw [k0_off2_eq]; show 1024 * (L 1).val + 512 * (L 0).val = 512 * (2 * (L 1).val + (L 0).val); omega
omit [FloatOps F] in
theorem emb_offSlice (q : Fin 512) : (offSliceK L).view.emb (ix1 q) = ix1 (gWord L q) := by
  funext a; apply Fin.ext
  match a with
  | ⟨0, _⟩ =>
    show (k0_off2 L) 0 + 1 * q.val = 512 * (wL L).val + q.val
    rw [off2_val]; omega
omit [FloatOps F] in
theorem emb_kSlice (q : Fin 512) : (kSliceK L).view.emb (ix1 q) = ix1 (gWord L q) := by
  funext a; apply Fin.ext
  match a with
  | ⟨0, _⟩ =>
    show (k0_off2 L) 0 + 1 * q.val = 512 * (wL L).val + q.val
    rw [off2_val]; omega
omit [FloatOps F] in
theorem emb_latCh0 (a : Fin 256) (c : Fin 64) : (latCh0 L).view.emb (ix2 a c) = ix2 (gRow L 0 a) c := by
  funext b; apply Fin.ext
  match b with
  | ⟨0, _⟩ =>
    show (k0_off3 L 0#32) 0 + 1 * a.val = 512 * (wL L).val + 256 * 0 + a.val
    rw [off3_0]; show 1024 * (L 1).val + 512 * (L 0).val + 1 * a.val = 512 * (2 * (L 1).val + (L 0).val) + 256 * 0 + a.val; omega
  | ⟨1, _⟩ =>
    show (k0_off3 L 0#32) 1 + 1 * c.val = c.val
    rw [off3_0]; show 0 + 1 * c.val = c.val; omega
omit [FloatOps F] in
theorem emb_latCh1 (a : Fin 256) (c : Fin 64) : (latCh1 L).view.emb (ix2 a c) = ix2 (gRow L 1 a) c := by
  funext b; apply Fin.ext
  match b with
  | ⟨0, _⟩ =>
    show (k0_off3 L 256#32) 0 + 1 * a.val = 512 * (wL L).val + 256 * 1 + a.val
    rw [off3_1]; show 1024 * (L 1).val + 512 * (L 0).val + 256 + 1 * a.val = 512 * (2 * (L 1).val + (L 0).val) + 256 * 1 + a.val; omega
  | ⟨1, _⟩ =>
    show (k0_off3 L 256#32) 1 + 1 * c.val = c.val
    rw [off3_1]; show 0 + 1 * c.val = c.val; omega
omit [FloatOps F] in
theorem emb_outCh0 (a : Fin 256) (c : Fin 64) : (outCh0 L).view.emb (ix2 a c) = ix2 (gRow L 0 a) c := emb_latCh0 L a c
omit [FloatOps F] in
theorem emb_outCh1 (a : Fin 256) (c : Fin 64) : (outCh1 L).view.emb (ix2 a c) = ix2 (gRow L 1 a) c := emb_latCh1 L a c
omit [FloatOps F] in
theorem emb_t2All (y : S500000x128.Idx) : (t2All).view.emb y = y := by
  funext b; apply Fin.ext
  match b with
  | ⟨0, _⟩ => show 0 + 1 * (y 0).val = (y 0).val; omega
  | ⟨1, _⟩ => show 0 + 1 * (y 1).val = (y 1).val; omega
omit [FloatOps F] in
theorem emb_kHalf0 (a : Fin 256) : (kHalf0).view.emb (ix1 a) = ix1 (⟨256 * 0 + a.val, by have := a.isLt; omega⟩ : Fin 512) := by
  funext b; apply Fin.ext
  match b with
  | ⟨0, _⟩ => show 0 + 1 * a.val = 256 * 0 + a.val; omega
omit [FloatOps F] in
theorem emb_kHalf1 (a : Fin 256) : (kHalf1).view.emb (ix1 a) = ix1 (⟨256 * 1 + a.val, by have := a.isLt; omega⟩ : Fin 512) := by
  funext b; apply Fin.ext
  match b with
  | ⟨0, _⟩ => show 256 + 1 * a.val = 256 * 1 + a.val; omega

/-! ## What the scratch buffers hold -/

/-- The start words the subcore fetched (through its row of the shared scratch, whatever that held) are the start
    words of its rows. -/
theorem cOff_eq (fsh : Buf (Elt F) (shLoc d (cV L))) (fOff : Buf (Elt F) ((V d (cV L) (jV L)).loc cc0_scratch1)) (q : Fin 512) :
    View.write (Elt F) (sOff).view fOff (ReadAs.same.apply (View.read (Elt F) (shRowK L).view
        ((shRowK L).view.writes (Elt F) fsh [⟨Rect.whole S512, ReadAs.same.apply (View.read (Elt F) (offSliceK L).view (vOff m d))⟩])))
      Finset.univ (ix1 q) = vOff m d (ix1 (gWord L q)) := by
  rw [View.write_whole_univ]
  have h := View.read_writes_cons_emb (shRowK L).view fsh (Rect.whole S512) (View.read (Elt F) (offSliceK L).view (vOff m d)) [] (ix1 q)
  rw [Rect.emb_whole_apply] at h
  refine h.trans ?_
  rw [show View.read (Elt F) (offSliceK L).view (vOff m d) (ix1 q) = vOff m d ((offSliceK L).view.emb (ix1 q)) from
    (View.read_apply _ _).trans (cast_eq _ _), emb_offSlice]

/-- The batch chunk the subcore fetched is the batch at its rows: the first chunk, -/
theorem cLat0_eq (g : Buf (Elt F) ((V d (cV L) (jV L)).loc cc0_scratch4)) (a : Fin 256) (c : Fin 64) :
    View.write (Elt F) (sLat).view g (ReadAs.same.apply (View.read (Elt F) (latCh0 L).view (m (latLoc d)))) Finset.univ (ix2 a c)
      = m (latLoc d) (ix2 (gRow L 0 a) c) := by
  rw [View.write_whole_univ]
  exact ((View.read_apply _ _).trans (cast_eq _ _)).trans (congrArg _ (emb_latCh0 L a c))
/-- and the second, whatever the scratch held before. -/
theorem cLat1_eq (g : Buf (Elt F) ((V d (cV L) (jV L)).loc cc0_scratch4)) (a : Fin 256) (c : Fin 64) :
    View.write (Elt F) (sLat).view g (ReadAs.same.apply (View.read (Elt F) (latCh1 L).view (m (latLoc d)))) Finset.univ (ix2 a c)
      = m (latLoc d) (ix2 (gRow L 1 a) c) := by
  rw [View.write_whole_univ]
  exact ((View.read_apply _ _).trans (cast_eq _ _)).trans (congrArg _ (emb_latCh1 L a c))

omit [FloatOps F] in
/-- Position `a` of a list of 256 words is its index `a`. -/
theorem rowMajor_symm_256 (z : Fin S256.numel) : S256.rowMajor.symm z = ix1 (⟨z.val, z.isLt⟩ : Fin 256) := by
  rw [Equiv.symm_apply_eq]
  apply Fin.ext
  rw [Shape.rowMajor_val_one]

omit [FloatOps F] in
/-- Word `256 r + a` of the subcore's 512 is row `a` of its chunk `r`. -/
theorem gWord_gRow (r : Fin 2) (a : Fin 256) (h : 256 * r.val + a.val < 512) : gWord L ⟨256 * r.val + a.val, h⟩ = gRow L r a :=
  Fin.ext (by show 512 * (wL L).val + (256 * r.val + a.val) = 512 * (wL L).val + 256 * r.val + a.val; omega)

/-- The halved labels the subcore fetched, read through the first half of its index scratch, are the halved labels of
    the rows of its first chunk; -/
theorem kList0_eq (fK : Buf (Elt F) ((V d (cV L) (jV L)).loc cc0_scratch2)) (a : Fin 256) :
    View.read (Elt F) (kHalf0).view (View.write (Elt F) (sK).view fK (ReadAs.same.apply (View.read (Elt F) (kSliceK L).view (vK m d))) Finset.univ) (ix1 a)
      = vK m d (ix1 (gRow L 0 a)) := by
  rw [View.write_whole_univ]
  refine ((View.read_apply _ _).trans (cast_eq _ _)).trans ?_
  rw [emb_kHalf0]
  refine ((View.read_apply _ _).trans (cast_eq _ _)).trans ?_
  rw [emb_kSlice]
  exact congrArg (fun g => vK m d (ix1 g)) (gWord_gRow L 0 a _)
/-- through the second half, of its second chunk. -/
theorem kList1_eq (fK : Buf (Elt F) ((V d (cV L) (jV L)).loc cc0_scratch2)) (a : Fin 256) :
    View.read (Elt F) (kHalf1).view (View.write (Elt F) (sK).view fK (ReadAs.same.apply (View.read (Elt F) (kSliceK L).view (vK m d))) Finset.univ) (ix1 a)
      = vK m d (ix1 (gRow L 1 a)) := by
  rw [View.write_whole_univ]
  refine ((View.read_apply _ _).trans (cast_eq _ _)).trans ?_
  rw [emb_kHalf1]
  refine ((View.read_apply _ _).trans (cast_eq _ _)).trans ?_
  rw [emb_kSlice]
  exact congrArg (fun g => vK m d (ix1 g)) (gWord_gRow L 1 a _)

/-- The indexed copy's rows: with a list of 256 words that are the halved labels of the subcore's rows of chunk `r`, the
    fetched paired row `a` is the paired table's row at the halved label of row `a`. -/
theorem gather_at (hlab : LabOKm m) (r : Fin 2) (lst : S256.Idx → Elt F .i32)
    (hl : ∀ a : Fin 256, lst (ix1 a) = vK m d (ix1 (gRow L r a)))
    (hn : S256.numel = S256x128.size gathers_S500000x128_S256x128.axis')
    (hin : ∀ x, (lst x).toNat < S500000x128.size gathers_S500000x128_S256x128.axis)
    (a : Fin 256) (X : Fin 128) :
    SparseCore.gatherPayload gathers_S500000x128_S256x128 (View.read (Elt F) (t2All).view (vT2 m d))
      (SparseCore.rows lst hn hin) (ix2 a X)
    = vT2 m d (ix2 (⟨(vK m d (ix1 (gRow L r a))).toNat, vK_lt m hlab d _⟩ : Fin 500000) X) := by
  unfold SparseCore.gatherPayload
  refine ((View.read_apply _ _).trans (cast_eq _ _)).trans ?_
  rw [emb_t2All]
  congr 1
  funext b; apply Fin.ext
  match b with
  | ⟨0, _⟩ =>
    have h0 := Shape.Gathers.idx_axis gathers_S500000x128_S256x128 (SparseCore.rows lst hn hin) (ix2 a X)
    refine (congrArg Fin.val h0).trans ?_
    show (lst (S256.rowMajor.symm (Fin.cast hn.symm ((ix2 a X) gathers_S500000x128_S256x128.axis')))).toNat = _
    rw [rowMajor_symm_256]
    exact congrArg BitVec.toNat (hl a)
  | ⟨1, _⟩ =>
    exact Shape.Gathers.idx_of_ne gathers_S500000x128_S256x128 _ (ix2 a X) ⟨1, by decide⟩ (by decide)

omit [FloatOps F] in
/-- A buffer whose last write covered it whole reads as that write. -/
theorem rows_head (f : Buf (Elt F) ((V d (cV L) (jV L)).loc cc0_scratch3)) (G : S256x128.Idx → F .f32)
    (Lst : List (View.Piece (Elt F) S256x128 .f32)) (y : S256x128.Idx) :
    (sRows).view.writes (Elt F) f (⟨Rect.whole cc0_scratch3.ty.shape, G⟩ :: Lst) y = G y := by
  have h := View.read_writes_cons_emb (sRows).view f (Rect.whole cc0_scratch3.ty.shape) G Lst y
  rw [Rect.emb_whole_apply] at h
  exact h

omit [FloatOps F] in
/-- Chunk 0 of the result, written whole from a scratch that holds `P`, holds on the chunk what `P` holds at the chunk's
    own coordinates. -/
theorem out0_eq (f0 : Buf (Elt F) (outLoc d)) (P : S256x64.Idx → F .f32) (g : S16384x64.Idx → F .f32)
    (h : ∀ (a : Fin 256) (c : Fin 64), P (ix2 a c) = g (ix2 (gRow L 0 a) c)) :
    ∀ i ∈ (outCh0 L).view.set, (outCh0 L).view.writes (Elt F) f0 [⟨Rect.whole S256x64, P⟩] i = g i := by
  intro i hi
  obtain ⟨x, -, rfl⟩ := Finset.mem_map.mp (show i ∈ Finset.univ.map (outCh0 L).view.emb from hi)
  have hw := View.read_writes_cons_emb (outCh0 L).view f0 (Rect.whole S256x64) P [] x
  rw [Rect.emb_whole_apply] at hw
  have hw' : (outCh0 L).view.writes (Elt F) f0 [⟨Rect.whole S256x64, P⟩] ((outCh0 L).view.emb x) = P x :=
    ((cast_eq _ _).symm.trans (View.read_apply _ _).symm).trans hw
  rw [hw']
  obtain ⟨a, c, rfl⟩ : ∃ (a : Fin 256) (c : Fin 64), x = ix2 a c := ⟨x 0, x 1, eq_ix2 x⟩
  rw [emb_outCh0]
  exact h a c

omit [FloatOps F] in
/-- Chunk 1 of the result, written whole from a scratch that holds `P`, holds on the chunk what `P` holds at the chunk's
    own coordinates. -/
theorem out1_eq (f0 : Buf (Elt F) (outLoc d)) (P : S256x64.Idx → F .f32) (g : S16384x64.Idx → F .f32)
    (h : ∀ (a : Fin 256) (c : Fin 64), P (ix2 a c) = g (ix2 (gRow L 1 a) c)) :
    ∀ i ∈ (outCh1 L).view.set, (outCh1 L).view.writes (Elt F) f0 [⟨Rect.whole S256x64, P⟩] i = g i := by
  intro i hi
  obtain ⟨x, -, rfl⟩ := Finset.mem_map.mp (show i ∈ Finset.univ.map (outCh1 L).view.emb from hi)
  have hw := View.read_writes_cons_emb (outCh1 L).view f0 (Rect.whole S256x64) P [] x
  rw [Rect.emb_whole_apply] at hw
  have hw' : (outCh1 L).view.writes (Elt F) f0 [⟨Rect.whole S256x64, P⟩] ((outCh1 L).view.emb x) = P x :=
    ((cast_eq _ _).symm.trans (View.read_apply _ _).symm).trans hw
  rw [hw']
  obtain ⟨a, c, rfl⟩ : ∃ (a : Fin 256) (c : Fin 64), x = ix2 a c := ⟨x 0, x 1, eq_ix2 x⟩
  rw [emb_outCh1]
  exact h a c

end Bridge
end Cert.Proof.KI
end
-- ==== Proof.KI.Tile.lean ====
/-
  One vector subcore's task, run. The subcore fetches its 512 start words (through its row of the shared scratch into its
  scalar scratch) and its 512 halved labels; then, for each of its two chunks of 256 rows: fetches the chunk of the batch
  and, by the indexed copy, the 256 paired rows its halved labels name; multiplies row by row; writes the chunk out. The
  halved labels are rows of the paired table because the labels are rows of the table; the start words are 0 or 64. What
  it leaves in its two chunks of the result is the specification's values.
-/
import proofs.«206680_g87033217286338_cont_sun_m_31_32_alg».proof.Proof.KI.Trips
import proofs.«206680_g87033217286338_cont_sun_m_31_32_alg».proof.Proof.KI.Bridge

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t2V" => (Memref.whole Cert.KernelIdeal.main_v0_scv : Memref Cert.KernelIdeal.sig Kind.scVector Space.hbm Cert.KernelIdeal.S500000x128 EltTy.f32)
local notation "latV" => (Memref.whole Cert.KernelIdeal.main_arg0_scv : Memref Cert.KernelIdeal.sig Kind.scVector Space.hbm Cert.KernelIdeal.S16384x64 EltTy.f32)
local notation "kV" => (Memref.whole Cert.KernelIdeal.main_v2_scv : Memref Cert.KernelIdeal.sig Kind.scVector Space.hbm Cert.KernelIdeal.S16384 EltTy.i32)
local notation "offV" => (Memref.whole Cert.KernelIdeal.main_v6_scv : Memref Cert.KernelIdeal.sig Kind.scVector Space.hbm Cert.KernelIdeal.S16384 EltTy.i32)
local notation "outV" => (Memref.whole Cert.KernelIdeal.main_v7_scv : Memref Cert.KernelIdeal.sig Kind.scVector Space.hbm Cert.KernelIdeal.S16384x64 EltTy.f32)
local notation "shV" => (Memref.whole Cert.KernelIdeal.cc0_scratch0 : Memref Cert.KernelIdeal.sig Kind.scVector Space.shared Cert.KernelIdeal.S32x512 EltTy.i32)
local notation "sOff" => (Memref.whole Cert.KernelIdeal.cc0_scratch1 : Memref Cert.KernelIdeal.sig Kind.scVector Space.smem Cert.KernelIdeal.S512 EltTy.i32)
local notation "sK" => (Memref.whole Cert.KernelIdeal.cc0_scratch2 : Memref Cert.KernelIdeal.sig Kind.scVector Space.vmem Cert.KernelIdeal.S512 EltTy.i32)
local notation "sRows" => (Memref.whole Cert.KernelIdeal.cc0_scratch3 : Memref Cert.KernelIdeal.sig Kind.scVector Space.vmem Cert.KernelIdeal.S256x128 EltTy.f32)
local notation "sLat" => (Memref.whole Cert.KernelIdeal.cc0_scratch4 : Memref Cert.KernelIdeal.sig Kind.scVector Space.vmem Cert.KernelIdeal.S256x64 EltTy.f32)

variable [FloatOps F]

open Idealize.ShloMosaic.ValueIdx

section Tile
variable (d : Dev nD) (L : grid0.Coords)

/-- Before any trip nothing has been multiplied. -/
theorem latAfter_zero (r : Nat) (cOff : S512.Idx → BitVec 32) (cRows : S256x128.Idx → F .f32) (cLat : S256x64.Idx → F .f32) :
    latAfter r cOff cRows cLat 0 = cLat := by
  funext i; unfold latAfter; rw [if_neg (Nat.not_lt_zero _)]

omit [FloatOps F] in
/-- Each multiply loop makes 256 trips. -/
theorem trips1 : Scf.trips k0_t1_loop.lb k0_t1_loop.ub k0_t1_loop.st = 256 := by decide
omit [FloatOps F] in
theorem trips2 : Scf.trips k0_t2_loop.lb k0_t2_loop.ub k0_t2_loop.st = 256 := by decide

set_option maxHeartbeats 8000000 in
/-- The task on the vector subcore at grid point `L` of device `d`: from its read shares of the four arrays it reads, its
    two chunks of the result, its row of the shared scratch and its own scratch and cells, to the same with the two chunks
    at the specification's values. -/
theorem tile_body (hF : (K (F := F)).Facts) (hlab : LabOKm m) (O : CellTallies nD τ sig (HIx 1)) (W : Waits sig (HIx 1)) (hO : ∀ g, O g none = 0) :
    iprop(levAts (K (F := F)).L (K (F := F)).lev ∗ emp
        ∗ (goRes m d (wL L) ∗ shRes d (cV L) (wL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_mul_body L t2V (Memref.isWhole_whole _) latV (Memref.isWhole_whole _) kV (Memref.isWhole_whole _) offV (Memref.isWhole_whole _)
            outV (Memref.isWhole_whole _) shV (Memref.isWhole_whole _) sOff (Memref.isWhole_whole _) sK (Memref.isWhole_whole _)
            sRows (Memref.isWhole_whole _) sLat (Memref.isWhole_whole _) cc0_scratch5 cc0_scratch6 cc0_scoped0 cc0_scoped1 cc0_scoped2 cc0_scoped3 cc0_scoped4)
          fun _ => iprop((tdRes m d (wL L) ∗ shRes d (cV L) (wL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__emb_mul_body_eq_skeleton]; unfold cc0__emb_mul_body_skel
  rw [(K (F := F)).scopedBufs_V hF d (cV L) (jV L), SparseCore.Cfg.scopedSems0_V (Val := Elt F) d (cV L) (jV L), ownSems0_V, ownBufs_V]
  iintro ⟨#Hlv, -, ⟨⟨⟨Ht2, Hlat, Hk, Hoff⟩, Ho0, Ho1⟩, ⟨%fsh, Hsh⟩⟩, ⟨⟨%fOff, HsOff⟩, ⟨%fK, HsK⟩, ⟨%fRows, HsRows⟩, ⟨%fLat, HsLat⟩, Hbufs⟩,
    ⟨Hg, Hl, H0, H1, H2, H3, H4, Hsems⟩, HO⟩
  ihave Hmw := ((K (F := F)).mayWaits_none (thr := V d (cV L) (jV L)) hO) $$ Hlv
  ihave Ht2' := (Entails.of_eq (pts_t2 (F := F) d L _ _).symm) $$ Ht2
  ihave Hlat' := (Entails.of_eq (pts_lat (F := F) d L _ _).symm) $$ Hlat
  ihave Hk' := (Entails.of_eq (pts_k (F := F) d L _ _).symm) $$ Hk
  ihave Hoff' := (Entails.of_eq (pts_off (F := F) d L _ _).symm) $$ Hoff
  ihave Ho0' := (Entails.of_eq (pts_outCh0 (F := F) d L _).symm) $$ Ho0
  ihave Ho1' := (Entails.of_eq (pts_outCh1 (F := F) d L _).symm) $$ Ho1
  ihave Hsh' := (Entails.of_eq (pts_shRowK (F := F) d L _).symm) $$ Hsh
  ihave HsOff' := (Entails.of_eq (pts_sOff (F := F) d L _).symm) $$ HsOff
  ihave HsK' := (Entails.of_eq (pts_sK (F := F) d L _).symm) $$ HsK
  ihave HsRows' := (Entails.of_eq (pts_sRows (F := F) d L _).symm) $$ HsRows
  ihave HsLat' := (Entails.of_eq (pts_sLat (F := F) d L _).symm) $$ HsLat
  -- the three fetches: the start words through the shared row into the scalar scratch, the halved labels
  sl_exec
  -- the first indexed copy: the halved labels in the first half of the index scratch are rows of the paired table
  have hin0 := k_inb (F := F) m d L hlab fK (tile_body.sl.dma0_2 m d L) rfl ![0] inb_S512_S256_0
  sl_exec
  -- what the scalar scratch now holds, word by word: the start words of the subcore's rows, each 0 or 64
  have hcOff : ∀ q : Fin 512, (View.write (Elt F) (sOff).view fOff (tile_body.sl.dma0_1 m d L fsh) Finset.univ) (ix1 q) = vOff m d (ix1 (gWord L q)) :=
    fun q => cOff_eq (F := F) m d L fsh fOff q
  have hoffw : ∀ j, (View.write (Elt F) (sOff).view fOff (tile_body.sl.dma0_1 m d L fsh) Finset.univ) j = 0#32 ∨ (View.write (Elt F) (sOff).view fOff (tile_body.sl.dma0_1 m d L fsh) Finset.univ) j = 64#32 := by
    intro (j : S512.Idx)
    obtain ⟨q, rfl⟩ : ∃ q : Fin 512, j = ix1 q := ⟨j 0, eq_ix1 j⟩
    rw [hcOff q]
    exact vOff_cases m d _
  -- the first multiply loop
  sl_for (inv1 (F := F) d L (View.write (Elt F) (sOff).view fOff (tile_body.sl.dma0_1 m d L fsh) Finset.univ)
      ((sRows).view.writes (Elt F) (sRows).view.junk [⟨Rect.whole cc0_scratch3.ty.shape, tile_body.sl.gather0 m d L fK hin0⟩])
      (View.write (Elt F) (sLat).view fLat (tile_body.sl.dma0_3 m d L) Finset.univ)) $$ [HsOff' HsRows' HsLat']
  case region =>
    intro k acc
    exact trip1 (F := F) d L _ _ _ hoffw k acc
  · unfold inv1
    rw [latAfter_zero]
    isplitl [HsOff']; · iexact HsOff'
    isplitl [HsRows']; · iexact HsRows'
    iexact HsLat'
  iintro %acc1 HI
  unfold inv1
  icases HI with ⟨HsOff', HsRows', HsLat'⟩
  -- the first chunk out, the second chunk of the batch in
  sl_exec
  have hin1 := k_inb (F := F) m d L hlab fK (tile_body.sl.dma0_2 m d L) rfl ![256] inb_S512_S256_256
  sl_exec
  -- the second multiply loop
  sl_for (inv2 (F := F) d L (View.write (Elt F) (sOff).view fOff (tile_body.sl.dma0_1 m d L fsh) Finset.univ)
      ((sRows).view.writes (Elt F) (sRows).view.junk [⟨Rect.whole cc0_scratch3.ty.shape, tile_body.sl.gather0_1 m d L fK hin1⟩, ⟨Rect.whole cc0_scratch3.ty.shape, tile_body.sl.gather0 m d L fK hin0⟩])
      (View.write (Elt F) (sLat).view (latAfter 0 (View.write (Elt F) (sOff).view fOff (tile_body.sl.dma0_1 m d L fsh) Finset.univ) ((sRows).view.writes (Elt F) (sRows).view.junk [⟨Rect.whole cc0_scratch3.ty.shape, tile_body.sl.gather0 m d L fK hin0⟩]) (View.write (Elt F) (sLat).view fLat (tile_body.sl.dma0_3 m d L) Finset.univ) (Scf.trips k0_t1_loop.lb k0_t1_loop.ub k0_t1_loop.st)) (tile_body.sl.dma0_5 m d L) Finset.univ)) $$ [HsOff' HsRows' HsLat']
  case region =>
    intro k acc
    exact trip2 (F := F) d L _ _ _ hoffw k acc
  · unfold inv2
    rw [latAfter_zero]
    isplitl [HsOff']; · iexact HsOff'
    isplitl [HsRows']; · iexact HsRows'
    iexact HsLat'
  iintro %acc2 HI
  unfold inv2
  icases HI with ⟨HsOff', HsRows', HsLat'⟩
  -- the second chunk out, and the return
  sl_exec
  sl_step
  -- what the two chunks hold is the specification
  have bridge0 : ∀ i ∈ (outCh0 L).view.set,
      ((outCh0 L).view.writes (Elt F) (outCh0 L).view.junk [⟨Rect.whole S256x64, tile_body.sl.dma0_4 m d L fsh fOff fK fLat hin0⟩]) i = vOut m d i :=
    out0_eq (F := F) d L _ _ (vOut m d) (fun a c => by
      show latAfter 0 (View.write (Elt F) (sOff).view fOff (tile_body.sl.dma0_1 m d L fsh) Finset.univ) ((sRows).view.writes (Elt F) (sRows).view.junk [⟨Rect.whole cc0_scratch3.ty.shape, tile_body.sl.gather0 m d L fK hin0⟩]) (View.write (Elt F) (sLat).view fLat (tile_body.sl.dma0_3 m d L) Finset.univ) (Scf.trips k0_t1_loop.lb k0_t1_loop.ub k0_t1_loop.st) (ix2 a c) = _
      rw [trips1]
      exact chunk_eq (F := F) m d L hlab 0 _ _ _ hcOff (fun a c => cLat0_eq (F := F) m d L fLat a c)
        (fun a X => (rows_head (F := F) d L _ _ [] (ix2 a X)).trans
          (gather_at (F := F) m d L hlab 0 _ (fun a => kList0_eq (F := F) m d L fK a) _ _ a X)) a c)
  have bridge1 : ∀ i ∈ (outCh1 L).view.set,
      ((outCh1 L).view.writes (Elt F) (m (outLoc d)) [⟨Rect.whole S256x64, tile_body.sl.dma0_6 m d L fsh fOff fK fLat hin0 hin1⟩]) i = vOut m d i :=
    out1_eq (F := F) d L _ _ (vOut m d) (fun a c => by
      show latAfter 1 (View.write (Elt F) (sOff).view fOff (tile_body.sl.dma0_1 m d L fsh) Finset.univ) ((sRows).view.writes (Elt F) (sRows).view.junk [⟨Rect.whole cc0_scratch3.ty.shape, tile_body.sl.gather0_1 m d L fK hin1⟩, ⟨Rect.whole cc0_scratch3.ty.shape, tile_body.sl.gather0 m d L fK hin0⟩]) (View.write (Elt F) (sLat).view (latAfter 0 (View.write (Elt F) (sOff).view fOff (tile_body.sl.dma0_1 m d L fsh) Finset.univ) ((sRows).view.writes (Elt F) (sRows).view.junk [⟨Rect.whole cc0_scratch3.ty.shape, tile_body.sl.gather0 m d L fK hin0⟩]) (View.write (Elt F) (sLat).view fLat (tile_body.sl.dma0_3 m d L) Finset.univ) (Scf.trips k0_t1_loop.lb k0_t1_loop.ub k0_t1_loop.st)) (tile_body.sl.dma0_5 m d L) Finset.univ) (Scf.trips k0_t2_loop.lb k0_t2_loop.ub k0_t2_loop.st) (ix2 a c) = _
      rw [trips2]
      exact chunk_eq (F := F) m d L hlab 1 _ _ _ hcOff (fun a c => cLat1_eq (F := F) m d L _ a c)
        (fun a X => (rows_head (F := F) d L _ _ _ (ix2 a X)).trans
          (gather_at (F := F) m d L hlab 1 _ (fun a => kList1_eq (F := F) m d L fK a) _ _ a X)) a c)
  isplitl [Ht2' Hlat' Hk' Hoff' Ho0' Ho1' Hsh']
  · isplitl [Ht2' Hlat' Hk' Hoff' Ho0' Ho1']
    · isplitl [Ht2' Hlat' Hk' Hoff']
      · isplitl [Ht2']; · iapply (Entails.of_eq (pts_t2 (F := F) d L _ _)); iexact Ht2'
        isplitl [Hlat']; · iapply (Entails.of_eq (pts_lat (F := F) d L _ _)); iexact Hlat'
        isplitl [Hk']; · iapply (Entails.of_eq (pts_k (F := F) d L _ _)); iexact Hk'
        iapply (Entails.of_eq (pts_off (F := F) d L _ _)); iexact Hoff'
      · isplitl [Ho0']
        · iapply (Entails.of_eq ((pointsTo_congr bridge0).trans (pts_outCh0 (F := F) d L (vOut m d)))); iexact Ho0'
        · iapply (Entails.of_eq ((pointsTo_congr bridge1).trans (pts_outCh1 (F := F) d L (vOut m d)))); iexact Ho1'
    · iexists _; iapply (Entails.of_eq (pts_shRowK (F := F) d L _)); iexact Hsh'
  isplitl [HsOff' HsK' HsRows' HsLat' Hbufs]
  · isplitl [HsOff']; · iexists _; iapply (Entails.of_eq (pts_sOff (F := F) d L _)); iexact HsOff'
    isplitl [HsK']; · iexists _; iapply (Entails.of_eq (pts_sK (F := F) d L _)); iexact HsK'
    isplitl [HsRows']; · iexists _; iapply (Entails.of_eq (pts_sRows (F := F) d L _)); iexact HsRows'
    isplitl [HsLat']; · iexists _; iapply (Entails.of_eq (pts_sLat (F := F) d L _)); iexact HsLat'
    iexact Hbufs
  isplitl [Hg Hl H0 H1 H2 H3 H4 Hsems]
  · isplitl [Hg]; · iexact Hg
    isplitl [Hl]; · iexact Hl
    isplitl [H0]; · iexact H0
    isplitl [H1]; · iexact H1
    isplitl [H2]; · iexact H2
    isplitl [H3]; · iexact H3
    isplitl [H4]; · iexact H4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The launch theorem's obligation -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_mul_body (coordsV c s) t2V (Memref.isWhole_whole _) latV (Memref.isWhole_whole _) kV (Memref.isWhole_whole _) offV (Memref.isWhole_whole _)
            outV (Memref.isWhole_whole _) shV (Memref.isWhole_whole _) sOff (Memref.isWhole_whole _) sK (Memref.isWhole_whole _)
            sRows (Memref.isWhole_whole _) sLat (Memref.isWhole_whole _) cc0_scratch5 cc0_scratch6 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
/-- Every task of the one call: the subcore's task at its grid point. -/
theorem tileObl (hF : (K (F := F)).Facts) (hlab : LabOKm m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hlab O W hO).trans (wp_mono frame _ _ fun _ => obl_post)

end Cert.Proof.KI
end
-- ==== Proof.KB.Common.lean ====
/-
  The embedding lookup on the SparseCores: the program as the launch theorem sees it, the values @main computes before
  the call, who works on which rows, and what the call's handshakes carry.

  @main reads the table two rows at a time (500000 rows of 128), halves each label (the row of the paired table) and
  keeps 64 times its last bit (where in the paired row the label's own 64 numbers start). Each of the 32 vector subcores
  then takes 512 rows of the batch, fetches the paired rows its labels name, and multiplies, entry by entry, each row of
  the batch by the half of the paired row that is the label's own row of the table.
-/
import proofs.«206680_g87033217286338_cont_sun_m_31_32_alg».proof.Kernel
import proofs.«206680_g87033217286338_cont_sun_m_31_32_alg».proof.Proof.Gen.Kernel
import proofs.«206680_g87033217286338_cont_sun_m_31_32_alg».proof.Proof.Gen.Kernel.Skeleton
import proofs.«206680_g87033217286338_cont_sun_m_31_32_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev latLoc (d : Dev nD) : Loc nD τ sig := (SparseCore.T d).loc main_arg0
abbrev labLoc (d : Dev nD) : Loc nD τ sig := (SparseCore.T d).loc main_arg1
abbrev tabLoc (d : Dev nD) : Loc nD τ sig := (SparseCore.T d).loc main_arg2
abbrev t2Loc (d : Dev nD) : Loc nD τ sig := (SparseCore.T d).loc main_v0
abbrev kLoc (d : Dev nD) : Loc nD τ sig := (SparseCore.T d).loc main_v2
abbrev offLoc (d : Dev nD) : Loc nD τ sig := (SparseCore.T d).loc main_v6
abbrev outLoc (d : Dev nD) : Loc nD τ sig := (SparseCore.T d).loc main_v7

variable [FloatOps F]

/-- The table's rows taken two at a time: 500000 rows of 128. -/
def vT2 (d : Dev nD) : Buf (Elt F) (t2Loc d) := shapeCast S500000x128 (m (tabLoc d)) shapeCasts_S1000000x64_S500000x128
/-- Half of each label: the row of the paired table. -/
def vK (d : Dev nD) : Buf (Elt F) (kLoc d) :=
  Host.shrui (m (labLoc d)) (broadcastInDim S16384 ![] bcast_S_S16384 (constantI S_ 32 1#32))
/-- 64 times each label's last bit: where in the paired row the label's own row starts. -/
def vOff (d : Dev nD) : Buf (Elt F) (offLoc d) :=
  muli (andi (m (labLoc d)) (broadcastInDim S16384 ![] bcast_S_S16384 (constantI S_ 32 1#32)))
    (broadcastInDim S16384 ![] bcast_S_S16384 (constantI S_ 32 64#32))
/-- What the result array ends at. -/
def vOut (d : Dev nD) : Buf (Elt F) (outLoc d) := Cert.Spec.G (m (latLoc d)) (m (labLoc d)) (m (tabLoc d))

/-! ## The arrays as the tiles address them -/

local notation "t2V" => (Memref.whole Cert.Kernel.main_v0_scv : Memref Cert.Kernel.sig Kind.scVector Space.hbm Cert.Kernel.S500000x128 EltTy.f32)
local notation "latV" => (Memref.whole Cert.Kernel.main_arg0_scv : Memref Cert.Kernel.sig Kind.scVector Space.hbm Cert.Kernel.S16384x64 EltTy.f32)
local notation "kV" => (Memref.whole Cert.Kernel.main_v2_scv : Memref Cert.Kernel.sig Kind.scVector Space.hbm Cert.Kernel.S16384 EltTy.i32)
local notation "offV" => (Memref.whole Cert.Kernel.main_v6_scv : Memref Cert.Kernel.sig Kind.scVector Space.hbm Cert.Kernel.S16384 EltTy.i32)
local notation "outV" => (Memref.whole Cert.Kernel.main_v7_scv : Memref Cert.Kernel.sig Kind.scVector Space.hbm Cert.Kernel.S16384x64 EltTy.f32)
local notation "shV" => (Memref.whole Cert.Kernel.cc0_scratch0 : Memref Cert.Kernel.sig Kind.scVector Space.shared Cert.Kernel.S32x512 EltTy.i32)

/-! ## Who works on what

The 16384 rows of the batch are cut into 32 blocks of 512 rows, one per vector subcore: subcore `i` of SparseCore `c`
works on block `2 i + c`. It works on its block in two chunks of 256 rows, so the result is cut into 64 chunks:
block `w` is chunks `2 w` and `2 w + 1`. Each SparseCore's shared scratch has 32 rows; the subcore working on block
`w` uses row `w` of its own SparseCore's. The arrays a subcore only reads it holds whole, at one of 32 read shares. -/

/-- The block of subcore `i` of SparseCore `c`. -/
def wid (c : Fin 2) (i : Fin 16) : Fin 32 := ⟨2 * i.val + c.val, by omega⟩
/-- Chunk `r` of block `w`. -/
def ch (w : Fin 32) (r : Fin 2) : Fin 64 := ⟨2 * w.val + r.val, by omega⟩
/-- The read share of the subcore working on block `w`. -/
abbrev tok (w : Fin 32) : PosShare TreeShare := Transfers.shareTok fullShare 32 w

theorem odiv : 64 ∣ S16384x64.size 0 := ⟨256, rfl⟩
theorem sdiv : 32 ∣ S32x512.size 0 := ⟨1, rfl⟩
/-- Chunk `j` of the result: rows `256 j` to `256 j + 255`. -/
abbrev oRect (j : Fin 64) : Rect S16384x64 := Rect.part (s := S16384x64) (a₀ := 0) odiv j
abbrev oSet (j : Fin 64) : Finset S16384x64.Idx := ((outV).view.slice (oRect j)).set
/-- Row `w` of a SparseCore's shared scratch. -/
abbrev shRect (w : Fin 32) : Rect S32x512 := Rect.part (s := S32x512) (a₀ := 0) sdiv w
abbrev shSet (w : Fin 32) : Finset S32x512.Idx := ((shV).view.slice (shRect w)).set
/-- SparseCore `c`'s shared scratch, as every subcore of it addresses it. -/
abbrev shRef (c : Fin τ.nSC) : DevRef τ sig := ⟨.shared, ⟨0, by decide⟩, c⟩
abbrev shLoc (d : Dev nD) (c : Fin τ.nSC) : Loc nD τ sig := (d, shRef c)

/-- The labels are rows of the table, on every device. -/
def LabOKm : Prop := ∀ d : Dev nD, Cert.Spec.LabOK (m (labLoc d))

/-! ## What the handshakes carry -/

/-- The four arrays a subcore only reads, whole, at the read share of block `w`: the paired table, the batch, the halved
    labels and the starts inside the paired rows — the last three as @main computed them from the arguments. -/
abbrev rdRes (d : Dev nD) (w : Fin 32) : sProp 𝕄 :=
  iprop((t2Loc d ↦{tok w} vT2 m d) ∗ (latLoc d ↦{tok w} m (latLoc d)) ∗ (kLoc d ↦{tok w} vK m d) ∗ (offLoc d ↦{tok w} vOff m d))
/-- The two chunks of block `w` of the result, at contents `f`. -/
abbrev outRes (d : Dev nD) (w : Fin 32) (f : Buf (Elt F) (outLoc d)) : sProp 𝕄 :=
  iprop((outLoc d ↦[oSet (ch w 0)]{fullShare} f) ∗ (outLoc d ↦[oSet (ch w 1)]{fullShare} f))
/-- What the subcore working on block `w` is handed of the arrays in HBM, and what it hands back: its chunks of the
    result at the specification's values. -/
abbrev goRes (d : Dev nD) (w : Fin 32) : sProp 𝕄 := iprop(rdRes m d w ∗ outRes d w (m (outLoc d)))
abbrev tdRes (d : Dev nD) (w : Fin 32) : sProp 𝕄 := iprop(rdRes m d w ∗ outRes d w (vOut m d))
/-- Row `w` of SparseCore `c`'s shared scratch, at some contents. -/
abbrev shRes (d : Dev nD) (c : Fin τ.nSC) (w : Fin 32) : sProp 𝕄 := iprop(∃ f : Buf (Elt F) (shLoc d c), shLoc d c ↦[shSet w]{fullShare} f)

/-- The block of task `i` of SparseCore `c` of the one call. -/
abbrev widK (c : Fin ((K (F := F)).nCore 0)) (i : Fin ((K (F := F)).nSub 0)) : Fin 32 := wid (Fin.cast nCore_zero c) (Fin.cast nSub_zero i)

/-- The one call takes, for each SparseCore, what its sixteen tasks are handed of the arrays in HBM, and brings back what
    they hand back; a task is also lent its row of its SparseCore's shared scratch. -/
def P : (K (F := F)).Pay (nD := nD) (Val := Elt F) (Name := ℕ) (U := UU) where
  st := fun q d c => match q with | 0 => bigSep Finset.univ fun i : Fin ((K (F := F)).nSub 0) => goRes m d (widK c i)
  dn := fun q d c => match q with | 0 => bigSep Finset.univ fun i : Fin ((K (F := F)).nSub 0) => tdRes m d (widK c i)
  go := fun q d c i => match q with | 0 => iprop(goRes m d (widK c i) ∗ shRes d ((K (F := F)).core 0 c) (widK c i))
  td := fun q d c i => match q with | 0 => iprop(tdRes m d (widK c i) ∗ shRes d ((K (F := F)).core 0 c) (widK c i))
  x := fun _ _ => iprop(emp)

instance P_storable : (P (F := F) m).IsStorable where
  st q d c := match q with
    | 0 => (inferInstance : BI.Storable (upEmb : UEmb _ 𝕄) (bigSep Finset.univ fun i : Fin ((K (F := F)).nSub 0) => goRes m d (widK c i)))
  dn q d c := match q with
    | 0 => (inferInstance : BI.Storable (upEmb : UEmb _ 𝕄) (bigSep Finset.univ fun i : Fin ((K (F := F)).nSub 0) => tdRes m d (widK c i)))
  go q d c i := match q with
    | 0 => (inferInstance : BI.Storable (upEmb : UEmb _ 𝕄) iprop(goRes m d (widK c i) ∗ shRes d ((K (F := F)).core 0 c) (widK c i)))
  td q d c i := match q with
    | 0 => (inferInstance : BI.Storable (upEmb : UEmb _ 𝕄) iprop(tdRes m d (widK c i) ∗ shRes d ((K (F := F)).core 0 c) (widK c i)))

/-- What the run leaves: the result at the specification's values, the three arguments as they were. -/
def QC : PUnit × MemSt nD τ sig (Elt F) → Prop := fun r => ∀ c : Dev nD,
  r.2.mem (outLoc c) = vOut m c ∧ r.2.mem (latLoc c) = m (latLoc c) ∧ r.2.mem (labLoc c) = m (labLoc c) ∧ r.2.mem (tabLoc c) = m (tabLoc c)

end Cert.Proof.KB
end
-- ==== Proof.KB.Launch.lean ====
/-
  The embedding lookup on the SparseCores: the launch. How what the call takes splits among the thirty-two vector
  subcores and comes back, the row of the shared scratch each is lent, @main on the TensorCore (the ten host operations,
  the call, the return), and the run of the whole thread family from the proof of one vector subcore's task.
-/
import proofs.«206680_g87033217286338_cont_sun_m_31_32_alg».proof.Proof.KB.Common
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## Blocks and chunks, counted two ways

Block `w` is subcore `w / 2` of SparseCore `w % 2`; chunk `j` is half `j % 2` of block `j / 2`. -/

/-- (SparseCore, subcore) ↦ block, a bijection. -/
def widEquiv : Fin 2 × Fin 16 ≃ Fin 32 where
  toFun p := wid p.1 p.2
  invFun w := (⟨w.val % 2, Nat.mod_lt _ (by decide)⟩, ⟨w.val / 2, by omega⟩)
  left_inv p := by
    rcases p with ⟨c, i⟩
    refine Prod.ext (Fin.ext ?_) (Fin.ext ?_)
    · show (2 * i.val + c.val) % 2 = c.val
      omega
    · show (2 * i.val + c.val) / 2 = i.val
      omega
  right_inv w := Fin.ext (by
    show 2 * (w.val / 2) + w.val % 2 = w.val
    omega)

/-- (block, half) ↦ chunk, a bijection. -/
def chEquiv : Fin 32 × Fin 2 ≃ Fin 64 where
  toFun p := ch p.1 p.2
  invFun j := (⟨j.val / 2, by omega⟩, ⟨j.val % 2, Nat.mod_lt _ (by decide)⟩)
  left_inv p := by
    rcases p with ⟨w, r⟩
    refine Prod.ext (Fin.ext ?_) (Fin.ext ?_)
    · show (2 * w.val + r.val) / 2 = w.val
      omega
    · show (2 * w.val + r.val) % 2 = r.val
      omega
  right_inv j := Fin.ext (by
    show 2 * (j.val / 2) + j.val % 2 = j.val
    omega)

/-- A family over the blocks, taken SparseCore by SparseCore and subcore by subcore of the call's grid. -/
theorem bigSep_blocks (Φ : Fin 32 → sProp 𝕄) :
    (bigSep Finset.univ fun c : Fin ((K (F := F)).nCore 0) => bigSep Finset.univ fun i : Fin ((K (F := F)).nSub 0) => Φ (widK c i))
      = bigSep Finset.univ Φ := by
  have e : (bigSep Finset.univ fun c : Fin ((K (F := F)).nCore 0) => bigSep Finset.univ fun i : Fin ((K (F := F)).nSub 0) => Φ (widK c i))
      = bigSep Finset.univ fun c : Fin 2 => bigSep Finset.univ fun i : Fin 16 => Φ (wid c i) :=
    bigSep_congr fun _ _ => bigSep_congr fun _ _ => congrArg Φ (congrArg₂ wid (Fin.ext rfl) (Fin.ext rfl))
  rw [e, bigSep_univ_equiv widEquiv Φ, bigSep_univ_prod]
  rfl

/-- A family over the chunks, taken block by block, each block's two. -/
theorem bigSep_chunks (Ψ : Fin 64 → sProp 𝕄) :
    (bigSep Finset.univ fun w : Fin 32 => iprop(Ψ (ch w 0) ∗ Ψ (ch w 1))) = bigSep Finset.univ Ψ := by
  rw [bigSep_univ_equiv chEquiv Ψ, bigSep_univ_prod]
  exact bigSep_congr fun w _ => (bigSep_fin_two fun r => Ψ (ch w r)).symm

/-! ## The result's chunks, the shared scratch's rows -/

theorem oSet_eq (j : Fin 64) : oSet j = (oRect j).set := by
  show ((View.whole (main_v7_scv : Ref sig .scVector)).slice (oRect j)).set = _
  rw [View.set_slice]; exact Finset.map_refl
theorem oSets_disjoint : ∀ i ∈ (Finset.univ : Finset (Fin 64)), ∀ j ∈ (Finset.univ : Finset (Fin 64)), i ≠ j → Disjoint (oSet i) (oSet j) :=
  fun i _ j _ h => by rw [oSet_eq, oSet_eq]; exact Rect.part_disjoint odiv h
theorem oSets_cover : (Finset.univ : Finset (Fin 64)).biUnion oSet = Finset.univ :=
  (Finset.biUnion_congr rfl fun i _ => oSet_eq i).trans (Rect.biUnion_part odiv)

theorem shSet_eq (w : Fin 32) : shSet w = (shRect w).set := by
  show ((View.whole (cc0_scratch0 : Ref sig .scVector)).slice (shRect w)).set = _
  rw [View.set_slice]; exact Finset.map_refl
theorem shSets_disjoint : ∀ i ∈ (Finset.univ : Finset (Fin 32)), ∀ j ∈ (Finset.univ : Finset (Fin 32)), i ≠ j → Disjoint (shSet i) (shSet j) :=
  fun i _ j _ h => by rw [shSet_eq, shSet_eq]; exact Rect.part_disjoint sdiv h
theorem shSets_cover : (Finset.univ : Finset (Fin 32)).biUnion shSet = Finset.univ :=
  (Finset.biUnion_congr rfl fun i _ => shSet_eq i).trans (Rect.biUnion_part sdiv)

/-- The result whole is its sixty-four chunks. -/
theorem outPts_chunks (d : Dev nD) (f : Buf (Elt F) (outLoc d)) :
    (outLoc d ↦{fullShare} f : sProp 𝕄) = bigSep Finset.univ fun j : Fin 64 => outLoc d ↦[oSet j]{fullShare} f := by
  rw [← pointsTo_biUnion Finset.univ (ℓ := outLoc d) oSet oSets_disjoint, oSets_cover]; try rfl

/-- A SparseCore's shared scratch whole is its thirty-two rows. -/
theorem shPts_rows (d : Dev nD) (c : Fin τ.nSC) (f : Buf (Elt F) (shLoc d c)) :
    (shLoc d c ↦{fullShare} f : sProp 𝕄) = bigSep Finset.univ fun w : Fin 32 => shLoc d c ↦[shSet w]{fullShare} f := by
  rw [← pointsTo_biUnion Finset.univ (ℓ := shLoc d c) shSet shSets_disjoint, shSets_cover]; try rfl

/-- The rows, each at contents of its own, are the scratch whole at some contents. -/
theorem shRows_join (d : Dev nD) (c : Fin τ.nSC) :
    (bigSep Finset.univ fun w : Fin 32 => shRes (F := F) d c w) ⊢ (iprop(∃ f, shLoc d c ↦{fullShare} f) : sProp 𝕄) := by
  refine (bigSep_exists_pi Finset.univ (fun w (f : Buf (Elt F) (shLoc d c)) => (shLoc d c ↦[shSet w]{fullShare} f : sProp 𝕄))).trans ?_
  iintro ⟨%fs, H⟩
  ihave H' := (pointsTo_biUnion_join Finset.univ shSet fs (fs 0) shSets_disjoint) $$ H
  icases H' with ⟨%g, -, Hg⟩
  rw [shSets_cover]
  iexists g; iexact Hg

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## What the call takes and brings back, array by array -/

/-- The tasks' holdings of the arrays in HBM, over both SparseCores: of each array read, the thirty-two read shares;
    the result whole. -/
theorem tasks_eq (d : Dev nD) (f : Buf (Elt F) (outLoc d)) :
    (bigSep Finset.univ fun c : Fin ((K (F := F)).nCore 0) => bigSep Finset.univ fun i : Fin ((K (F := F)).nSub 0) =>
        iprop(rdRes m d (widK c i) ∗ outRes d (widK c i) f))
      = iprop(((bigSep Finset.univ fun w : Fin 32 => t2Loc d ↦{tok w} vT2 m d) ∗ (bigSep Finset.univ fun w : Fin 32 => latLoc d ↦{tok w} m (latLoc d))
            ∗ (bigSep Finset.univ fun w : Fin 32 => kLoc d ↦{tok w} vK m d) ∗ (bigSep Finset.univ fun w : Fin 32 => offLoc d ↦{tok w} vOff m d))
          ∗ (outLoc d ↦{fullShare} f)) := by
  rw [bigSep_blocks (F := F) (fun w => iprop(rdRes m d w ∗ outRes d w f)), bigSep_sep', bigSep_sep', bigSep_sep', bigSep_sep',
    bigSep_chunks (fun j => (outLoc d ↦[oSet j]{fullShare} f : sProp 𝕄)), ← outPts_chunks]

theorem P_st (d : Dev nD) (c : Fin ((K (F := F)).nCore 0)) :
    (P m).st 0 d c = bigSep Finset.univ fun i : Fin ((K (F := F)).nSub 0) => goRes m d (widK c i) := rfl
theorem P_dn (d : Dev nD) (c : Fin ((K (F := F)).nCore 0)) :
    (P m).dn 0 d c = bigSep Finset.univ fun i : Fin ((K (F := F)).nSub 0) => tdRes m d (widK c i) := rfl
theorem P_go (d : Dev nD) (c : Fin ((K (F := F)).nCore 0)) (i : Fin ((K (F := F)).nSub 0)) :
    (P m).go 0 d c i = iprop(goRes m d (widK c i) ∗ shRes d ((K (F := F)).core 0 c) (widK c i)) := rfl
theorem P_td (d : Dev nD) (c : Fin ((K (F := F)).nCore 0)) (i : Fin ((K (F := F)).nSub 0)) :
    (P m).td 0 d c i = iprop(tdRes m d (widK c i) ∗ shRes d ((K (F := F)).core 0 c) (widK c i)) := rfl

/-! ## One SparseCore's operands among its sixteen tasks -/

/-- The sequencer lends each of its tasks its row of the shared scratch and has them all back. The rows of the other
    SparseCore's parity stay with it. -/
theorem ownBufs_lend (d : Dev nD) (c : Fin ((K (F := F)).nCore 0)) :
    (ownBufs (S d ((K (F := F)).core 0 c)) : sProp 𝕄)
      ⊢ iprop((bigSep Finset.univ fun i : Fin ((K (F := F)).nSub 0) => shRes d ((K (F := F)).core 0 c) (widK c i))
          ∗ ((bigSep Finset.univ fun i : Fin ((K (F := F)).nSub 0) => shRes d ((K (F := F)).core 0 c) (widK c i))
              -∗ ownBufs (S d ((K (F := F)).core 0 c)))) := by
  have hsplit : (bigSep Finset.univ fun w : Fin 32 => shRes (F := F) d ((K (F := F)).core 0 c) w)
      = iprop((bigSep Finset.univ fun i : Fin ((K (F := F)).nSub 0) => shRes d ((K (F := F)).core 0 c) (widK c i))
          ∗ bigSep (Finset.univ.erase c) fun c' : Fin ((K (F := F)).nCore 0) =>
              bigSep Finset.univ fun i : Fin ((K (F := F)).nSub 0) => shRes d ((K (F := F)).core 0 c) (widK c' i)) :=
    (bigSep_blocks (F := F) (fun w => shRes d ((K (F := F)).core 0 c) w)).symm.trans (bigSep_univ_split c)
  rw [ownBufs_S]
  iintro ⟨⟨%fsh, Hsh⟩, Hrest⟩
  ihave Hrows := ((Entails.of_eq (shPts_rows d ((K (F := F)).core 0 c) fsh)).trans (SparseCore.ent (bigSep_mono
      (Φ := fun w => (shLoc d ((K (F := F)).core 0 c) ↦[shSet w]{fullShare} fsh : sProp 𝕄))
      (Ψ := fun w => shRes (F := F) d ((K (F := F)).core 0 c) w)
      fun w _ => BI.BIClass.exists_intro (Φ := fun f => (shLoc d ((K (F := F)).core 0 c) ↦[shSet w]{fullShare} f : sProp 𝕄)) fsh))) $$ Hsh
  ihave Hrows' := (Entails.of_eq hsplit) $$ Hrows
  icases Hrows' with ⟨Hmine, Hothers⟩
  isplitl [Hmine]; · iexact Hmine
  iintro Hmine
  isplitl [Hmine Hothers]
  · iapply (shRows_join d ((K (F := F)).core 0 c))
    iapply (Entails.of_eq hsplit.symm)
    isplitl [Hmine]; · iexact Hmine
    iexact Hothers
  iexact Hrest

/-- SparseCore `c`'s operands are its tasks' already; the shared scratch goes out row by row and comes back. -/
theorem vecSplit : (K (F := F)).VecSplit (P m) 0 := by
  intro d c
  rw [P_st, P_dn, bigSep_congr (s := Finset.univ) (fun i _ => P_go m d c i), bigSep_congr (s := Finset.univ) (fun i _ => P_td m d c i),
    bigSep_sep' Finset.univ (fun i : Fin ((K (F := F)).nSub 0) => goRes m d (widK c i)) (fun i => shRes d ((K (F := F)).core 0 c) (widK c i)),
    bigSep_sep' Finset.univ (fun i : Fin ((K (F := F)).nSub 0) => tdRes m d (widK c i)) (fun i => shRes d ((K (F := F)).core 0 c) (widK c i))]
  iintro ⟨Hst, Hb⟩
  ihave Hb' := (ownBufs_lend d c) $$ Hb
  icases Hb' with ⟨Hsh, Hback⟩
  imodintro
  isplitl [Hst Hsh]
  · isplitl [Hst]; · iexact Hst
    iexact Hsh
  iintro ⟨Htd, Hsh⟩
  isplitl [Htd]; · iexact Htd
  iapply Hback; iexact Hsh

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The ten host operations before the call, in order. -/
def ops : List (HloOp τ sig (Elt F)) :=
  [StableHlo.reshape main_arg2 main_v0 rfl shapeCasts_S1000000x64_S500000x128,
   StableHlo.nullary main_c (constantI S_ 32 1#32),
   StableHlo.unary main_c main_v1 (broadcastInDim S16384 ![] bcast_S_S16384 : (⟨S_, .i32⟩ : BufTy).Contents (Elt F) → (⟨S16384, .i32⟩ : BufTy).Contents (Elt F)),
   StableHlo.binary main_arg1 main_v1 main_v2 (Host.shrui : (⟨S16384, .i32⟩ : BufTy).Contents (Elt F) → (⟨S16384, .i32⟩ : BufTy).Contents (Elt F) → (⟨S16384, .i32⟩ : BufTy).Contents (Elt F)),
   StableHlo.nullary main_c_0 (constantI S_ 32 1#32),
   StableHlo.unary main_c_0 main_v3 (broadcastInDim S16384 ![] bcast_S_S16384 : (⟨S_, .i32⟩ : BufTy).Contents (Elt F) → (⟨S16384, .i32⟩ : BufTy).Contents (Elt F)),
   StableHlo.binary main_arg1 main_v3 main_v4 (andi : (⟨S16384, .i32⟩ : BufTy).Contents (Elt F) → (⟨S16384, .i32⟩ : BufTy).Contents (Elt F) → (⟨S16384, .i32⟩ : BufTy).Contents (Elt F)),
   StableHlo.nullary main_c_1 (constantI S_ 32 64#32),
   StableHlo.unary main_c_1 main_v5 (broadcastInDim S16384 ![] bcast_S_S16384 : (⟨S_, .i32⟩ : BufTy).Contents (Elt F) → (⟨S16384, .i32⟩ : BufTy).Contents (Elt F)),
   StableHlo.binary main_v4 main_v5 main_v6 (muli : (⟨S16384, .i32⟩ : BufTy).Contents (Elt F) → (⟨S16384, .i32⟩ : BufTy).Contents (Elt F) → (⟨S16384, .i32⟩ : BufTy).Contents (Elt F))]

/-- @main is that line, then the call, then the return. -/
theorem main_eq (d : Dev nD) :
    Cert.Kernel.main (F := F) d = StableHlo.seq (ops (F := F)) >>= fun _ => (Cert.Kernel.sc (F := F)).run d 0 >>= fun _ => pure ⟨⟩ := rfl

theorem ops_sub : ∀ op ∈ ops (F := F), op.bufs ⊆ Pipeline.ucRefs τ sig := by
  intro op hop
  refine Pipeline.sub_ucRefs op ?_
  simp only [ops, List.mem_cons, List.mem_nil_iff, or_false] at hop
  rcases hop with rfl | rfl | rfl | rfl | rfl | rfl | rfl | rfl | rfl | rfl
  all_goals first
    | exact StableHlo.reshape_bufs_sub ..
    | exact StableHlo.nullary_bufs_sub ..
    | exact StableHlo.unary_bufs_sub ..
    | exact StableHlo.binary_bufs_sub ..

theorem ops_fresh : ∀ op ∈ ops (F := F), op.fresh = ∅ := by
  intro op hop
  simp only [ops, List.mem_cons, List.mem_nil_iff, or_false] at hop
  rcases hop with rfl | rfl | rfl | rfl | rfl | rfl | rfl | rfl | rfl | rfl <;> rfl

/-- The launch contents of device `d`'s buffers. -/
def V0 (d : Dev nD) : Valuation τ sig (Elt F) := fun b => m (d, b)

theorem unscoped_held (d : Dev nD) :
    (unscopedBufs d (fun b => m ((SparseCore.T d).loc b)) : sProp 𝕄) = StableHlo.held (d.tc : Thread nD τ) (Pipeline.ucRefs τ sig) (V0 m d) :=
  Pipeline.unscopedBufs_held (Ix := HIx 1) (Name := ℕ) (U := UU) (Lvl := ℕ) d (V0 m d)

/-- The seven arrays the proof follows: the three arguments, the three the call reads that @main computes, the result. -/
abbrev rLat : DevRef τ sig := Proc.devRef .tc (main_arg0 : Ref sig .tc)
abbrev rLab : DevRef τ sig := Proc.devRef .tc (main_arg1 : Ref sig .tc)
abbrev rTab : DevRef τ sig := Proc.devRef .tc (main_arg2 : Ref sig .tc)
abbrev rT2 : DevRef τ sig := Proc.devRef .tc (main_v0 : Ref sig .tc)
abbrev rK : DevRef τ sig := Proc.devRef .tc (main_v2 : Ref sig .tc)
abbrev rOff : DevRef τ sig := Proc.devRef .tc (main_v6 : Ref sig .tc)
abbrev rOut : DevRef τ sig := Proc.devRef .tc (main_v7 : Ref sig .tc)
abbrev S7 : Finset (DevRef τ sig) := {rLat, rLab, rTab, rT2, rK, rOff, rOut}

theorem S7_sub : S7 ⊆ Pipeline.ucRefs τ sig := by
  intro b hb
  simp only [Finset.mem_insert, Finset.mem_singleton] at hb
  rcases hb with rfl | rfl | rfl | rfl | rfl | rfl | rfl <;>
    exact Finset.mem_filter.mpr ⟨StableHlo.devRef_mem_tcRefs _, by decide⟩

theorem held_S7 (d : Dev nD) (W : Valuation τ sig (Elt F)) :
    (StableHlo.held (d.tc : Thread nD τ) S7 W : sProp 𝕄)
      = iprop((latLoc d ↦{fullShare} W rLat) ∗ (labLoc d ↦{fullShare} W rLab) ∗ (tabLoc d ↦{fullShare} W rTab) ∗ (t2Loc d ↦{fullShare} W rT2)
          ∗ (kLoc d ↦{fullShare} W rK) ∗ (offLoc d ↦{fullShare} W rOff) ∗ (outLoc d ↦{fullShare} W rOut)) := by
  unfold StableHlo.held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! What the seven hold after the line: the arguments and the result what they held, the other three the values the
    call is handed. -/

theorem after_lat (d : Dev nD) : StableHlo.after (ops (F := F)) (V0 m d) rLat = m (latLoc d) := by
  show StableHlo.after _ _ (Proc.devRef .tc (main_arg0 : Ref sig .tc)) = _
  unfold ops; after_results <;> rfl
theorem after_lab (d : Dev nD) : StableHlo.after (ops (F := F)) (V0 m d) rLab = m (labLoc d) := by
  show StableHlo.after _ _ (Proc.devRef .tc (main_arg1 : Ref sig .tc)) = _
  unfold ops; after_results <;> rfl
theorem after_tab (d : Dev nD) : StableHlo.after (ops (F := F)) (V0 m d) rTab = m (tabLoc d) := by
  show StableHlo.after _ _ (Proc.devRef .tc (main_arg2 : Ref sig .tc)) = _
  unfold ops; after_results <;> rfl
theorem after_out (d : Dev nD) : StableHlo.after (ops (F := F)) (V0 m d) rOut = m (outLoc d) := by
  show StableHlo.after _ _ (Proc.devRef .tc (main_v7 : Ref sig .tc)) = _
  unfold ops; after_results <;> rfl
theorem after_t2 (d : Dev nD) : StableHlo.after (ops (F := F)) (V0 m d) rT2 = vT2 m d := by
  show StableHlo.after _ _ (Proc.devRef .tc (main_v0 : Ref sig .tc)) = _
  unfold ops; after_results <;> rfl
theorem after_k (d : Dev nD) : StableHlo.after (ops (F := F)) (V0 m d) rK = vK m d := by
  show StableHlo.after _ _ (Proc.devRef .tc (main_v2 : Ref sig .tc)) = _
  unfold ops; after_results <;> rfl
theorem after_off (d : Dev nD) : StableHlo.after (ops (F := F)) (V0 m d) rOff = vOff m d := by
  show StableHlo.after _ _ (Proc.devRef .tc (main_v6 : Ref sig .tc)) = _
  unfold ops; after_results <;> rfl

/-- After the line the TensorCore holds, among the rest, the seven at those contents. -/
theorem held_after (d : Dev nD) :
    (StableHlo.held (d.tc : Thread nD τ) (Pipeline.ucRefs τ sig) (StableHlo.after (ops (F := F)) (V0 m d)) : sProp 𝕄)
      ⊢ iprop((latLoc d ↦{fullShare} m (latLoc d)) ∗ (labLoc d ↦{fullShare} m (labLoc d)) ∗ (tabLoc d ↦{fullShare} m (tabLoc d))
          ∗ (t2Loc d ↦{fullShare} vT2 m d) ∗ (kLoc d ↦{fullShare} vK m d) ∗ (offLoc d ↦{fullShare} vOff m d) ∗ (outLoc d ↦{fullShare} m (outLoc d))) := by
  rw [StableHlo.held_sub_split _ S7_sub, held_S7, after_lat, after_lab, after_tab, after_t2, after_k, after_off, after_out]
  exact sep_elim_left

/-- What the call takes for the two SparseCores, and what it brings back. -/
theorem st0_eq (d : Dev nD) :
    (bigSep Finset.univ fun c : Fin ((K (F := F)).nCore 0) => (P m).st 0 d c)
      = iprop(((bigSep Finset.univ fun w : Fin 32 => t2Loc d ↦{tok w} vT2 m d) ∗ (bigSep Finset.univ fun w : Fin 32 => latLoc d ↦{tok w} m (latLoc d))
            ∗ (bigSep Finset.univ fun w : Fin 32 => kLoc d ↦{tok w} vK m d) ∗ (bigSep Finset.univ fun w : Fin 32 => offLoc d ↦{tok w} vOff m d))
          ∗ (outLoc d ↦{fullShare} m (outLoc d))) :=
  (bigSep_congr fun c _ => P_st m d c).trans (tasks_eq m d (m (outLoc d)))
theorem dn0_eq (d : Dev nD) :
    (bigSep Finset.univ fun c : Fin ((K (F := F)).nCore 0) => (P m).dn 0 d c)
      = iprop(((bigSep Finset.univ fun w : Fin 32 => t2Loc d ↦{tok w} vT2 m d) ∗ (bigSep Finset.univ fun w : Fin 32 => latLoc d ↦{tok w} m (latLoc d))
            ∗ (bigSep Finset.univ fun w : Fin 32 => kLoc d ↦{tok w} vK m d) ∗ (bigSep Finset.univ fun w : Fin 32 => offLoc d ↦{tok w} vOff m d))
          ∗ (outLoc d ↦{fullShare} vOut m d)) :=
  (bigSep_congr fun c _ => P_dn m d c).trans (tasks_eq m d (vOut m d))

/-- What @main leaves the claim: the result at the specification's values, the three arguments at their launch contents. -/
abbrev FIN (d : Dev nD) : sProp 𝕄 :=
  iprop((outLoc d ↦{fullShare} vOut m d) ∗ (latLoc d ↦{fullShare} m (latLoc d)) ∗ (labLoc d ↦{fullShare} m (labLoc d)) ∗ (tabLoc d ↦{fullShare} m (tabLoc d)))

set_option backward.isDefEq.respectTransparency.types false in
/-- @main on device `d`'s TensorCore: the ten host operations in one step; each array the call only reads cut into its
    thirty-two read shares and a remainder, kept; the call; the shares of the batch joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (Cert.Kernel.main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d (Pipeline.ucRefs τ sig) _ (ops (F := F)) ops_sub ops_fresh (V0 m d)) $$ [Hb Hheld]
  · isplitl [Hb]; · iexact Hb
    iexact Hheld
  iintro ⟨Hb, Hheld⟩
  ihave Hh := (held_after m d) $$ Hheld
  icases Hh with ⟨Hlat, Hlab, Htab, Ht2, Hk, Hoff, Hout⟩
  ihave Ht2' := (Transfers.pointsTo_toks_split fullShare 32) $$ Ht2
  icases Ht2' with ⟨Ht2d, Ht2t⟩
  ihave Hlat' := (Transfers.pointsTo_toks_split fullShare 32) $$ Hlat
  icases Hlat' with ⟨Hlatd, Hlatt⟩
  ihave Hk' := (Transfers.pointsTo_toks_split fullShare 32) $$ Hk
  icases Hk' with ⟨Hkd, Hkt⟩
  ihave Hoff' := (Transfers.pointsTo_toks_split fullShare 32) $$ Hoff
  icases Hoff' with ⟨Hoffd, Hofft⟩
  simp only [wp_bind, wp_pure]
  iapply ((K (F := F)).wp_run (D (F := F)) 𝒱 (EH := EH) (P := P m) κ d 0) $$ [Hst Ht2t Hlatt Hkt Hofft Hout Hlatd Hlab Htab]
  isplitr; · iexact Hctx
  isplitl [Hst]; · iexact Hst
  isplitl [Ht2t Hlatt Hkt Hofft Hout]
  · rw [st0_eq]
    isplitl [Ht2t Hlatt Hkt Hofft]
    · isplitl [Ht2t]; · iexact Ht2t
      isplitl [Hlatt]; · iexact Hlatt
      isplitl [Hkt]; · iexact Hkt
      iexact Hofft
    iexact Hout
  iintro ⟨Hst, Hdn⟩
  ihave Hdn' := (Entails.of_eq (dn0_eq m d)) $$ Hdn
  icases Hdn' with ⟨⟨-, Hlatt, -, -⟩, Hout⟩
  ihave Hlat := (Transfers.pointsTo_toks_join fullShare 32) $$ [Hlatd Hlatt]
  · isplitl [Hlatd]; · iexact Hlatd
    iexact Hlatt
  imodintro
  isplitl [Hst]; · iexact Hst
  isplitl [Hout]; · iexact Hout
  isplitl [Hlat]; · iexact Hlat
  isplitl [Hlab]; · iexact Hlab
  iexact Htab

def fq (d : Dev nD) (s' : Phys nD τ sig (Elt F)) : Prop :=
  s'.mem.mem (outLoc d) = vOut m d ∧ s'.mem.mem (latLoc d) = m (latLoc d) ∧ s'.mem.mem (labLoc d) = m (labLoc d) ∧ s'.mem.mem (tabLoc d) = m (tabLoc d)

set_option maxRecDepth 16384 in
theorem hfin (d : Dev nD) (s' : Phys nD τ sig (Elt F)) : iprop(FIN m d ∗ SI s') ⊢ (⌜fq m d s'⌝ : sProp 𝕄) := by
  iintro ⟨⟨Ho, Hlat, Hlab, Htab⟩, HSI⟩
  ihave H := (persistent_entails_right (SI_pointsTo_agree (st := s') (ℓ := outLoc d) (I := Finset.univ) (q := fullShare) (f := vOut m d))) $$ [HSI Ho]
  · isplitl [HSI] <;> iassumption
  icases H with ⟨%h1, HSI, -⟩
  ihave H := (persistent_entails_right (SI_pointsTo_agree (st := s') (ℓ := latLoc d) (I := Finset.univ) (q := fullShare) (f := m (latLoc d)))) $$ [HSI Hlat]
  · isplitl [HSI] <;> iassumption
  icases H with ⟨%h2, HSI, -⟩
  ihave H := (persistent_entails_right (SI_pointsTo_agree (st := s') (ℓ := labLoc d) (I := Finset.univ) (q := fullShare) (f := m (labLoc d)))) $$ [HSI Hlab]
  · isplitl [HSI] <;> iassumption
  icases H with ⟨%h3, HSI, -⟩
  ihave H := (SI_pointsTo_agree (st := s') (ℓ := tabLoc d) (I := Finset.univ) (q := fullShare) (f := m (tabLoc d))) $$ [HSI Htab]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

/-- From the proof of one vector subcore's task, every weakly fair execution of the whole thread family ends, with the
    result at the specification's values and the three arguments as they were. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ Cert.Kernel.main (fun _ => iprop(emp)) (FIN m) (u₀ (F := F)) (sep_elim_left.trans (hu₀ m)) (hmain m ρ) (fq m) (hfin m) (QC m) (fun _ h => h)

end Cert.Proof.KB
end
-- ==== Proof.KB.Values.lean ====
/-
  What the words the subcores read say: a halved label is a row of the paired table, and 64 times a label's last bit
  is 0 or 64, so that the sixteen-lane windows the multiply reads at it and 16, 32, 48 past it stay inside a paired row.
-/
import proofs.«206680_g87033217286338_cont_sun_m_31_32_alg».proof.Proof.KB.Common

noncomputable section

namespace Cert.Proof.KB

open Cert.Kernel Cert.Kernel.Gen
open Idealize.ShloMosaic
open Idealize.ShloMosaic.SparseCore (S V T)

variable {F : FTy → Type}
variable (m : (ℓ : Loc nD τ sig) → Buf (Elt F) ℓ)
variable [FloatOps F]

/-- The last bit of a word, times 64, is 0 or 64. -/
theorem bit_times_64 (x : BitVec 32) : IntOp.muli (IntOp.andi x 1#32) 64#32 = 0#32 ∨ IntOp.muli (IntOp.andi x 1#32) 64#32 = 64#32 := by
  have h : x &&& 1#32 = 0#32 ∨ x &&& 1#32 = 1#32 := by
    have e : (x &&& 1#32).toNat = x.toNat % 2 := by
      rw [BitVec.toNat_and]; exact Nat.and_one_is_mod _
    rcases Nat.mod_two_eq_zero_or_one x.toNat with h | h
    · left; apply BitVec.eq_of_toNat_eq; rw [e, h]; rfl
    · right; apply BitVec.eq_of_toNat_eq; rw [e, h]; rfl
  unfold IntOp.muli IntOp.andi
  rcases h with h | h <;> rw [h]
  · left; decide
  · right; decide

/-- Every start inside a paired row is 0 or 64. -/
theorem vOff_cases (d : Dev nD) (j : S16384.Idx) : vOff m d j = 0#32 ∨ vOff m d j = 64#32 :=
  bit_times_64 (m (labLoc d) j)

/-- Half of a label that is a row of the table is a row of the paired table. -/
theorem half_lt (x : BitVec 32) (h : x.toNat ≤ 999999) : (IntOp.shrui .host x 1#32).toNat < 500000 := by
  unfold IntOp.shrui
  rw [if_pos (by decide)]
  show (x >>> (1 : Nat)).toNat < 500000
  rw [BitVec.toNat_ushiftRight, Nat.shiftRight_eq_div_pow]
  omega

/-- Every halved label is a row of the paired table. -/
theorem vK_lt (hlab : LabOKm m) (d : Dev nD) (j : S16384.Idx) : (vK m d j).toNat < 500000 :=
  half_lt _ (hlab d j)

/-- A start that is 0 or 64 passes the check the first multiply loop makes of the word it loads. -/
theorem chk1_of (v : BitVec 32) (h : v = 0#32 ∨ v = 64#32) : k0_chk1 v := by
  rcases h with rfl | rfl <;> decide
/-- The same for the second loop. -/
theorem chk2_of (v : BitVec 32) (h : v = 0#32 ∨ v = 64#32) : k0_chk2 v := by
  rcases h with rfl | rfl <;> decide

end Cert.Proof.KB
end
-- ==== Proof.KB.TileDefs.lean ====
/-
  One vector subcore's task, set up: the arrays as the subcore's program slices them, which of the launch's pieces those
  slices are, the subcore's own scratch and transfer cells, and what the two multiply loops keep true.

  The subcore at grid point (c, i) works on block w = 2 i + c. Its slices of the batch-sized arrays start at row 512 w;
  the two chunks of the result it writes are chunks 2 w and 2 w + 1; its row of the shared scratch is row w.
  A multiply loop runs over the 256 rows of a chunk; before trip k the rows before k have been multiplied, each by the
  64 numbers of its fetched paired row that start at the row's start word.
-/
import proofs.«206680_g87033217286338_cont_sun_m_31_32_alg».proof.Proof.KB.Values

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t2V" => (Memref.whole Cert.Kernel.main_v0_scv : Memref Cert.Kernel.sig Kind.scVector Space.hbm Cert.Kernel.S500000x128 EltTy.f32)
local notation "latV" => (Memref.whole Cert.Kernel.main_arg0_scv : Memref Cert.Kernel.sig Kind.scVector Space.hbm Cert.Kernel.S16384x64 EltTy.f32)
local notation "kV" => (Memref.whole Cert.Kernel.main_v2_scv : Memref Cert.Kernel.sig Kind.scVector Space.hbm Cert.Kernel.S16384 EltTy.i32)
local notation "offV" => (Memref.whole Cert.Kernel.main_v6_scv : Memref Cert.Kernel.sig Kind.scVector Space.hbm Cert.Kernel.S16384 EltTy.i32)
local notation "outV" => (Memref.whole Cert.Kernel.main_v7_scv : Memref Cert.Kernel.sig Kind.scVector Space.hbm Cert.Kernel.S16384x64 EltTy.f32)
local notation "shV" => (Memref.whole Cert.Kernel.cc0_scratch0 : Memref Cert.Kernel.sig Kind.scVector Space.shared Cert.Kernel.S32x512 EltTy.i32)
local notation "sOff" => (Memref.whole Cert.Kernel.cc0_scratch1 : Memref Cert.Kernel.sig Kind.scVector Space.smem Cert.Kernel.S512 EltTy.i32)
local notation "sK" => (Memref.whole Cert.Kernel.cc0_scratch2 : Memref Cert.Kernel.sig Kind.scVector Space.vmem Cert.Kernel.S512 EltTy.i32)
local notation "sRows" => (Memref.whole Cert.Kernel.cc0_scratch3 : Memref Cert.Kernel.sig Kind.scVector Space.vmem Cert.Kernel.S256x128 EltTy.f32)
local notation "sLat" => (Memref.whole Cert.Kernel.cc0_scratch4 : Memref Cert.Kernel.sig Kind.scVector Space.vmem Cert.Kernel.S256x64 EltTy.f32)

variable [FloatOps F]

section Tile
variable (d : Dev nD) (L : grid0.Coords)

abbrev cV (L : grid0.Coords) : Fin τ.nSC := (L 0).castLE hcore0
abbrev jV (L : grid0.Coords) : Fin τ.nSub := (L 1).castLE hsub0
/-- The block the subcore at grid point `L` works on. -/
def wL (L : grid0.Coords) : Fin 32 := ⟨2 * (L 1).val + (L 0).val, by have h0 : (L 0).val < 2 := (L 0).isLt; have h1 : (L 1).val < 16 := (L 1).isLt; omega⟩

/-- The subcore's row of the shared scratch, as the program slices it. -/
abbrev shRowK (L : grid0.Coords) : Memref sig .scVector .shared S512 .i32 :=
  ((shV).slice (Rect.unit (s := S32x512) (k0_off1 L) S1x512.size (k0_off1_inb L)) (fun _ => rfl)).squeeze S512 squeezes_S1x512_S512
/-- Its two chunks of the result, as the program slices them. -/
abbrev outCh0 (L : grid0.Coords) : Memref sig .scVector .hbm S256x64 .f32 :=
  (outV).slice (Rect.unit (s := S16384x64) (k0_off3 L 0#32) S256x64.size (k0_off3_inb L 0)) (fun _ => rfl)
abbrev outCh1 (L : grid0.Coords) : Memref sig .scVector .hbm S256x64 .f32 :=
  (outV).slice (Rect.unit (s := S16384x64) (k0_off3 L 256#32) S256x64.size (k0_off3_inb L 1)) (fun _ => rfl)

omit [FloatOps F] in
theorem off3_0 : k0_off3 L 0#32 = ![1024 * (L 1).val + 512 * (L 0).val, 0] := k0_off3_eq L ⟨0, by decide⟩
omit [FloatOps F] in
theorem off3_1 : k0_off3 L 256#32 = ![1024 * (L 1).val + 512 * (L 0).val + 256, 0] := k0_off3_eq L ⟨1, by decide⟩

omit [FloatOps F] in
theorem rect_outCh0 : Rect.unit (s := S16384x64) (k0_off3 L 0#32) S256x64.size (k0_off3_inb L 0) = oRect (ch (wL L) 0) := by
  unfold oRect Rect.part Rect.block
  congr 1 <;> funext a
  · rw [off3_0]
    match a with
    | 0 => simp [Shape.partIx, Shape.partSize, ch, wL]; omega
    | 1 => simp [Shape.partIx, Shape.partSize]
  · match a with
    | 0 => simp [Shape.partSize]
    | 1 => simp [Shape.partSize]
omit [FloatOps F] in
theorem rect_outCh1 : Rect.unit (s := S16384x64) (k0_off3 L 256#32) S256x64.size (k0_off3_inb L 1) = oRect (ch (wL L) 1) := by
  unfold oRect Rect.part Rect.block
  congr 1 <;> funext a
  · rw [off3_1]
    match a with
    | 0 => simp [Shape.partIx, Shape.partSize, ch, wL]; omega
    | 1 => simp [Shape.partIx, Shape.partSize]
  · match a with
    | 0 => simp [Shape.partSize]
    | 1 => simp [Shape.partSize]
omit [FloatOps F] in
theorem rect_shRowK : Rect.unit (s := S32x512) (k0_off1 L) S1x512.size (k0_off1_inb L) = shRect (wL L) := by
  unfold shRect Rect.part Rect.block
  congr 1 <;> funext a
  · rw [k0_off1_eq]
    match a with
    | 0 => simp [Shape.partIx, Shape.partSize, wL]
    | 1 => simp [Shape.partIx, Shape.partSize]
  · match a with
    | 0 => simp [Shape.partSize]
    | 1 => simp [Shape.partSize]

omit [FloatOps F] in
theorem set_outCh0 : (outCh0 L).view.set = oSet (ch (wL L) 0) := by
  show ((outV).view.slice (Rect.unit (s := S16384x64) (k0_off3 L 0#32) S256x64.size (k0_off3_inb L 0))).set = ((outV).view.slice (oRect (ch (wL L) 0))).set
  exact rect_outCh0 L ▸ rfl
omit [FloatOps F] in
theorem set_outCh1 : (outCh1 L).view.set = oSet (ch (wL L) 1) := by
  show ((outV).view.slice (Rect.unit (s := S16384x64) (k0_off3 L 256#32) S256x64.size (k0_off3_inb L 1))).set = ((outV).view.slice (oRect (ch (wL L) 1))).set
  exact rect_outCh1 L ▸ rfl
omit [FloatOps F] in
theorem set_shRowK : (shRowK L).view.set = shSet (wL L) := by
  show (((shV).view.slice (Rect.unit (s := S32x512) (k0_off1 L) S1x512.size (k0_off1_inb L))).reshape S512 squeezes_S1x512_S512.numel_eq).set
    = ((shV).view.slice (shRect (wL L))).set
  rw [View.set_reshape]
  exact rect_shRowK L ▸ rfl

omit [FloatOps F] in
theorem pts_t2 (q : PosShare TreeShare) (f : Buf (Elt F) (t2Loc d)) :
    ((t2V).view.loc (V d (cV L) (jV L)) ↦{q} f : sProp 𝕄) = t2Loc d ↦{q} f := rfl
omit [FloatOps F] in
theorem pts_lat (q : PosShare TreeShare) (f : Buf (Elt F) (latLoc d)) :
    ((latV).view.loc (V d (cV L) (jV L)) ↦{q} f : sProp 𝕄) = latLoc d ↦{q} f := rfl
omit [FloatOps F] in
theorem pts_k (q : PosShare TreeShare) (f : Buf (Elt F) (kLoc d)) :
    ((kV).view.loc (V d (cV L) (jV L)) ↦{q} f : sProp 𝕄) = kLoc d ↦{q} f := rfl
omit [FloatOps F] in
theorem pts_off (q : PosShare TreeShare) (f : Buf (Elt F) (offLoc d)) :
    ((offV).view.loc (V d (cV L) (jV L)) ↦{q} f : sProp 𝕄) = offLoc d ↦{q} f := rfl
omit [FloatOps F] in
theorem pts_outCh0 (f : Buf (Elt F) (outLoc d)) :
    ((outCh0 L).view.loc (V d (cV L) (jV L)) ↦[(outCh0 L).view.set]{fullShare} f : sProp 𝕄) = outLoc d ↦[oSet (ch (wL L) 0)]{fullShare} f := by
  rw [set_outCh0]
omit [FloatOps F] in
theorem pts_outCh1 (f : Buf (Elt F) (outLoc d)) :
    ((outCh1 L).view.loc (V d (cV L) (jV L)) ↦[(outCh1 L).view.set]{fullShare} f : sProp 𝕄) = outLoc d ↦[oSet (ch (wL L) 1)]{fullShare} f := by
  rw [set_outCh1]
omit [FloatOps F] in
theorem pts_shRowK (f : Buf (Elt F) (shLoc d (cV L))) :
    ((shRowK L).view.loc (V d (cV L) (jV L)) ↦[(shRowK L).view.set]{fullShare} f : sProp 𝕄) = shLoc d (cV L) ↦[shSet (wL L)]{fullShare} f := by
  rw [set_shRowK]; rfl
omit [FloatOps F] in
theorem pts_sOff (f : Buf (Elt F) ((V d (cV L) (jV L)).loc cc0_scratch1)) :
    ((sOff).view.loc (V d (cV L) (jV L)) ↦{fullShare} f : sProp 𝕄) = (V d (cV L) (jV L)).loc cc0_scratch1 ↦{fullShare} f := rfl
omit [FloatOps F] in
theorem pts_sK (f : Buf (Elt F) ((V d (cV L) (jV L)).loc cc0_scratch2)) :
    ((sK).view.loc (V d (cV L) (jV L)) ↦{fullShare} f : sProp 𝕄) = (V d (cV L) (jV L)).loc cc0_scratch2 ↦{fullShare} f := rfl
omit [FloatOps F] in
theorem pts_sRows (f : Buf (Elt F) ((V d (cV L) (jV L)).loc cc0_scratch3)) :
    ((sRows).view.loc (V d (cV L) (jV L)) ↦{fullShare} f : sProp 𝕄) = (V d (cV L) (jV L)).loc cc0_scratch3 ↦{fullShare} f := rfl
omit [FloatOps F] in
theorem pts_sLat (f : Buf (Elt F) ((V d (cV L) (jV L)).loc cc0_scratch4)) :
    ((sLat).view.loc (V d (cV L) (jV L)) ↦{fullShare} f : sProp 𝕄) = (V d (cV L) (jV L)).loc cc0_scratch4 ↦{fullShare} f := rfl

abbrev cell (d : Dev nD) (c : Fin τ.nSC) (i : Fin τ.nSub) (s : DmaSem sig) : GSem nD τ sig := (V d c i, .dma s)

/-- The subcore's 512 halved labels, as the program slices them. -/
abbrev kSliceK (L : grid0.Coords) : Memref sig .scVector .hbm S512 .i32 :=
  (kV).slice (Rect.unit (s := S16384) (k0_off2 L) S512.size (k0_off2_inb L)) (fun _ => rfl)

/-- Whatever the index scratch held before, once the subcore's halved labels have landed in it every word of either
    half of it is a row of the paired table. -/
theorem k_inb (hlab : LabOKm m) (g : Buf (Elt F) ((V d (cV L) (jV L)).loc cc0_scratch2)) (pay : S512.Idx → Elt F .i32)
    (hpay : pay = (kSliceK L).view.read (Elt F) (vK m d)) (off : Fin 1 → Nat) (hoff : ∀ a, off a + S256.size a ≤ S512.size a) :
    ∀ x, (((sK).slice (Rect.unit (s := S512) off S256.size hoff) (fun _ => rfl)).view.read (Elt F)
        (View.write (Elt F) (sK).view g pay Finset.univ) x).toNat < 500000 := by
  subst hpay; intro x
  rw [View.write_whole_univ]
  rw [show ∀ (f : S512.Idx → Elt F .i32) j, ((sK).slice (Rect.unit (s := S512) off S256.size hoff) (fun _ => rfl)).view.read (Elt F) f j
      = f (((sK).slice (Rect.unit (s := S512) off S256.size hoff) (fun _ => rfl)).view.emb j) from fun f j => (View.read_apply _ _).trans (cast_eq _ _)]
  rw [show ∀ j, (kSliceK L).view.read (Elt F) (vK m d) j = vK m d ((kSliceK L).view.emb j) from fun j => (View.read_apply _ _).trans (cast_eq _ _)]
  exact vK_lt m hlab d _
omit [FloatOps F] in
/-- The subcore's seven transfer cells are among its own: they are them, each at zero, and the rest. -/
theorem ownSems0_V :
    (ownSems0 (V d (cV L) (jV L)) : sProp 𝕄)
      = iprop(semVal (cell d (cV L) (jV L) cc0_scratch5.sem) 0 ∗ semVal (cell d (cV L) (jV L) cc0_scratch6.sem) 0 ∗ semVal (cell d (cV L) (jV L) cc0_scoped0.sem) 0 ∗ semVal (cell d (cV L) (jV L) cc0_scoped1.sem) 0 ∗ semVal (cell d (cV L) (jV L) cc0_scoped2.sem) 0 ∗ semVal (cell d (cV L) (jV L) cc0_scoped3.sem) 0 ∗ semVal (cell d (cV L) (jV L) cc0_scoped4.sem) 0
          ∗ bigSep ((((((((ownCells (V d (cV L) (jV L))).erase (cell d (cV L) (jV L) cc0_scratch5.sem)).erase (cell d (cV L) (jV L) cc0_scratch6.sem)).erase (cell d (cV L) (jV L) cc0_scoped0.sem)).erase (cell d (cV L) (jV L) cc0_scoped1.sem)).erase (cell d (cV L) (jV L) cc0_scoped2.sem)).erase (cell d (cV L) (jV L) cc0_scoped3.sem)).erase (cell d (cV L) (jV L) cc0_scoped4.sem)) fun g => semVal g 0) := by
  unfold SparseCore.Cfg.ownSems0
  rw [SparseCore.bigSep_erase' ((mem_ownCells (g := (cell d (cV L) (jV L) cc0_scratch5.sem))).mpr ⟨rfl, by show (SemLoc.dma cc0_scratch5.sem : SemLoc sig).isScoped .scVector = true; decide⟩),
    SparseCore.bigSep_erase' (Finset.mem_erase.mpr ⟨(fun e => absurd (Prod.mk.inj e).2 (by decide)), ((mem_ownCells (g := (cell d (cV L) (jV L) cc0_scratch6.sem))).mpr ⟨rfl, by show (SemLoc.dma cc0_scratch6.sem : SemLoc sig).isScoped .scVector = true; decide⟩)⟩),
    SparseCore.bigSep_erase' (Finset.mem_erase.mpr ⟨(fun e => absurd (Prod.mk.inj e).2 (by decide)), (Finset.mem_erase.mpr ⟨(fun e => absurd (Prod.mk.inj e).2 (by decide)), ((mem_ownCells (g := (cell d (cV L) (jV L) cc0_scoped0.sem))).mpr ⟨rfl, by show (SemLoc.dma cc0_scoped0.sem : SemLoc sig).isScoped .scVector = true; decide⟩)⟩)⟩),
    SparseCore.bigSep_erase' (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), ((mem_ownCells (g := (cell d (cV L) (jV L) cc0_scoped1.sem))).mpr ⟨rfl, by show (SemLoc.dma cc0_scoped1.sem : SemLoc sig).isScoped .scVector = true; decide⟩)⟩)⟩)⟩),
    SparseCore.bigSep_erase' (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), ((mem_ownCells (g := (cell d (cV L) (jV L) cc0_scoped2.sem))).mpr ⟨rfl, by show (SemLoc.dma cc0_scoped2.sem : SemLoc sig).isScoped .scVector = true; decide⟩)⟩)⟩)⟩)⟩),
    SparseCore.bigSep_erase' (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), ((mem_ownCells (g := (cell d (cV L) (jV L) cc0_scoped3.sem))).mpr ⟨rfl, by show (SemLoc.dma cc0_scoped3.sem : SemLoc sig).isScoped .scVector = true; decide⟩)⟩)⟩)⟩)⟩)⟩),
    SparseCore.bigSep_erase' (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), (Finset.mem_erase.mpr ⟨(fun e => absurd (Prod.mk.inj e).2 (by decide)), ((mem_ownCells (g := (cell d (cV L) (jV L) cc0_scoped4.sem))).mpr ⟨rfl, by show (SemLoc.dma cc0_scoped4.sem : SemLoc sig).isScoped .scVector = true; decide⟩)⟩)⟩)⟩)⟩)⟩)⟩)]

omit [FloatOps F] in
/-- Its four scratch buffers are among its own: they are them, each at some contents, and the rest. -/
theorem ownBufs_V :
    (ownBufs (V d (cV L) (jV L)) : sProp 𝕄)
      = iprop((∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep (((((ownRefs (τ := τ) (.scVector (cV L) (jV L))).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch1) rfl)).trans ?_
  rw [SparseCore.bigSep_erase' (Finset.mem_erase.mpr ⟨fun e => absurd (Proc.devRef_injective _ e) (show (cc0_scratch2 : Ref sig .scVector) ≠ cc0_scratch1 by decide), (SparseCore.Cfg.mem_ownRefs_of_owner (p := Proc.scVector (cV L) (jV L)) (b := (Proc.scVector (cV L) (jV L)).devRef cc0_scratch2) rfl)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (SparseCore.Cfg.mem_ownRefs_of_owner (p := Proc.scVector (cV L) (jV L)) (b := (Proc.scVector (cV L) (jV L)).devRef cc0_scratch3) rfl)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (SparseCore.Cfg.mem_ownRefs_of_owner (p := Proc.scVector (cV L) (jV L)) (b := (Proc.scVector (cV L) (jV L)).devRef cc0_scratch4) rfl)⟩)⟩)⟩)]

/-- Where row `i 0` of the multiply reads the fetched paired rows: the same row, at the row's start plus the column. The
    start is word `256 r + i 0` of the starts the subcore fetched (`r` the chunk). Reduced into range so that the index is
    total; on starts that are 0 or 64 nothing is reduced. -/
def rowsIdx (r : Nat) (cOff : S512.Idx → BitVec 32) (i : S256x64.Idx) : S256x128.Idx :=
  ValueIdx.ix2 (⟨(i 0).val, (i 0).isLt⟩ : Fin 256)
    (⟨((cOff (ValueIdx.ix1 (⟨(256 * r + (i 0).val) % 512, Nat.mod_lt _ (by decide)⟩ : Fin 512))).toNat + (i 1).val) % 128, Nat.mod_lt _ (by decide)⟩ : Fin 128)

/-- The batch chunk once its rows before `k` have been multiplied by their halves of the fetched paired rows. -/
def latAfter (r : Nat) (cOff : S512.Idx → BitVec 32) (cRows : S256x128.Idx → F .f32) (cLat : S256x64.Idx → F .f32) (k : Nat) :
    S256x64.Idx → F .f32 :=
  fun i => if (i 0).val < k then FloatOps.mulf (cLat i) (cRows (rowsIdx r cOff i)) else cLat i

/-- The first multiply loop before trip `k`: the fetched starts and paired rows as they are, the batch chunk with its rows
    before `k` multiplied. -/
def inv1 (cOff : Buf (Elt F) ((V d (cV L) (jV L)).loc cc0_scratch1)) (cRows : Buf (Elt F) ((V d (cV L) (jV L)).loc cc0_scratch3))
    (cLat : Buf (Elt F) ((V d (cV L) (jV L)).loc cc0_scratch4)) (k : Nat) (_ : BitVec 32) : sProp 𝕄 :=
  iprop(((sOff).view.loc (V d (cV L) (jV L)) ↦{fullShare} cOff)
    ∗ ((sRows).view.loc (V d (cV L) (jV L)) ↦{fullShare} cRows)
    ∗ ((sLat).view.loc (V d (cV L) (jV L)) ↦{fullShare} latAfter 0 cOff cRows cLat k))

/-- The second multiply loop before trip `k`: the same over the second chunk, whose starts are the second half of the
    fetched starts. -/
def inv2 (cOff : Buf (Elt F) ((V d (cV L) (jV L)).loc cc0_scratch1)) (cRows : Buf (Elt F) ((V d (cV L) (jV L)).loc cc0_scratch3))
    (cLat : Buf (Elt F) ((V d (cV L) (jV L)).loc cc0_scratch4)) (k : Nat) (_ : BitVec 32) : sProp 𝕄 :=
  iprop(((sOff).view.loc (V d (cV L) (jV L)) ↦{fullShare} cOff)
    ∗ ((sRows).view.loc (V d (cV L) (jV L)) ↦{fullShare} cRows)
    ∗ ((sLat).view.loc (V d (cV L) (jV L)) ↦{fullShare} latAfter 1 cOff cRows cLat k))

end Tile
end Cert.Proof.KB
end
-- ==== Proof.KB.Trips.lean ====
/-
  One trip of each multiply loop. Row k of the batch chunk is 64 numbers, handled as four groups of sixteen lanes; group j
  is replaced by its product, lane by lane, with the sixteen numbers of row k of the fetched paired rows that start at
  the row's start word plus 16 j. The start word is 0 or 64, so every group's window lies inside the 128 numbers of the
  paired row, and together the four groups are the 64 numbers starting at the start word.
-/
import proofs.«206680_g87033217286338_cont_sun_m_31_32_alg».proof.Proof.KB.TileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t2V" => (Memref.whole Cert.Kernel.main_v0_scv : Memref Cert.Kernel.sig Kind.scVector Space.hbm Cert.Kernel.S500000x128 EltTy.f32)
local notation "latV" => (Memref.whole Cert.Kernel.main_arg0_scv : Memref Cert.Kernel.sig Kind.scVector Space.hbm Cert.Kernel.S16384x64 EltTy.f32)
local notation "kV" => (Memref.whole Cert.Kernel.main_v2_scv : Memref Cert.Kernel.sig Kind.scVector Space.hbm Cert.Kernel.S16384 EltTy.i32)
local notation "offV" => (Memref.whole Cert.Kernel.main_v6_scv : Memref Cert.Kernel.sig Kind.scVector Space.hbm Cert.Kernel.S16384 EltTy.i32)
local notation "outV" => (Memref.whole Cert.Kernel.main_v7_scv : Memref Cert.Kernel.sig Kind.scVector Space.hbm Cert.Kernel.S16384x64 EltTy.f32)
local notation "shV" => (Memref.whole Cert.Kernel.cc0_scratch0 : Memref Cert.Kernel.sig Kind.scVector Space.shared Cert.Kernel.S32x512 EltTy.i32)
local notation "sOff" => (Memref.whole Cert.Kernel.cc0_scratch1 : Memref Cert.Kernel.sig Kind.scVector Space.smem Cert.Kernel.S512 EltTy.i32)
local notation "sK" => (Memref.whole Cert.Kernel.cc0_scratch2 : Memref Cert.Kernel.sig Kind.scVector Space.vmem Cert.Kernel.S512 EltTy.i32)
local notation "sRows" => (Memref.whole Cert.Kernel.cc0_scratch3 : Memref Cert.Kernel.sig Kind.scVector Space.vmem Cert.Kernel.S256x128 EltTy.f32)
local notation "sLat" => (Memref.whole Cert.Kernel.cc0_scratch4 : Memref Cert.Kernel.sig Kind.scVector Space.vmem Cert.Kernel.S256x64 EltTy.f32)

variable [FloatOps F]

section Pure

/-- A list of pieces that all lie in row `k`, together cover row `k`, and each hold the products of that row: written over
    the chunk with the rows before `k` multiplied, they leave the chunk with the rows before `k + 1` multiplied. -/
theorem writes_row (r : Nat) (cOff : S512.Idx → BitVec 32) (cRows : S256x128.Idx → F .f32) (cLat : S256x64.Idx → F .f32) (k : Nat)
    (L : List (View.Piece (Elt F) S256x64 .f32))
    (hrow : ∀ p ∈ L, ∀ i ∈ p.1.set, (i 0).val = k)
    (hcov : ∀ i : S256x64.Idx, (i 0).val = k → ∃ p ∈ L, i ∈ p.1.set)
    (hpay : ∀ p ∈ L, ∀ x, p.2 x = FloatOps.mulf (cLat (p.1.emb x)) (cRows (rowsIdx r cOff (p.1.emb x)))) :
    (sLat).view.writes (Elt F) (latAfter r cOff cRows cLat k) L = latAfter r cOff cRows cLat (k + 1) := by
  funext i
  by_cases h : (i 0).val = k
  · refine (View.read_writes_apply_of_pieces (sLat).view (latAfter r cOff cRows cLat k) (latAfter r cOff cRows cLat (k + 1)) L ?_ i (hcov i h))
    intro p hp x
    have hx : ((p.1.emb x) 0).val = k := hrow p hp _ (by rw [← Rect.map_emb_univ]; exact Finset.mem_map_of_mem _ (Finset.mem_univ x))
    rw [hpay p hp x]
    unfold latAfter
    rw [if_pos (by omega)]
  · refine (View.read_writes_apply_of_forall_not_mem (sLat).view (latAfter r cOff cRows cLat k) i L (fun p hp hm => h (hrow p hp i hm))).trans ?_
    show latAfter r cOff cRows cLat k i = latAfter r cOff cRows cLat (k + 1) i
    unfold latAfter
    by_cases h' : (i 0).val < k
    · rw [if_pos h', if_pos (by omega)]
    · rw [if_neg h', if_neg (by omega)]

end Pure

section Pure2

/-- The four sixteen-lane groups of row `k`, each holding that row's products: see `writes_row`. -/
theorem writes_four (r : Nat) (cOff : S512.Idx → BitVec 32) (cRows : S256x128.Idx → F .f32) (cLat : S256x64.Idx → F .f32) (k : Nat)
    (o0 o1 o2 o3 : Fin 2 → Nat) (h0 : o0 = ![k, 0]) (h1 : o1 = ![k, 16]) (h2 : o2 = ![k, 32]) (h3 : o3 = ![k, 48])
    (inb0 : ∀ a, o0 a + S1x16.size a ≤ S256x64.size a) (inb1 : ∀ a, o1 a + S1x16.size a ≤ S256x64.size a)
    (inb2 : ∀ a, o2 a + S1x16.size a ≤ S256x64.size a) (inb3 : ∀ a, o3 a + S1x16.size a ≤ S256x64.size a)
    (w0 : (Rect.unit (s := S256x64) o0 S1x16.size inb0).shape.Idx → F .f32)
    (w1 : (Rect.unit (s := S256x64) o1 S1x16.size inb1).shape.Idx → F .f32)
    (w2 : (Rect.unit (s := S256x64) o2 S1x16.size inb2).shape.Idx → F .f32)
    (w3 : (Rect.unit (s := S256x64) o3 S1x16.size inb3).shape.Idx → F .f32)
    (hw0 : ∀ x, w0 x = FloatOps.mulf (cLat ((Rect.unit (s := S256x64) o0 S1x16.size inb0).emb x)) (cRows (rowsIdx r cOff ((Rect.unit (s := S256x64) o0 S1x16.size inb0).emb x))))
    (hw1 : ∀ x, w1 x = FloatOps.mulf (cLat ((Rect.unit (s := S256x64) o1 S1x16.size inb1).emb x)) (cRows (rowsIdx r cOff ((Rect.unit (s := S256x64) o1 S1x16.size inb1).emb x))))
    (hw2 : ∀ x, w2 x = FloatOps.mulf (cLat ((Rect.unit (s := S256x64) o2 S1x16.size inb2).emb x)) (cRows (rowsIdx r cOff ((Rect.unit (s := S256x64) o2 S1x16.size inb2).emb x))))
    (hw3 : ∀ x, w3 x = FloatOps.mulf (cLat ((Rect.unit (s := S256x64) o3 S1x16.size inb3).emb x)) (cRows (rowsIdx r cOff ((Rect.unit (s := S256x64) o3 S1x16.size inb3).emb x)))) :
    (sLat).view.writes (Elt F) (latAfter r cOff cRows cLat k)
        [⟨Rect.unit (s := S256x64) o3 S1x16.size inb3, w3⟩, ⟨Rect.unit (s := S256x64) o2 S1x16.size inb2, w2⟩,
         ⟨Rect.unit (s := S256x64) o1 S1x16.size inb1, w1⟩, ⟨Rect.unit (s := S256x64) o0 S1x16.size inb0, w0⟩]
      = latAfter r cOff cRows cLat (k + 1) := by
  subst h0 h1 h2 h3
  apply writes_row
  · intro p hp i hi
    simp only [List.mem_cons, List.not_mem_nil, _root_.or_false] at hp
    rcases hp with rfl | rfl | rfl | rfl
    all_goals
      dsimp only at hi
      have h := (Rect.mem_set_unit.mp hi) 0
      change k ≤ (i 0).val ∧ (i 0).val < k + 1 at h
      omega
  · intro i hi
    have h1 : (i 1).val < 64 := (i 1).isLt
    by_cases c1 : (i 1).val < 16
    · refine ⟨⟨Rect.unit (s := S256x64) ![k, 0] S1x16.size inb0, w0⟩, List.mem_cons_of_mem _ (List.mem_cons_of_mem _ (List.mem_cons_of_mem _ List.mem_cons_self)), (Rect.mem_set_unit (inb := inb0)).mpr (Fin.forall_fin_two.mpr ⟨?_, ?_⟩)⟩
      · show k ≤ (i 0).val ∧ (i 0).val < k + 1; omega
      · show 0 ≤ (i 1).val ∧ (i 1).val < 0 + 16; omega
    by_cases c2 : (i 1).val < 32
    · refine ⟨⟨Rect.unit (s := S256x64) ![k, 16] S1x16.size inb1, w1⟩, List.mem_cons_of_mem _ (List.mem_cons_of_mem _ List.mem_cons_self), (Rect.mem_set_unit (inb := inb1)).mpr (Fin.forall_fin_two.mpr ⟨?_, ?_⟩)⟩
      · show k ≤ (i 0).val ∧ (i 0).val < k + 1; omega
      · show 16 ≤ (i 1).val ∧ (i 1).val < 16 + 16; omega
    by_cases c3 : (i 1).val < 48
    · refine ⟨⟨Rect.unit (s := S256x64) ![k, 32] S1x16.size inb2, w2⟩, List.mem_cons_of_mem _ List.mem_cons_self, (Rect.mem_set_unit (inb := inb2)).mpr (Fin.forall_fin_two.mpr ⟨?_, ?_⟩)⟩
      · show k ≤ (i 0).val ∧ (i 0).val < k + 1; omega
      · show 32 ≤ (i 1).val ∧ (i 1).val < 32 + 16; omega
    · refine ⟨⟨Rect.unit (s := S256x64) ![k, 48] S1x16.size inb3, w3⟩, List.mem_cons_self, (Rect.mem_set_unit (inb := inb3)).mpr (Fin.forall_fin_two.mpr ⟨?_, ?_⟩)⟩
      · show k ≤ (i 0).val ∧ (i 0).val < k + 1; omega
      · show 48 ≤ (i 1).val ∧ (i 1).val < 48 + 16; omega
  · intro p hp x
    simp only [List.mem_cons, List.not_mem_nil, _root_.or_false] at hp
    rcases hp with rfl | rfl | rfl | rfl
    · exact hw3 x
    · exact hw2 x
    · exact hw1 x
    · exact hw0 x

/-- A shape cast read at an index is the operand at the index with the same row-major position. -/
theorem shapeCast_at {α : Type} {s t : Shape} (x : s.Idx → α) (h : s.ShapeCasts t) (j : t.Idx) (k : s.Idx)
    (hk : (s.rowMajor k).val = (t.rowMajor j).val) : shapeCast t x h j = x k := by
  unfold shapeCast
  exact congrArg x (Shape.reshapeEquiv_eq_of_rowMajor h hk)

/-- A group's product at a lane: the product of the batch lane and the paired lane. -/
theorem pay_apply (a : Vec F S1x16 .f32) (b : Vec F S16 .f32) (x : S1x16.Idx) :
    shapeCast S1x16 (mulf (shapeCast S16 a shapeCasts_S1x16_S16) (shapeCast S16 b shapeCasts_S16_S16)) shapeCasts_S16_S1x16 x
      = FloatOps.mulf (a x) (b (ValueIdx.ix1 (⟨(x 1).val, (x 1).isLt⟩ : Fin 16))) := by
  have h0 : (x 0).val = 0 := by have h : (x 0).val < 1 := (x 0).isLt; omega
  have e : (S16.rowMajor (ValueIdx.ix1 (⟨(x 1).val, (x 1).isLt⟩ : Fin 16))).val = (S1x16.rowMajor x).val := by
    rw [Shape.rowMajor_val_one, Shape.rowMajor_val_two, h0]
    show (x 1).val = 0 * 16 + (x 1).val
    omega
  rw [shapeCast_at _ shapeCasts_S16_S1x16 x (ValueIdx.ix1 (⟨(x 1).val, (x 1).isLt⟩ : Fin 16)) e]
  show FloatOps.mulf (shapeCast S16 a shapeCasts_S1x16_S16 _) (shapeCast S16 b shapeCasts_S16_S16 _) = _
  rw [shapeCast_at a shapeCasts_S1x16_S16 _ x e.symm, shapeCast_at b shapeCasts_S16_S16 _ _ rfl]

/-- A load of sixteen lanes of row `k` of the batch chunk, before trip `k`: the lanes as fetched. -/
theorem lat_load (r : Nat) (cOff : S512.Idx → BitVec 32) (cRows : S256x128.Idx → F .f32) (cLat : S256x64.Idx → F .f32) (k : Nat)
    (o : Fin 2 → Nat) (ho : o 0 = k) (inb : ∀ a, o a + S1x16.size a ≤ S256x64.size a)
    (x : (Rect.unit (s := S256x64) o S1x16.size inb).shape.Idx) :
    (sLat).view.readAt (Elt F) (Rect.unit (s := S256x64) o S1x16.size inb).toLoadRect (latAfter r cOff cRows cLat k) x
      = cLat ((Rect.unit (s := S256x64) o S1x16.size inb).emb x) := by
  show latAfter r cOff cRows cLat k ((Rect.unit (s := S256x64) o S1x16.size inb).emb x) = _
  unfold latAfter
  rw [if_neg]
  show ¬ (o 0 + 1 * (x 0).val < k)
  omega

/-- The start word of row `n`. -/
theorem start_load (cOff : S512.Idx → BitVec 32) (o : Fin 1 → Nat) (n : Nat) (hn : n < 512) (ho : o = ![n])
    (inb : ∀ a, o a + S1.size a ≤ S512.size a) (x : (Rect.unit (s := S512) o S1.size inb).shape.Idx) :
    (sOff).view.readAt (Elt F) (Rect.unit (s := S512) o S1.size inb).toLoadRect cOff x = cOff (ValueIdx.ix1 (⟨n, hn⟩ : Fin 512)) := by
  subst ho
  show cOff _ = cOff _
  congr 1
  funext a; apply Fin.ext
  have hx : (x 0).val = 0 := by have h : (x 0).val < 1 := (x 0).isLt; omega
  match a with
  | ⟨0, _⟩ =>
    show n + 1 * (x 0).val = n
    omega

end Pure2

section Pure3

/-- A load of sixteen lanes of fetched paired row `k`, from lane `n` on. -/
theorem rows_load (cRows : S256x128.Idx → F .f32) (k : Nat) (hk : k < 256)
    (oR : Fin 2 → Nat) (hR : oR = ![k, 0]) (inbR : ∀ a, oR a + S1x128.size a ≤ S256x128.size a)
    (hst : ∀ a, (Rect.unit (s := S256x128) oR S1x128.size inbR).stride a = 1)
    (oW : Fin 1 → Nat) (n : Nat) (hW : oW = ![n]) (inbW : ∀ a, oW a + S16.size a ≤ S128.size a)
    (y : (Rect.unit (s := S128) oW S16.size inbW).shape.Idx) (hn : n + (y 0).val < 128) :
    (((sRows).slice (Rect.unit (s := S256x128) oR S1x128.size inbR) hst).squeeze S128 squeezes_S1x128_S128).view.readAt (Elt F)
        (Rect.unit (s := S128) oW S16.size inbW).toLoadRect cRows y
      = cRows (ValueIdx.ix2 (⟨k, hk⟩ : Fin 256) (⟨n + (y 0).val, hn⟩ : Fin 128)) := by
  subst hR hW
  show cRows ((Rect.unit (s := S256x128) ![k, 0] S1x128.size inbR).emb
      (Shape.reshapeEquiv squeezes_S1x128_S128.numel_eq ((Rect.unit (s := S128) ![n] S16.size inbW).emb y))) = _
  have e : Shape.reshapeEquiv squeezes_S1x128_S128.numel_eq ((Rect.unit (s := S128) ![n] S16.size inbW).emb y)
      = ValueIdx.ix2 (⟨0, Nat.one_pos⟩ : Fin 1) (⟨n + (y 0).val, hn⟩ : Fin 128) :=
    Shape.reshapeEquiv_eq_of_rowMajor _ (by
      rw [Shape.rowMajor_val_two, Shape.rowMajor_val_one]
      show 0 * 128 + (n + (y 0).val) = n + 1 * (y 0).val
      omega)
  rw [e]
  congr 1
  funext a; apply Fin.ext
  match a with
  | ⟨0, _⟩ => show k + 1 * 0 = k; omega
  | ⟨1, _⟩ => show 0 + 1 * (n + (y 0).val) = n + (y 0).val; omega

/-- One group of one trip: the payload written is the product the invariant names, at every lane. -/
theorem group_eq (r : Nat) (hr : r < 2) (cOff : S512.Idx → BitVec 32) (cRows : S256x128.Idx → F .f32) (cLat : S256x64.Idx → F .f32)
    (hoff : ∀ t, cOff t = 0#32 ∨ cOff t = 64#32) (k : Nat) (hk : k < 256) (j : Nat) (hj : j < 4)
    (n : Nat) (hn5 : n < 512) (hnk : n = 256 * r + k)
    (w : BitVec 32) (hw : w = cOff (ValueIdx.ix1 (⟨n, hn5⟩ : Fin 512)))
    (c : BitVec 32) (hc : c = BitVec.ofNat 32 (16 * j))
    (oS oL : Fin 2 → Nat) (hS : oS = ![k, 16 * j]) (hL : oL = ![k, 16 * j])
    (inbS : ∀ a, oS a + S1x16.size a ≤ S256x64.size a) (inbL : ∀ a, oL a + S1x16.size a ≤ S256x64.size a)
    (oR : Fin 2 → Nat) (hR : oR = ![k, 0]) (inbR : ∀ a, oR a + S1x128.size a ≤ S256x128.size a)
    (hst : ∀ a, (Rect.unit (s := S256x128) oR S1x128.size inbR).stride a = 1)
    (oW : Fin 1 → Nat) (hW : oW = ![(Scalar.indexCast (Scalar.addi w c)).toNat]) (inbW : ∀ a, oW a + S16.size a ≤ S128.size a)
    (x : S1x16.Idx) :
    shapeCast S1x16 (mulf
        (shapeCast S16 ((sLat).view.readAt (Elt F) (Rect.unit (s := S256x64) oL S1x16.size inbL).toLoadRect (latAfter r cOff cRows cLat k)) shapeCasts_S1x16_S16)
        (shapeCast S16 ((((sRows).slice (Rect.unit (s := S256x128) oR S1x128.size inbR) hst).squeeze S128 squeezes_S1x128_S128).view.readAt (Elt F)
          (Rect.unit (s := S128) oW S16.size inbW).toLoadRect cRows) shapeCasts_S16_S16)) shapeCasts_S16_S1x16 x
      = FloatOps.mulf (cLat ((Rect.unit (s := S256x64) oS S1x16.size inbS).emb x))
          (cRows (rowsIdx r cOff ((Rect.unit (s := S256x64) oS S1x16.size inbS).emb x))) := by
  have hx0 : (x 0).val = 0 := by have h : (x 0).val < 1 := (x 0).isLt; omega
  have hx1 : (x 1).val < 16 := (x 1).isLt
  have hw' : w = 0#32 ∨ w = 64#32 := hw ▸ hoff _
  have hn : (Scalar.indexCast (Scalar.addi w c)).toNat = w.toNat + 16 * j := by
    subst hc
    rcases hw' with rfl | rfl <;> interval_cases j <;> rfl
  have hwn : w.toNat = 0 ∨ w.toNat = 64 := by rcases hw' with rfl | rfl <;> [left; right] <;> rfl
  rw [pay_apply]
  rw [lat_load r cOff cRows cLat k oL (by rw [hL]; rfl) inbL x]
  rw [rows_load cRows k hk oR hR inbR hst oW _ hW inbW _ (by show _ + (x 1).val < 128; omega)]
  subst hS hL
  congr 2
  unfold rowsIdx
  funext a; apply Fin.ext
  match a with
  | ⟨0, _⟩ => show k = k + 1 * (x 0).val; omega
  | ⟨1, _⟩ =>
    show (Scalar.indexCast (Scalar.addi w c)).toNat + (x 1).val
      = ((cOff (ValueIdx.ix1 (⟨(256 * r + (k + 1 * (x 0).val)) % 512, Nat.mod_lt _ (by decide)⟩ : Fin 512))).toNat + (16 * j + 1 * (x 1).val)) % 128
    have e : (ValueIdx.ix1 (⟨(256 * r + (k + 1 * (x 0).val)) % 512, Nat.mod_lt _ (by decide)⟩ : Fin 512))
        = ValueIdx.ix1 (⟨n, hn5⟩ : Fin 512) := by
      congr 2; omega
    rw [e, ← hw, hn]
    omega

end Pure3

section Trips
variable (d : Dev nD) (L : grid0.Coords)

set_option maxHeartbeats 4000000 in
/-- One trip of the first multiply loop: from "the rows before k are multiplied" to "the rows before k + 1 are". -/
theorem trip1 (cOff : Buf (Elt F) ((V d (cV L) (jV L)).loc cc0_scratch1)) (cRows : Buf (Elt F) ((V d (cV L) (jV L)).loc cc0_scratch3))
    (cLat : Buf (Elt F) ((V d (cV L) (jV L)).loc cc0_scratch4)) (hoff : ∀ j, cOff j = 0#32 ∨ cOff j = 64#32)
    (k : Fin k0_t1_loop.trips) (acc : BitVec 32) :
    inv1 (F := F) d L cOff cRows cLat k.val acc
      ⊢ wp frame (wpE (defs₀ (F := F)) 𝒱₀ (V d (cV L) (jV L)) none) Set.univ
          (k0_t1_body L t2V (Memref.isWhole_whole _) latV (Memref.isWhole_whole _) kV (Memref.isWhole_whole _) offV (Memref.isWhole_whole _)
            outV (Memref.isWhole_whole _) shV (Memref.isWhole_whole _) sOff (Memref.isWhole_whole _) sK (Memref.isWhole_whole _)
            sRows (Memref.isWhole_whole _) sLat (Memref.isWhole_whole _) cc0_scratch5 cc0_scratch6 cc0_scoped0 cc0_scoped1 cc0_scoped2 cc0_scoped3 cc0_scoped4 0#32 k acc)
          fun acc' => inv1 (F := F) d L cOff cRows cLat (k.val + 1) acc' := by
  unfold inv1 k0_t1_body
  iintro ⟨HsOff, HsRows, HsLat⟩
  sl_exec (disch := first | (apply chk1_of; apply hoff) | skip)
  sl_step
  have hk : k.val < 256 := lt_of_lt_of_le k.isLt k0_t1_abs.2.1
  have hw : trip1.sl.r d L cOff k = cOff (ValueIdx.ix1 (⟨k.val, by omega⟩ : Fin 512)) :=
    start_load cOff (k0_off4 k) (k.val) (by omega) (k0_off4_eq k) (k0_off4_inb k) _
  have hchk : k0_chk1 (trip1.sl.r d L cOff k) := chk1_of _ (by rw [hw]; exact hoff _)
  have key := writes_four (F := F) 0 cOff cRows cLat k.val (k0_off8 k) (k0_off9 k) (k0_off11 k) (k0_off12 k)
      (k0_off8_eq k) (k0_off9_eq k) (k0_off11_eq k) (k0_off12_eq k) (k0_off8_inb k) (k0_off9_inb k) (k0_off11_inb k) (k0_off12_inb k)
      (k0_pay5 (View.readAt (Elt F) (sLat).view (Rect.unit (s := S256x64) (k0_off5 k) S1x16.size (k0_off5_inb k)).toLoadRect (latAfter 0 cOff cRows cLat k.val)) (trip1.sl.v38 d L cOff cRows hoff k))
      (k0_pay6 (trip1.sl.v46 d L cOff cRows cLat k) (trip1.sl.v52 d L cOff cRows hoff k))
      (k0_pay1 (trip1.sl.r_1 d L cOff cRows cLat hoff k))
      (k0_pay2 (trip1.sl.v74 d L cOff cRows cLat k) (trip1.sl.v80 d L cOff cRows hoff k))
      (fun x => group_eq (F := F) 0 (by decide) cOff cRows cLat hoff k.val hk 0 (by decide) (k.val) (by omega) (by omega) (trip1.sl.r d L cOff k) hw 0#32 rfl
          (k0_off8 k) (k0_off5 k) (k0_off8_eq k) (k0_off5_eq k) (k0_off8_inb k) (k0_off5_inb k)
          (k0_off6 k) (k0_off6_eq k) (k0_off6_inb k) (fun _ => rfl)
          (k0_off7 (trip1.sl.r d L cOff k) 0#32) rfl (k0_off7_inb _ hchk 0) x)
      (fun x => group_eq (F := F) 0 (by decide) cOff cRows cLat hoff k.val hk 1 (by decide) (k.val) (by omega) (by omega) (trip1.sl.r d L cOff k) hw 16#32 rfl
          (k0_off9 k) (k0_off9 k) (k0_off9_eq k) (k0_off9_eq k) (k0_off9_inb k) (k0_off9_inb k)
          (k0_off10 k) (k0_off10_eq k) (k0_off10_inb k) (fun _ => rfl)
          (k0_off7 (trip1.sl.r d L cOff k) 16#32) rfl (k0_off7_inb _ hchk 1) x)
      (fun x => group_eq (F := F) 0 (by decide) cOff cRows cLat hoff k.val hk 2 (by decide) (k.val) (by omega) (by omega) (trip1.sl.r d L cOff k) hw 32#32 rfl
          (k0_off11 k) (k0_off11 k) (k0_off11_eq k) (k0_off11_eq k) (k0_off11_inb k) (k0_off11_inb k)
          (k0_off10 k) (k0_off10_eq k) (k0_off10_inb k) (fun _ => rfl)
          (k0_off7 (trip1.sl.r d L cOff k) 32#32) rfl (k0_off7_inb _ hchk 2) x)
      (fun x => group_eq (F := F) 0 (by decide) cOff cRows cLat hoff k.val hk 3 (by decide) (k.val) (by omega) (by omega) (trip1.sl.r d L cOff k) hw 48#32 rfl
          (k0_off12 k) (k0_off12 k) (k0_off12_eq k) (k0_off12_eq k) (k0_off12_inb k) (k0_off12_inb k)
          (k0_off10 k) (k0_off10_eq k) (k0_off10_inb k) (fun _ => rfl)
          (k0_off7 (trip1.sl.r d L cOff k) 48#32) rfl (k0_off7_inb _ hchk 3) x)
  isplitl [HsOff]
  · iexact HsOff
  isplitl [HsRows]
  · iexact HsRows
  rw [← key]
  iexact HsLat

set_option maxHeartbeats 4000000 in
/-- One trip of the second multiply loop: the same over the second chunk. -/
theorem trip2 (cOff : Buf (Elt F) ((V d (cV L) (jV L)).loc cc0_scratch1)) (cRows : Buf (Elt F) ((V d (cV L) (jV L)).loc cc0_scratch3))
    (cLat : Buf (Elt F) ((V d (cV L) (jV L)).loc cc0_scratch4)) (hoff : ∀ j, cOff j = 0#32 ∨ cOff j = 64#32)
    (k : Fin k0_t2_loop.trips) (acc : BitVec 32) :
    inv2 (F := F) d L cOff cRows cLat k.val acc
      ⊢ wp frame (wpE (defs₀ (F := F)) 𝒱₀ (V d (cV L) (jV L)) none) Set.univ
          (k0_t2_body L t2V (Memref.isWhole_whole _) latV (Memref.isWhole_whole _) kV (Memref.isWhole_whole _) offV (Memref.isWhole_whole _)
            outV (Memref.isWhole_whole _) shV (Memref.isWhole_whole _) sOff (Memref.isWhole_whole _) sK (Memref.isWhole_whole _)
            sRows (Memref.isWhole_whole _) sLat (Memref.isWhole_whole _) cc0_scratch5 cc0_scratch6 cc0_scoped0 cc0_scoped1 cc0_scoped2 cc0_scoped3 cc0_scoped4 k acc)
          fun acc' => inv2 (F := F) d L cOff cRows cLat (k.val + 1) acc' := by
  unfold inv2 k0_t2_body
  iintro ⟨HsOff, HsRows, HsLat⟩
  sl_exec (disch := first | (apply chk2_of; apply hoff) | skip)
  sl_step
  have hk : k.val < 256 := lt_of_lt_of_le k.isLt k0_t2_abs.2.1
  have hw : trip2.sl.r d L cOff k = cOff (ValueIdx.ix1 (⟨k.val + 256, by omega⟩ : Fin 512)) :=
    start_load cOff (k0_off13 k) (k.val + 256) (by omega) (k0_off13_eq k) (k0_off13_inb k) _
  have hchk : k0_chk2 (trip2.sl.r d L cOff k) := chk2_of _ (by rw [hw]; exact hoff _)
  have key := writes_four (F := F) 1 cOff cRows cLat k.val (k0_off17 k) (k0_off18 k) (k0_off20 k) (k0_off21 k)
      (k0_off17_eq k) (k0_off18_eq k) (k0_off20_eq k) (k0_off21_eq k) (k0_off17_inb k) (k0_off18_inb k) (k0_off20_inb k) (k0_off21_inb k)
      (k0_pay8 (View.readAt (Elt F) (sLat).view (Rect.unit (s := S256x64) (k0_off14 k) S1x16.size (k0_off14_inb k)).toLoadRect (latAfter 1 cOff cRows cLat k.val)) (trip2.sl.v38 d L cOff cRows hoff k))
      (k0_pay9 (trip2.sl.v46 d L cOff cRows cLat k) (trip2.sl.v52 d L cOff cRows hoff k))
      (k0_pay3 (trip2.sl.r_1 d L cOff cRows cLat hoff k))
      (k0_pay4 (trip2.sl.v74 d L cOff cRows cLat k) (trip2.sl.v80 d L cOff cRows hoff k))
      (fun x => group_eq (F := F) 1 (by decide) cOff cRows cLat hoff k.val hk 0 (by decide) (k.val + 256) (by omega) (by omega) (trip2.sl.r d L cOff k) hw 0#32 rfl
          (k0_off17 k) (k0_off14 k) (k0_off17_eq k) (k0_off14_eq k) (k0_off17_inb k) (k0_off14_inb k)
          (k0_off15 k) (k0_off15_eq k) (k0_off15_inb k) (fun _ => rfl)
          (k0_off16 (trip2.sl.r d L cOff k) 0#32) rfl (k0_off16_inb _ hchk 0) x)
      (fun x => group_eq (F := F) 1 (by decide) cOff cRows cLat hoff k.val hk 1 (by decide) (k.val + 256) (by omega) (by omega) (trip2.sl.r d L cOff k) hw 16#32 rfl
          (k0_off18 k) (k0_off18 k) (k0_off18_eq k) (k0_off18_eq k) (k0_off18_inb k) (k0_off18_inb k)
          (k0_off19 k) (k0_off19_eq k) (k0_off19_inb k) (fun _ => rfl)
          (k0_off16 (trip2.sl.r d L cOff k) 16#32) rfl (k0_off16_inb _ hchk 1) x)
      (fun x => group_eq (F := F) 1 (by decide) cOff cRows cLat hoff k.val hk 2 (by decide) (k.val + 256) (by omega) (by omega) (trip2.sl.r d L cOff k) hw 32#32 rfl
          (k0_off20 k) (k0_off20 k) (k0_off20_eq k) (k0_off20_eq k) (k0_off20_inb k) (k0_off20_inb k)
          (k0_off19 k) (k0_off19_eq k) (k0_off19_inb k) (fun _ => rfl)
          (k0_off16 (trip2.sl.r d L cOff k) 32#32) rfl (k0_off16_inb _ hchk 2) x)
      (fun x => group_eq (F := F) 1 (by decide) cOff cRows cLat hoff k.val hk 3 (by decide) (k.val + 256) (by omega) (by omega) (trip2.sl.r d L cOff k) hw 48#32 rfl
          (k0_off21 k) (k0_off21 k) (k0_off21_eq k) (k0_off21_eq k) (k0_off21_inb k) (k0_off21_inb k)
          (k0_off19 k) (k0_off19_eq k) (k0_off19_inb k) (fun _ => rfl)
          (k0_off16 (trip2.sl.r d L cOff k) 48#32) rfl (k0_off16_inb _ hchk 3) x)
  isplitl [HsOff]
  · iexact HsOff
  isplitl [HsRows]
  · iexact HsRows
  rw [← key]
  iexact HsLat

end Trips
end Cert.Proof.KB
end
-- ==== Proof.KB.Bridge.lean ====
/-
  What a subcore's two written chunks hold is the specification.

  The paired table holds the table's rows two at a time: row R of it is rows 2 R and 2 R + 1 of the table side by side,
  so its entry (R, X) is the table's entry (2 R + X / 64, X mod 64). A label l names row l / 2 of the paired table
  and, inside it, the 64 numbers starting at 64 (l mod 2): entry (l / 2, 64 (l mod 2) + c) is the table's entry (l, c).
  After a multiply loop's 256 trips every row of the batch chunk has been multiplied by those 64 numbers of the paired
  row its halved label fetched; with the batch chunk, the halved labels and the start words read at the subcore's rows
  512 w + 256 r + a of the batch-sized arrays, that is the specification's value at those rows.
-/
import proofs.«206680_g87033217286338_cont_sun_m_31_32_alg».proof.Proof.KB.TileDefs
import Idealize.ShloMosaic.Lib.Pipeline.Value
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t2V" => (Memref.whole Cert.Kernel.main_v0_scv : Memref Cert.Kernel.sig Kind.scVector Space.hbm Cert.Kernel.S500000x128 EltTy.f32)
local notation "latV" => (Memref.whole Cert.Kernel.main_arg0_scv : Memref Cert.Kernel.sig Kind.scVector Space.hbm Cert.Kernel.S16384x64 EltTy.f32)
local notation "kV" => (Memref.whole Cert.Kernel.main_v2_scv : Memref Cert.Kernel.sig Kind.scVector Space.hbm Cert.Kernel.S16384 EltTy.i32)
local notation "offV" => (Memref.whole Cert.Kernel.main_v6_scv : Memref Cert.Kernel.sig Kind.scVector Space.hbm Cert.Kernel.S16384 EltTy.i32)
local notation "outV" => (Memref.whole Cert.Kernel.main_v7_scv : Memref Cert.Kernel.sig Kind.scVector Space.hbm Cert.Kernel.S16384x64 EltTy.f32)
local notation "shV" => (Memref.whole Cert.Kernel.cc0_scratch0 : Memref Cert.Kernel.sig Kind.scVector Space.shared Cert.Kernel.S32x512 EltTy.i32)
local notation "sOff" => (Memref.whole Cert.Kernel.cc0_scratch1 : Memref Cert.Kernel.sig Kind.scVector Space.smem Cert.Kernel.S512 EltTy.i32)
local notation "sK" => (Memref.whole Cert.Kernel.cc0_scratch2 : Memref Cert.Kernel.sig Kind.scVector Space.vmem Cert.Kernel.S512 EltTy.i32)
local notation "sRows" => (Memref.whole Cert.Kernel.cc0_scratch3 : Memref Cert.Kernel.sig Kind.scVector Space.vmem Cert.Kernel.S256x128 EltTy.f32)
local notation "sLat" => (Memref.whole Cert.Kernel.cc0_scratch4 : Memref Cert.Kernel.sig Kind.scVector Space.vmem Cert.Kernel.S256x64 EltTy.f32)

variable [FloatOps F]

open Idealize.ShloMosaic.ValueIdx

section Bridge
variable (d : Dev nD) (L : grid0.Coords)

omit [FloatOps F] in
theorem wL_lt : (wL L).val < 32 := (wL L).isLt

/-- Row `a` of chunk `r` of the subcore's block, as a row of the batch-sized arrays. -/
def gRow (L : grid0.Coords) (r : Fin 2) (a : Fin 256) : Fin 16384 :=
  ⟨512 * (wL L).val + 256 * r.val + a.val, by have := (wL L).isLt; have := r.isLt; have := a.isLt; omega⟩
/-- Word `q` of the subcore's 512, as an index of the batch-sized arrays. -/
def gWord (L : grid0.Coords) (q : Fin 512) : Fin 16384 :=
  ⟨512 * (wL L).val + q.val, by have := (wL L).isLt; have := q.isLt; omega⟩

omit [FloatOps F] in
/-- Half of a word, and 64 times its last bit, as numbers. -/
theorem half_toNat (x : BitVec 32) : (IntOp.shrui .host x 1#32).toNat = x.toNat / 2 := by
  unfold IntOp.shrui
  rw [if_pos (by decide)]
  show (x >>> (1 : Nat)).toNat = x.toNat / 2
  rw [BitVec.toNat_ushiftRight, Nat.shiftRight_eq_div_pow]
omit [FloatOps F] in
theorem bit64_toNat (x : BitVec 32) : (IntOp.muli (IntOp.andi x 1#32) 64#32).toNat = 64 * (x.toNat % 2) := by
  have e : (x &&& 1#32).toNat = x.toNat % 2 := by
    rw [BitVec.toNat_and]; exact Nat.and_one_is_mod _
  unfold IntOp.muli IntOp.andi
  rw [BitVec.toNat_mul, e]
  have h2 : x.toNat % 2 < 2 := Nat.mod_lt _ (by decide)
  show x.toNat % 2 * 64 % 2 ^ 32 = 64 * (x.toNat % 2)
  omega

/-- The paired table at a label's half and start is the table at the label. -/
theorem table_half (tab : S1000000x64.Idx → F .f32) (x : BitVec 32) (hx : x.toNat ≤ 999999) (c : Fin 64)
    (hK : (IntOp.shrui .host x 1#32).toNat < 500000) :
    shapeCast S500000x128 tab shapeCasts_S1000000x64_S500000x128
      (ix2 (⟨(IntOp.shrui .host x 1#32).toNat, hK⟩ : Fin 500000)
        (⟨((IntOp.muli (IntOp.andi x 1#32) 64#32).toNat + c.val) % 128, Nat.mod_lt _ (by decide)⟩ : Fin 128))
    = tab (ix2 (Cert.Spec.row x) c) := by
  apply shapeCast_apply
  rw [Shape.rowMajor_val_two, Shape.rowMajor_val_two]
  have h1 := half_toNat x
  have h2 := bit64_toNat x
  have h3 := Cert.Spec.row_val hx
  have hc := c.isLt
  show (Cert.Spec.row x).val * 64 + c.val
    = (IntOp.shrui .host x 1#32).toNat * 128 + ((IntOp.muli (IntOp.andi x 1#32) 64#32).toNat + c.val) % 128
  rw [h1, h2, h3]
  omega

omit [FloatOps F] in
theorem ix2_fst {n0 n1 : Nat} (a : Fin n0) (b : Fin n1) : ((ix2 a b) 0 : Fin n0) = a := rfl
omit [FloatOps F] in
theorem ix2_snd {n0 n1 : Nat} (a : Fin n0) (b : Fin n1) : ((ix2 a b) 1 : Fin n1) = b := rfl

/-- After all 256 trips of a multiply loop over chunk `r`, the batch chunk is the specification's values at the
    subcore's rows, provided the three scratch contents are what was fetched: the start words and the batch chunk the
    arrays at the subcore's rows, the paired rows the paired table at the rows the halved labels name. -/
theorem chunk_eq (hlab : LabOKm m) (r : Fin 2) (cOff : S512.Idx → BitVec 32) (cRows : S256x128.Idx → F .f32) (cLat : S256x64.Idx → F .f32)
    (hOff : ∀ q : Fin 512, cOff (ix1 q) = vOff m d (ix1 (gWord L q)))
    (hLat : ∀ (a : Fin 256) (c : Fin 64), cLat (ix2 a c) = m (latLoc d) (ix2 (gRow L r a) c))
    (hRows : ∀ (a : Fin 256) (X : Fin 128), cRows (ix2 a X)
      = vT2 m d (ix2 (⟨(vK m d (ix1 (gRow L r a))).toNat, vK_lt m hlab d _⟩ : Fin 500000) X))
    (a : Fin 256) (c : Fin 64) :
    latAfter r.val cOff cRows cLat 256 (ix2 a c) = vOut m d (ix2 (gRow L r a) c) := by
  have hq : (256 * r.val + a.val) % 512 = 256 * r.val + a.val := Nat.mod_eq_of_lt (by have := r.isLt; have := a.isLt; omega)
  have hri : rowsIdx r.val cOff (ix2 a c)
      = ix2 a (⟨((cOff (ix1 (⟨256 * r.val + a.val, by have := r.isLt; have := a.isLt; omega⟩ : Fin 512))).toNat + c.val) % 128,
          Nat.mod_lt _ (by decide)⟩ : Fin 128) := by
    unfold rowsIdx
    funext b
    match b with
    | ⟨0, _⟩ => rfl
    | ⟨1, _⟩ =>
      apply Fin.ext
      show ((cOff (ix1 (⟨(256 * r.val + a.val) % 512, _⟩ : Fin 512))).toNat + c.val) % 128
        = ((cOff (ix1 (⟨256 * r.val + a.val, _⟩ : Fin 512))).toNat + c.val) % 128
      simp only [hq]
  unfold latAfter
  rw [if_pos (show ((ix2 a c) 0).val < 256 from a.isLt), hri, hLat, hRows, hOff]
  have hg : gWord L (⟨256 * r.val + a.val, by have := r.isLt; have := a.isLt; omega⟩ : Fin 512) = gRow L r a := by
    apply Fin.ext; show 512 * (wL L).val + (256 * r.val + a.val) = 512 * (wL L).val + 256 * r.val + a.val; omega
  rw [hg]
  exact congrArg (FloatOps.mulf (m (latLoc d) (ix2 (gRow L r a) c)))
    (table_half (m (tabLoc d)) (m (labLoc d) (ix1 (gRow L r a))) (hlab d _) c (vK_lt m hlab d _))

/-! ## Where the subcore's slices sit -/

/-- The subcore's 512 start words, its two chunks of the batch, all of the paired table, and the two halves of its
    fetched halved labels, as the program slices them. -/
abbrev offSliceK (L : grid0.Coords) : Memref sig .scVector .hbm S512 .i32 :=
  (offV).slice (Rect.unit (s := S16384) (k0_off2 L) S512.size (k0_off2_inb L)) (fun _ => rfl)
abbrev latCh0 (L : grid0.Coords) : Memref sig .scVector .hbm S256x64 .f32 :=
  (latV).slice (Rect.unit (s := S16384x64) (k0_off3 L 0#32) S256x64.size (k0_off3_inb L 0)) (fun _ => rfl)
abbrev latCh1 (L : grid0.Coords) : Memref sig .scVector .hbm S256x64 .f32 :=
  (latV).slice (Rect.unit (s := S16384x64) (k0_off3 L 256#32) S256x64.size (k0_off3_inb L 1)) (fun _ => rfl)
abbrev t2All : Memref sig .scVector .hbm S500000x128 .f32 :=
  (t2V).slice (Rect.unit (s := S500000x128) ![0, 0] S500000x128.size inb_S500000x128_S500000x128_0_0) (fun _ => rfl)
abbrev kHalf0 : Memref sig .scVector .vmem S256 .i32 :=
  (sK).slice (Rect.unit (s := S512) ![0] S256.size inb_S512_S256_0) (fun _ => rfl)
abbrev kHalf1 : Memref sig .scVector .vmem S256 .i32 :=
  (sK).slice (Rect.unit (s := S512) ![256] S256.size inb_S512_S256_256) (fun _ => rfl)

omit [FloatOps F] in
theorem off2_val : (k0_off2 L) 0 = 512 * (wL L).val := by
  rw [k0_off2_eq]; show 1024 * (L 1).val + 512 * (L 0).val = 512 * (2 * (L 1).val + (L 0).val); omega
omit [FloatOps F] in
theorem emb_offSlice (q : Fin 512) : (offSliceK L).view.emb (ix1 q) = ix1 (gWord L q) := by
  funext a; apply Fin.ext
  match a with
  | ⟨0, _⟩ =>
    show (k0_off2 L) 0 + 1 * q.val = 512 * (wL L).val + q.val
    rw [off2_val]; omega
omit [FloatOps F] in
theorem emb_kSlice (q : Fin 512) : (kSliceK L).view.emb (ix1 q) = ix1 (gWord L q) := by
  funext a; apply Fin.ext
  match a with
  | ⟨0, _⟩ =>
    show (k0_off2 L) 0 + 1 * q.val = 512 * (wL L).val + q.val
    rw [off2_val]; omega
omit [FloatOps F] in
theorem emb_latCh0 (a : Fin 256) (c : Fin 64) : (latCh0 L).view.emb (ix2 a c) = ix2 (gRow L 0 a) c := by
  funext b; apply Fin.ext
  match b with
  | ⟨0, _⟩ =>
    show (k0_off3 L 0#32) 0 + 1 * a.val = 512 * (wL L).val + 256 * 0 + a.val
    rw [off3_0]; show 1024 * (L 1).val + 512 * (L 0).val + 1 * a.val = 512 * (2 * (L 1).val + (L 0).val) + 256 * 0 + a.val; omega
  | ⟨1, _⟩ =>
    show (k0_off3 L 0#32) 1 + 1 * c.val = c.val
    rw [off3_0]; show 0 + 1 * c.val = c.val; omega
omit [FloatOps F] in
theorem emb_latCh1 (a : Fin 256) (c : Fin 64) : (latCh1 L).view.emb (ix2 a c) = ix2 (gRow L 1 a) c := by
  funext b; apply Fin.ext
  match b with
  | ⟨0, _⟩ =>
    show (k0_off3 L 256#32) 0 + 1 * a.val = 512 * (wL L).val + 256 * 1 + a.val
    rw [off3_1]; show 1024 * (L 1).val + 512 * (L 0).val + 256 + 1 * a.val = 512 * (2 * (L 1).val + (L 0).val) + 256 * 1 + a.val; omega
  | ⟨1, _⟩ =>
    show (k0_off3 L 256#32) 1 + 1 * c.val = c.val
    rw [off3_1]; show 0 + 1 * c.val = c.val; omega
omit [FloatOps F] in
theorem emb_outCh0 (a : Fin 256) (c : Fin 64) : (outCh0 L).view.emb (ix2 a c) = ix2 (gRow L 0 a) c := emb_latCh0 L a c
omit [FloatOps F] in
theorem emb_outCh1 (a : Fin 256) (c : Fin 64) : (outCh1 L).view.emb (ix2 a c) = ix2 (gRow L 1 a) c := emb_latCh1 L a c
omit [FloatOps F] in
theorem emb_t2All (y : S500000x128.Idx) : (t2All).view.emb y = y := by
  funext b; apply Fin.ext
  match b with
  | ⟨0, _⟩ => show 0 + 1 * (y 0).val = (y 0).val; omega
  | ⟨1, _⟩ => show 0 + 1 * (y 1).val = (y 1).val; omega
omit [FloatOps F] in
theorem emb_kHalf0 (a : Fin 256) : (kHalf0).view.emb (ix1 a) = ix1 (⟨256 * 0 + a.val, by have := a.isLt; omega⟩ : Fin 512) := by
  funext b; apply Fin.ext
  match b with
  | ⟨0, _⟩ => show 0 + 1 * a.val = 256 * 0 + a.val; omega
omit [FloatOps F] in
theorem emb_kHalf1 (a : Fin 256) : (kHalf1).view.emb (ix1 a) = ix1 (⟨256 * 1 + a.val, by have := a.isLt; omega⟩ : Fin 512) := by
  funext b; apply Fin.ext
  match b with
  | ⟨0, _⟩ => show 256 + 1 * a.val = 256 * 1 + a.val; omega

/-! ## What the scratch buffers hold -/

/-- The start words the subcore fetched (through its row of the shared scratch, whatever that held) are the start
    words of its rows. -/
theorem cOff_eq (fsh : Buf (Elt F) (shLoc d (cV L))) (fOff : Buf (Elt F) ((V d (cV L) (jV L)).loc cc0_scratch1)) (q : Fin 512) :
    View.write (Elt F) (sOff).view fOff (ReadAs.same.apply (View.read (Elt F) (shRowK L).view
        ((shRowK L).view.writes (Elt F) fsh [⟨Rect.whole S512, ReadAs.same.apply (View.read (Elt F) (offSliceK L).view (vOff m d))⟩])))
      Finset.univ (ix1 q) = vOff m d (ix1 (gWord L q)) := by
  rw [View.write_whole_univ]
  have h := View.read_writes_cons_emb (shRowK L).view fsh (Rect.whole S512) (View.read (Elt F) (offSliceK L).view (vOff m d)) [] (ix1 q)
  rw [Rect.emb_whole_apply] at h
  refine h.trans ?_
  rw [show View.read (Elt F) (offSliceK L).view (vOff m d) (ix1 q) = vOff m d ((offSliceK L).view.emb (ix1 q)) from
    (View.read_apply _ _).trans (cast_eq _ _), emb_offSlice]

/-- The batch chunk the subcore fetched is the batch at its rows: the first chunk, -/
theorem cLat0_eq (g : Buf (Elt F) ((V d (cV L) (jV L)).loc cc0_scratch4)) (a : Fin 256) (c : Fin 64) :
    View.write (Elt F) (sLat).view g (ReadAs.same.apply (View.read (Elt F) (latCh0 L).view (m (latLoc d)))) Finset.univ (ix2 a c)
      = m (latLoc d) (ix2 (gRow L 0 a) c) := by
  rw [View.write_whole_univ]
  exact ((View.read_apply _ _).trans (cast_eq _ _)).trans (congrArg _ (emb_latCh0 L a c))
/-- and the second, whatever the scratch held before. -/
theorem cLat1_eq (g : Buf (Elt F) ((V d (cV L) (jV L)).loc cc0_scratch4)) (a : Fin 256) (c : Fin 64) :
    View.write (Elt F) (sLat).view g (ReadAs.same.apply (View.read (Elt F) (latCh1 L).view (m (latLoc d)))) Finset.univ (ix2 a c)
      = m (latLoc d) (ix2 (gRow L 1 a) c) := by
  rw [View.write_whole_univ]
  exact ((View.read_apply _ _).trans (cast_eq _ _)).trans (congrArg _ (emb_latCh1 L a c))

omit [FloatOps F] in
/-- Position `a` of a list of 256 words is its index `a`. -/
theorem rowMajor_symm_256 (z : Fin S256.numel) : S256.rowMajor.symm z = ix1 (⟨z.val, z.isLt⟩ : Fin 256) := by
  rw [Equiv.symm_apply_eq]
  apply Fin.ext
  rw [Shape.rowMajor_val_one]

omit [FloatOps F] in
/-- Word `256 r + a` of the subcore's 512 is row `a` of its chunk `r`. -/
theorem gWord_gRow (r : Fin 2) (a : Fin 256) (h : 256 * r.val + a.val < 512) : gWord L ⟨256 * r.val + a.val, h⟩ = gRow L r a :=
  Fin.ext (by show 512 * (wL L).val + (256 * r.val + a.val) = 512 * (wL L).val + 256 * r.val + a.val; omega)

/-- The halved labels the subcore fetched, read through the first half of its index scratch, are the halved labels of
    the rows of its first chunk; -/
theorem kList0_eq (fK : Buf (Elt F) ((V d (cV L) (jV L)).loc cc0_scratch2)) (a : Fin 256) :
    View.read (Elt F) (kHalf0).view (View.write (Elt F) (sK).view fK (ReadAs.same.apply (View.read (Elt F) (kSliceK L).view (vK m d))) Finset.univ) (ix1 a)
      = vK m d (ix1 (gRow L 0 a)) := by
  rw [View.write_whole_univ]
  refine ((View.read_apply _ _).trans (cast_eq _ _)).trans ?_
  rw [emb_kHalf0]
  refine ((View.read_apply _ _).trans (cast_eq _ _)).trans ?_
  rw [emb_kSlice]
  exact congrArg (fun g => vK m d (ix1 g)) (gWord_gRow L 0 a _)
/-- through the second half, of its second chunk. -/
theorem kList1_eq (fK : Buf (Elt F) ((V d (cV L) (jV L)).loc cc0_scratch2)) (a : Fin 256) :
    View.read (Elt F) (kHalf1).view (View.write (Elt F) (sK).view fK (ReadAs.same.apply (View.read (Elt F) (kSliceK L).view (vK m d))) Finset.univ) (ix1 a)
      = vK m d (ix1 (gRow L 1 a)) := by
  rw [View.write_whole_univ]
  refine ((View.read_apply _ _).trans (cast_eq _ _)).trans ?_
  rw [emb_kHalf1]
  refine ((View.read_apply _ _).trans (cast_eq _ _)).trans ?_
  rw [emb_kSlice]
  exact congrArg (fun g => vK m d (ix1 g)) (gWord_gRow L 1 a _)

/-- The indexed copy's rows: with a list of 256 words that are the halved labels of the subcore's rows of chunk `r`, the
    fetched paired row `a` is the paired table's row at the halved label of row `a`. -/
theorem gather_at (hlab : LabOKm m) (r : Fin 2) (lst : S256.Idx → Elt F .i32)
    (hl : ∀ a : Fin 256, lst (ix1 a) = vK m d (ix1 (gRow L r a)))
    (hn : S256.numel = S256x128.size gathers_S500000x128_S256x128.axis')
    (hin : ∀ x, (lst x).toNat < S500000x128.size gathers_S500000x128_S256x128.axis)
    (a : Fin 256) (X : Fin 128) :
    SparseCore.gatherPayload gathers_S500000x128_S256x128 (View.read (Elt F) (t2All).view (vT2 m d))
      (SparseCore.rows lst hn hin) (ix2 a X)
    = vT2 m d (ix2 (⟨(vK m d (ix1 (gRow L r a))).toNat, vK_lt m hlab d _⟩ : Fin 500000) X) := by
  unfold SparseCore.gatherPayload
  refine ((View.read_apply _ _).trans (cast_eq _ _)).trans ?_
  rw [emb_t2All]
  congr 1
  funext b; apply Fin.ext
  match b with
  | ⟨0, _⟩ =>
    have h0 := Shape.Gathers.idx_axis gathers_S500000x128_S256x128 (SparseCore.rows lst hn hin) (ix2 a X)
    refine (congrArg Fin.val h0).trans ?_
    show (lst (S256.rowMajor.symm (Fin.cast hn.symm ((ix2 a X) gathers_S500000x128_S256x128.axis')))).toNat = _
    rw [rowMajor_symm_256]
    exact congrArg BitVec.toNat (hl a)
  | ⟨1, _⟩ =>
    exact Shape.Gathers.idx_of_ne gathers_S500000x128_S256x128 _ (ix2 a X) ⟨1, by decide⟩ (by decide)

omit [FloatOps F] in
/-- A buffer whose last write covered it whole reads as that write. -/
theorem rows_head (f : Buf (Elt F) ((V d (cV L) (jV L)).loc cc0_scratch3)) (G : S256x128.Idx → F .f32)
    (Lst : List (View.Piece (Elt F) S256x128 .f32)) (y : S256x128.Idx) :
    (sRows).view.writes (Elt F) f (⟨Rect.whole cc0_scratch3.ty.shape, G⟩ :: Lst) y = G y := by
  have h := View.read_writes_cons_emb (sRows).view f (Rect.whole cc0_scratch3.ty.shape) G Lst y
  rw [Rect.emb_whole_apply] at h
  exact h

omit [FloatOps F] in
/-- Chunk 0 of the result, written whole from a scratch that holds `P`, holds on the chunk what `P` holds at the chunk's
    own coordinates. -/
theorem out0_eq (f0 : Buf (Elt F) (outLoc d)) (P : S256x64.Idx → F .f32) (g : S16384x64.Idx → F .f32)
    (h : ∀ (a : Fin 256) (c : Fin 64), P (ix2 a c) = g (ix2 (gRow L 0 a) c)) :
    ∀ i ∈ (outCh0 L).view.set, (outCh0 L).view.writes (Elt F) f0 [⟨Rect.whole S256x64, P⟩] i = g i := by
  intro i hi
  obtain ⟨x, -, rfl⟩ := Finset.mem_map.mp (show i ∈ Finset.univ.map (outCh0 L).view.emb from hi)
  have hw := View.read_writes_cons_emb (outCh0 L).view f0 (Rect.whole S256x64) P [] x
  rw [Rect.emb_whole_apply] at hw
  have hw' : (outCh0 L).view.writes (Elt F) f0 [⟨Rect.whole S256x64, P⟩] ((outCh0 L).view.emb x) = P x :=
    ((cast_eq _ _).symm.trans (View.read_apply _ _).symm).trans hw
  rw [hw']
  obtain ⟨a, c, rfl⟩ : ∃ (a : Fin 256) (c : Fin 64), x = ix2 a c := ⟨x 0, x 1, eq_ix2 x⟩
  rw [emb_outCh0]
  exact h a c

omit [FloatOps F] in
/-- Chunk 1 of the result, written whole from a scratch that holds `P`, holds on the chunk what `P` holds at the chunk's
    own coordinates. -/
theorem out1_eq (f0 : Buf (Elt F) (outLoc d)) (P : S256x64.Idx → F .f32) (g : S16384x64.Idx → F .f32)
    (h : ∀ (a : Fin 256) (c : Fin 64), P (ix2 a c) = g (ix2 (gRow L 1 a) c)) :
    ∀ i ∈ (outCh1 L).view.set, (outCh1 L).view.writes (Elt F) f0 [⟨Rect.whole S256x64, P⟩] i = g i := by
  intro i hi
  obtain ⟨x, -, rfl⟩ := Finset.mem_map.mp (show i ∈ Finset.univ.map (outCh1 L).view.emb from hi)
  have hw := View.read_writes_cons_emb (outCh1 L).view f0 (Rect.whole S256x64) P [] x
  rw [Rect.emb_whole_apply] at hw
  have hw' : (outCh1 L).view.writes (Elt F) f0 [⟨Rect.whole S256x64, P⟩] ((outCh1 L).view.emb x) = P x :=
    ((cast_eq _ _).symm.trans (View.read_apply _ _).symm).trans hw
  rw [hw']
  obtain ⟨a, c, rfl⟩ : ∃ (a : Fin 256) (c : Fin 64), x = ix2 a c := ⟨x 0, x 1, eq_ix2 x⟩
  rw [emb_outCh1]
  exact h a c

end Bridge
end Cert.Proof.KB
end
-- ==== Proof.KB.Tile.lean ====
/-
  One vector subcore's task, run. The subcore fetches its 512 start words (through its row of the shared scratch into its
  scalar scratch) and its 512 halved labels; then, for each of its two chunks of 256 rows: fetches the chunk of the batch
  and, by the indexed copy, the 256 paired rows its halved labels name; multiplies row by row; writes the chunk out. The
  halved labels are rows of the paired table because the labels are rows of the table; the start words are 0 or 64. What
  it leaves in its two chunks of the result is the specification's values.
-/
import proofs.«206680_g87033217286338_cont_sun_m_31_32_alg».proof.Proof.KB.Trips
import proofs.«206680_g87033217286338_cont_sun_m_31_32_alg».proof.Proof.KB.Bridge

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "t2V" => (Memref.whole Cert.Kernel.main_v0_scv : Memref Cert.Kernel.sig Kind.scVector Space.hbm Cert.Kernel.S500000x128 EltTy.f32)
local notation "latV" => (Memref.whole Cert.Kernel.main_arg0_scv : Memref Cert.Kernel.sig Kind.scVector Space.hbm Cert.Kernel.S16384x64 EltTy.f32)
local notation "kV" => (Memref.whole Cert.Kernel.main_v2_scv : Memref Cert.Kernel.sig Kind.scVector Space.hbm Cert.Kernel.S16384 EltTy.i32)
local notation "offV" => (Memref.whole Cert.Kernel.main_v6_scv : Memref Cert.Kernel.sig Kind.scVector Space.hbm Cert.Kernel.S16384 EltTy.i32)
local notation "outV" => (Memref.whole Cert.Kernel.main_v7_scv : Memref Cert.Kernel.sig Kind.scVector Space.hbm Cert.Kernel.S16384x64 EltTy.f32)
local notation "shV" => (Memref.whole Cert.Kernel.cc0_scratch0 : Memref Cert.Kernel.sig Kind.scVector Space.shared Cert.Kernel.S32x512 EltTy.i32)
local notation "sOff" => (Memref.whole Cert.Kernel.cc0_scratch1 : Memref Cert.Kernel.sig Kind.scVector Space.smem Cert.Kernel.S512 EltTy.i32)
local notation "sK" => (Memref.whole Cert.Kernel.cc0_scratch2 : Memref Cert.Kernel.sig Kind.scVector Space.vmem Cert.Kernel.S512 EltTy.i32)
local notation "sRows" => (Memref.whole Cert.Kernel.cc0_scratch3 : Memref Cert.Kernel.sig Kind.scVector Space.vmem Cert.Kernel.S256x128 EltTy.f32)
local notation "sLat" => (Memref.whole Cert.Kernel.cc0_scratch4 : Memref Cert.Kernel.sig Kind.scVector Space.vmem Cert.Kernel.S256x64 EltTy.f32)

variable [FloatOps F]

open Idealize.ShloMosaic.ValueIdx

section Tile
variable (d : Dev nD) (L : grid0.Coords)

/-- Before any trip nothing has been multiplied. -/
theorem latAfter_zero (r : Nat) (cOff : S512.Idx → BitVec 32) (cRows : S256x128.Idx → F .f32) (cLat : S256x64.Idx → F .f32) :
    latAfter r cOff cRows cLat 0 = cLat := by
  funext i; unfold latAfter; rw [if_neg (Nat.not_lt_zero _)]

omit [FloatOps F] in
/-- Each multiply loop makes 256 trips. -/
theorem trips1 : Scf.trips k0_t1_loop.lb k0_t1_loop.ub k0_t1_loop.st = 256 := by decide
omit [FloatOps F] in
theorem trips2 : Scf.trips k0_t2_loop.lb k0_t2_loop.ub k0_t2_loop.st = 256 := by decide

set_option maxHeartbeats 8000000 in
/-- The task on the vector subcore at grid point `L` of device `d`: from its read shares of the four arrays it reads, its
    two chunks of the result, its row of the shared scratch and its own scratch and cells, to the same with the two chunks
    at the specification's values. -/
theorem tile_body (hF : (K (F := F)).Facts) (hlab : LabOKm m) (O : CellTallies nD τ sig (HIx 1)) (W : Waits sig (HIx 1)) (hO : ∀ g, O g none = 0) :
    iprop(levAts (K (F := F)).L (K (F := F)).lev ∗ emp
        ∗ (goRes m d (wL L) ∗ shRes d (cV L) (wL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_mul_body L t2V (Memref.isWhole_whole _) latV (Memref.isWhole_whole _) kV (Memref.isWhole_whole _) offV (Memref.isWhole_whole _)
            outV (Memref.isWhole_whole _) shV (Memref.isWhole_whole _) sOff (Memref.isWhole_whole _) sK (Memref.isWhole_whole _)
            sRows (Memref.isWhole_whole _) sLat (Memref.isWhole_whole _) cc0_scratch5 cc0_scratch6 cc0_scoped0 cc0_scoped1 cc0_scoped2 cc0_scoped3 cc0_scoped4)
          fun _ => iprop((tdRes m d (wL L) ∗ shRes d (cV L) (wL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__emb_mul_body_eq_skeleton]; unfold cc0__emb_mul_body_skel
  rw [(K (F := F)).scopedBufs_V hF d (cV L) (jV L), SparseCore.Cfg.scopedSems0_V (Val := Elt F) d (cV L) (jV L), ownSems0_V, ownBufs_V]
  iintro ⟨#Hlv, -, ⟨⟨⟨Ht2, Hlat, Hk, Hoff⟩, Ho0, Ho1⟩, ⟨%fsh, Hsh⟩⟩, ⟨⟨%fOff, HsOff⟩, ⟨%fK, HsK⟩, ⟨%fRows, HsRows⟩, ⟨%fLat, HsLat⟩, Hbufs⟩,
    ⟨Hg, Hl, H0, H1, H2, H3, H4, Hsems⟩, HO⟩
  ihave Hmw := ((K (F := F)).mayWaits_none (thr := V d (cV L) (jV L)) hO) $$ Hlv
  ihave Ht2' := (Entails.of_eq (pts_t2 (F := F) d L _ _).symm) $$ Ht2
  ihave Hlat' := (Entails.of_eq (pts_lat (F := F) d L _ _).symm) $$ Hlat
  ihave Hk' := (Entails.of_eq (pts_k (F := F) d L _ _).symm) $$ Hk
  ihave Hoff' := (Entails.of_eq (pts_off (F := F) d L _ _).symm) $$ Hoff
  ihave Ho0' := (Entails.of_eq (pts_outCh0 (F := F) d L _).symm) $$ Ho0
  ihave Ho1' := (Entails.of_eq (pts_outCh1 (F := F) d L _).symm) $$ Ho1
  ihave Hsh' := (Entails.of_eq (pts_shRowK (F := F) d L _).symm) $$ Hsh
  ihave HsOff' := (Entails.of_eq (pts_sOff (F := F) d L _).symm) $$ HsOff
  ihave HsK' := (Entails.of_eq (pts_sK (F := F) d L _).symm) $$ HsK
  ihave HsRows' := (Entails.of_eq (pts_sRows (F := F) d L _).symm) $$ HsRows
  ihave HsLat' := (Entails.of_eq (pts_sLat (F := F) d L _).symm) $$ HsLat
  -- the three fetches: the start words through the shared row into the scalar scratch, the halved labels
  sl_exec
  -- the first indexed copy: the halved labels in the first half of the index scratch are rows of the paired table
  have hin0 := k_inb (F := F) m d L hlab fK (tile_body.sl.dma0_2 m d L) rfl ![0] inb_S512_S256_0
  sl_exec
  -- what the scalar scratch now holds, word by word: the start words of the subcore's rows, each 0 or 64
  have hcOff : ∀ q : Fin 512, (View.write (Elt F) (sOff).view fOff (tile_body.sl.dma0_1 m d L fsh) Finset.univ) (ix1 q) = vOff m d (ix1 (gWord L q)) :=
    fun q => cOff_eq (F := F) m d L fsh fOff q
  have hoffw : ∀ j, (View.write (Elt F) (sOff).view fOff (tile_body.sl.dma0_1 m d L fsh) Finset.univ) j = 0#32 ∨ (View.write (Elt F) (sOff).view fOff (tile_body.sl.dma0_1 m d L fsh) Finset.univ) j = 64#32 := by
    intro (j : S512.Idx)
    obtain ⟨q, rfl⟩ : ∃ q : Fin 512, j = ix1 q := ⟨j 0, eq_ix1 j⟩
    rw [hcOff q]
    exact vOff_cases m d _
  -- the first multiply loop
  sl_for (inv1 (F := F) d L (View.write (Elt F) (sOff).view fOff (tile_body.sl.dma0_1 m d L fsh) Finset.univ)
      ((sRows).view.writes (Elt F) (sRows).view.junk [⟨Rect.whole cc0_scratch3.ty.shape, tile_body.sl.gather0 m d L fK hin0⟩])
      (View.write (Elt F) (sLat).view fLat (tile_body.sl.dma0_3 m d L) Finset.univ)) $$ [HsOff' HsRows' HsLat']
  case region =>
    intro k acc
    exact trip1 (F := F) d L _ _ _ hoffw k acc
  · unfold inv1
    rw [latAfter_zero]
    isplitl [HsOff']; · iexact HsOff'
    isplitl [HsRows']; · iexact HsRows'
    iexact HsLat'
  iintro %acc1 HI
  unfold inv1
  icases HI with ⟨HsOff', HsRows', HsLat'⟩
  -- the first chunk out, the second chunk of the batch in
  sl_exec
  have hin1 := k_inb (F := F) m d L hlab fK (tile_body.sl.dma0_2 m d L) rfl ![256] inb_S512_S256_256
  sl_exec
  -- the second multiply loop
  sl_for (inv2 (F := F) d L (View.write (Elt F) (sOff).view fOff (tile_body.sl.dma0_1 m d L fsh) Finset.univ)
      ((sRows).view.writes (Elt F) (sRows).view.junk [⟨Rect.whole cc0_scratch3.ty.shape, tile_body.sl.gather0_1 m d L fK hin1⟩, ⟨Rect.whole cc0_scratch3.ty.shape, tile_body.sl.gather0 m d L fK hin0⟩])
      (View.write (Elt F) (sLat).view (latAfter 0 (View.write (Elt F) (sOff).view fOff (tile_body.sl.dma0_1 m d L fsh) Finset.univ) ((sRows).view.writes (Elt F) (sRows).view.junk [⟨Rect.whole cc0_scratch3.ty.shape, tile_body.sl.gather0 m d L fK hin0⟩]) (View.write (Elt F) (sLat).view fLat (tile_body.sl.dma0_3 m d L) Finset.univ) (Scf.trips k0_t1_loop.lb k0_t1_loop.ub k0_t1_loop.st)) (tile_body.sl.dma0_5 m d L) Finset.univ)) $$ [HsOff' HsRows' HsLat']
  case region =>
    intro k acc
    exact trip2 (F := F) d L _ _ _ hoffw k acc
  · unfold inv2
    rw [latAfter_zero]
    isplitl [HsOff']; · iexact HsOff'
    isplitl [HsRows']; · iexact HsRows'
    iexact HsLat'
  iintro %acc2 HI
  unfold inv2
  icases HI with ⟨HsOff', HsRows', HsLat'⟩
  -- the second chunk out, and the return
  sl_exec
  sl_step
  -- what the two chunks hold is the specification
  have bridge0 : ∀ i ∈ (outCh0 L).view.set,
      ((outCh0 L).view.writes (Elt F) (outCh0 L).view.junk [⟨Rect.whole S256x64, tile_body.sl.dma0_4 m d L fsh fOff fK fLat hin0⟩]) i = vOut m d i :=
    out0_eq (F := F) d L _ _ (vOut m d) (fun a c => by
      show latAfter 0 (View.write (Elt F) (sOff).view fOff (tile_body.sl.dma0_1 m d L fsh) Finset.univ) ((sRows).view.writes (Elt F) (sRows).view.junk [⟨Rect.whole cc0_scratch3.ty.shape, tile_body.sl.gather0 m d L fK hin0⟩]) (View.write (Elt F) (sLat).view fLat (tile_body.sl.dma0_3 m d L) Finset.univ) (Scf.trips k0_t1_loop.lb k0_t1_loop.ub k0_t1_loop.st) (ix2 a c) = _
      rw [trips1]
      exact chunk_eq (F := F) m d L hlab 0 _ _ _ hcOff (fun a c => cLat0_eq (F := F) m d L fLat a c)
        (fun a X => (rows_head (F := F) d L _ _ [] (ix2 a X)).trans
          (gather_at (F := F) m d L hlab 0 _ (fun a => kList0_eq (F := F) m d L fK a) _ _ a X)) a c)
  have bridge1 : ∀ i ∈ (outCh1 L).view.set,
      ((outCh1 L).view.writes (Elt F) (m (outLoc d)) [⟨Rect.whole S256x64, tile_body.sl.dma0_6 m d L fsh fOff fK fLat hin0 hin1⟩]) i = vOut m d i :=
    out1_eq (F := F) d L _ _ (vOut m d) (fun a c => by
      show latAfter 1 (View.write (Elt F) (sOff).view fOff (tile_body.sl.dma0_1 m d L fsh) Finset.univ) ((sRows).view.writes (Elt F) (sRows).view.junk [⟨Rect.whole cc0_scratch3.ty.shape, tile_body.sl.gather0_1 m d L fK hin1⟩, ⟨Rect.whole cc0_scratch3.ty.shape, tile_body.sl.gather0 m d L fK hin0⟩]) (View.write (Elt F) (sLat).view (latAfter 0 (View.write (Elt F) (sOff).view fOff (tile_body.sl.dma0_1 m d L fsh) Finset.univ) ((sRows).view.writes (Elt F) (sRows).view.junk [⟨Rect.whole cc0_scratch3.ty.shape, tile_body.sl.gather0 m d L fK hin0⟩]) (View.write (Elt F) (sLat).view fLat (tile_body.sl.dma0_3 m d L) Finset.univ) (Scf.trips k0_t1_loop.lb k0_t1_loop.ub k0_t1_loop.st)) (tile_body.sl.dma0_5 m d L) Finset.univ) (Scf.trips k0_t2_loop.lb k0_t2_loop.ub k0_t2_loop.st) (ix2 a c) = _
      rw [trips2]
      exact chunk_eq (F := F) m d L hlab 1 _ _ _ hcOff (fun a c => cLat1_eq (F := F) m d L _ a c)
        (fun a X => (rows_head (F := F) d L _ _ _ (ix2 a X)).trans
          (gather_at (F := F) m d L hlab 1 _ (fun a => kList1_eq (F := F) m d L fK a) _ _ a X)) a c)
  isplitl [Ht2' Hlat' Hk' Hoff' Ho0' Ho1' Hsh']
  · isplitl [Ht2' Hlat' Hk' Hoff' Ho0' Ho1']
    · isplitl [Ht2' Hlat' Hk' Hoff']
      · isplitl [Ht2']; · iapply (Entails.of_eq (pts_t2 (F := F) d L _ _)); iexact Ht2'
        isplitl [Hlat']; · iapply (Entails.of_eq (pts_lat (F := F) d L _ _)); iexact Hlat'
        isplitl [Hk']; · iapply (Entails.of_eq (pts_k (F := F) d L _ _)); iexact Hk'
        iapply (Entails.of_eq (pts_off (F := F) d L _ _)); iexact Hoff'
      · isplitl [Ho0']
        · iapply (Entails.of_eq ((pointsTo_congr bridge0).trans (pts_outCh0 (F := F) d L (vOut m d)))); iexact Ho0'
        · iapply (Entails.of_eq ((pointsTo_congr bridge1).trans (pts_outCh1 (F := F) d L (vOut m d)))); iexact Ho1'
    · iexists _; iapply (Entails.of_eq (pts_shRowK (F := F) d L _)); iexact Hsh'
  isplitl [HsOff' HsK' HsRows' HsLat' Hbufs]
  · isplitl [HsOff']; · iexists _; iapply (Entails.of_eq (pts_sOff (F := F) d L _)); iexact HsOff'
    isplitl [HsK']; · iexists _; iapply (Entails.of_eq (pts_sK (F := F) d L _)); iexact HsK'
    isplitl [HsRows']; · iexists _; iapply (Entails.of_eq (pts_sRows (F := F) d L _)); iexact HsRows'
    isplitl [HsLat']; · iexists _; iapply (Entails.of_eq (pts_sLat (F := F) d L _)); iexact HsLat'
    iexact Hbufs
  isplitl [Hg Hl H0 H1 H2 H3 H4 Hsems]
  · isplitl [Hg]; · iexact Hg
    isplitl [Hl]; · iexact Hl
    isplitl [H0]; · iexact H0
    isplitl [H1]; · iexact H1
    isplitl [H2]; · iexact H2
    isplitl [H3]; · iexact H3
    isplitl [H4]; · iexact H4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The launch theorem's obligation -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_mul_body (coordsV c s) t2V (Memref.isWhole_whole _) latV (Memref.isWhole_whole _) kV (Memref.isWhole_whole _) offV (Memref.isWhole_whole _)
            outV (Memref.isWhole_whole _) shV (Memref.isWhole_whole _) sOff (Memref.isWhole_whole _) sK (Memref.isWhole_whole _)
            sRows (Memref.isWhole_whole _) sLat (Memref.isWhole_whole _) cc0_scratch5 cc0_scratch6 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
/-- Every task of the one call: the subcore's task at its grid point. -/
theorem tileObl (hF : (K (F := F)).Facts) (hlab : LabOKm m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hlab O W hO).trans (wp_mono frame _ _ fun _ => obl_post)

end Cert.Proof.KB
end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.LibGatherAt.lean ====
/-
  A gather along the leading axis read at an index. With one start index per result row (a column of start indices),
  the result's row e is the operand's row at the start index of e, read as a signed integer and clamped onto the axis:
  for a matrix operand every column j of that row, for a vector operand its one entry.
-/
import Idealize.ShloMosaic.Lib.ValueIdx

namespace Cert.GatherAt

open Idealize.ShloMosaic Idealize.ShloMosaic.ValueIdx

variable {α : Type}

/-- Rows of an [N, C] operand at an [E, 1] column of start indices: result [E, C]. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of an [N] operand at an [E, 1] column of start indices: result [E]. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row gather at (e, j): the operand at (the start index of e, clamped; j). -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N C E wf) x idx (ix2 e j)
      = x (ix2 ⟨min (idx (ix2 e ⟨0, Nat.one_pos⟩)).toInt.toNat (N - 1), by omega⟩ j) := by
  unfold Host.gather
  refine congrArg x (funext fun a => Fin.ext ?_)
  show (rowDims N C E wf).start (ix2 e j) idx a + (rowDims N C E wf).batchCoord (ix2 e j) a
    + (rowDims N C E wf).offCoord (ix2 e j) a = _
  rw [GatherDims.batchCoord_eq_zero _ _ _ List.not_mem_nil]
  have h0 : (rowDims N C E wf).start (ix2 e j) idx (0 : Fin 2) + 0 + (rowDims N C E wf).offCoord (ix2 e j) (0 : Fin 2)
      = min (idx (ix2 e ⟨0, Nat.one_pos⟩)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e j) ⟨List.idxOf (0 : Fin 2) (rowDims N C E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : (rowDims N C E wf).start (ix2 e j) idx (1 : Fin 2) + 0 + (rowDims N C E wf).offCoord (ix2 e j) (1 : Fin 2)
      = j.val := by
    have hs : (rowDims N C E wf).start (ix2 e j) idx (1 : Fin 2) = 0 := by
      unfold GatherDims.start
      rw [dif_neg (fun h => Nat.one_ne_zero (congrArg Fin.val (List.mem_singleton.mp h)))]
    have hk : (1 : Fin 2) ∈ (rowDims N C E wf).sKept :=
      (GatherDims.mem_sKept _ _).mpr ⟨fun h => Nat.one_ne_zero (congrArg Fin.val (List.mem_singleton.mp h)), List.not_mem_nil⟩
    have ho : (rowDims N C E wf).offCoord (ix2 e j) (1 : Fin 2) = j.val := by
      unfold GatherDims.offCoord
      rw [dif_pos hk]
      rfl
    rw [hs, ho]
    omega
  match a with
  | ⟨0, _⟩ => exact h0
  | ⟨1, _⟩ => exact h1

/-- The vector gather at e: the operand at the start index of e, clamped. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 ⟨min (idx (ix2 e ⟨0, Nat.one_pos⟩)).toInt.toNat (N - 1), by omega⟩) := by
  unfold Host.gather
  refine congrArg x (funext fun a => Fin.ext ?_)
  obtain rfl : a = 0 := Subsingleton.elim _ _
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end Cert.GatherAt
-- ==== Proof.LibReduceAnd.lean ====
/-
  A reduction by `and` over one-bit words whose operand is 1 everywhere, started from 1, is 1 at every result index.
-/
import Idealize.ShloMosaic.Lib.ReduceAll

namespace Cert.MaskFacts

open Idealize.ShloMosaic

/-- A left fold by `and` from 1 over a list of ones is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

variable {s t u : Shape} {axes : List (Fin s.rank)}

/-- The reduction by `and` of an operand that is 1 everywhere, from 1, is 1. -/
theorem reduce_andi_one (x : s.Idx → BitVec 1) (init : u.Idx → BitVec 1) (h : s.ReducesTo axes t) (hu : 0 < u.numel)
    (j : t.Idx) (hinit : init (Shape.Idx.first hu) = 1#1) (hx : ∀ i, x i = 1#1) :
    Host.reduce IntOp.andi x init h hu j = 1#1 := by
  rw [Host.reduce_eq_foldl, hinit]
  exact foldl_andi_one x _ fun n _ => hx n

end Cert.MaskFacts
-- ==== Proof.RefRun.lean ====
/-
  The reference program's run, and its result as the specification.

  The program is a straight line of 24 host operations once its two calls are unfolded: a table lookup in fill mode
  (labels below 0 have 1000000 added; the labels become a column of start indices; a mask says, per row, whether the
  start index is at least 0 and at most 999999; the table's rows are gathered at the start indices, clamped onto the
  table; rows whose mask is clear are replaced by a filler), then the batch times the looked-up rows. Every weakly fair
  execution runs the line to its end, each buffer ending at the fold of the operations' results over the launch
  contents; at the result buffer that fold is a closed form of the three arguments (`out`).

  On labels that are row numbers of the table (as unsigned words at most 999999, so that the signed reading is the same
  number) the wrap does nothing, every start index is in range, so the mask is set everywhere and the filler is never
  chosen, and the clamp does nothing: entry (b, d) of the result is the batch's entry (b, d) times the table's entry in
  the row of b's label, which is `Cert.Spec.G`.
-/
import proofs.«206680_g87033217286338_cont_sun_m_31_32_alg».proof.ReferenceIdeal
import proofs.«206680_g87033217286338_cont_sun_m_31_32_alg».proof.Proof.Gen.ReferenceIdeal
import proofs.«206680_g87033217286338_cont_sun_m_31_32_alg».proof.Proof.Spec
import proofs.«206680_g87033217286338_cont_sun_m_31_32_alg».proof.Proof.LibTypedRefs
import proofs.«206680_g87033217286338_cont_sun_m_31_32_alg».proof.Proof.LibGatherAt
import proofs.«206680_g87033217286338_cont_sun_m_31_32_alg».proof.Proof.LibReduceAnd
import Idealize.ShloMosaic.Lib.StableHlo.Run
import Idealize.ShloMosaic.Lib.ValueIdx
import Idealize.ShloMosaic.PureOps.Ideal

noncomputable section

namespace Cert.RefSide

open Idealize.ShloMosaic Idealize.ShloMosaic.TcCoe Idealize.SL.Sem Idealize.ShloMosaic.StableHlo Idealize.ShloMosaic.ValueIdx
open Cert.ReferenceIdeal Cert.ReferenceIdeal.Facts₀

section

variable {F : FTy → Type} [FloatOps F] [Cert.ReferenceIdeal.Facts]

/-- The program's 24 operations in order, the two calls unfolded: the lookup's twenty-two into the call's buffers (its
    select between the wrapped and the plain labels the seventh), then the product. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    binary main_arg0 main_v0 main_v1 (mulf : (⟨S16384x64, .f32⟩ : BufTy).Contents (Elt F) → (⟨S16384x64, .f32⟩ : BufTy).Contents (Elt F) → (⟨S16384x64, .f32⟩ : BufTy).Contents (Elt F)) ]

set_option maxRecDepth 1024 in
/-- The program is that straight line: the two functions unfolded at their calls and sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..⟩

/-- From any memory with zero counters every weakly fair execution of the program terminates, each buffer ending at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold in closed form -/

/-- The labels after the wrap: a label below 0 has 1000000 added. -/
def wrapped (a1 : IVec S16384 32) : IVec S16384 32 :=
  select (cmpi .slt a1 (broadcastInDim S16384 ![] bcast_S_S16384 (constantI S_ 32 0#32)))
    (addi a1 (broadcastInDim S16384 ![] bcast_S_S16384 (constantI S_ 32 1000000#32))) a1

/-- The column of start indices: the wrapped labels, one per row. -/
def col (a1 : IVec S16384 32) : IVec S16384x1 32 :=
  broadcastInDim S16384x1 ![0] bcast_S16384_S16384x1_0 (wrapped a1)

/-- The range mask: per row, whether its start index is at least 0 and at most 999999. -/
def mask (a1 : IVec S16384 32) : IVec S16384 1 :=
  Host.reduce IntOp.andi
    (andi (cmpi .sge (col a1) (broadcastInDim S16384x1 ![] bcast_S_S16384x1 (constantI S_ 32 0#32)))
      (cmpi .sle (col a1) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The result: the batch times the gathered rows where the mask is set, times the filler elsewhere. -/
def out (a0 : FVec F S16384x64 .f32) (a1 : IVec S16384 32) (a2 : FVec F S1000000x64 .f32) : FVec F S16384x64 .f32 :=
  mulf a0 (select (broadcastInDim S16384x64 ![0] bcast_S16384_S16384x64_0 (mask a1))
    (Host.gather gather_S1000000x64_S16384x1_S16384x64_1_0_n_n_0_1_164 a2 (col a1))
    (broadcastInDim S16384x64 ![] bcast_S_S16384x64 (constant S_ .f32 0x7FC00000#32)))

attribute [local irreducible] Host.reduce Host.gather in
set_option maxRecDepth 8192 in
/-- The fold at the result buffer is `out` of the three arguments' contents: each operation's result decides whether the
    buffer read is the one it writes, and the typed references' transports are the identity at literal references. -/
theorem out_eq (V : Valuation τ sig (Elt F)) :
    after ops V (main_v1 : DevRef τ sig)
      = out (V (main_arg0 : DevRef τ sig)) (V (main_arg1 : DevRef τ sig)) (V (main_arg2 : DevRef τ sig)) := by
  after_results
  repeat rw [TRef.ofBuf_self]
  repeat rw [TRef.toBuf_self]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-! ## The closed form on labels that are row numbers -/

/-- A word at most 999999 reads the same signed and unsigned. -/
theorem toInt_of_le {w : BitVec 32} (h : w.toNat ≤ 999999) : w.toInt = (w.toNat : Int) :=
  BitVec.toInt_eq_toNat_of_lt (by omega)

/-- On a label that is a row number the wrap does nothing: the label is not below 0. -/
theorem wrapped_eq {a1 : IVec S16384 32} (h : Cert.Spec.LabOK a1) (j : S16384.Idx) : wrapped a1 j = a1 j := by
  have hc : IntOp.cmpi .slt (a1 j) 0#32 = 0#1 := by
    refine eq_zero_of_ne_one fun hlt => ?_
    rw [IntOp.cmpi_slt, toInt_of_le (h j), show (0#32 : BitVec 32).toInt = 0 from by decide] at hlt
    omega
  show Scalar.select (IntOp.cmpi .slt (a1 j) 0#32) (IntOp.addi (a1 j) 1000000#32) (a1 j) = a1 j
  rw [hc, select_zero]

/-- The column's entry in row e is the wrapped label of e. -/
theorem col_apply (a1 : IVec S16384 32) (k : S16384x1.Idx) : col a1 k = wrapped a1 (ix1 (k 0)) := by
  show wrapped a1 _ = wrapped a1 _
  refine congrArg (wrapped a1) (funext fun a => ?_)
  match a with
  | ⟨0, _⟩ => rfl

/-- On labels that are row numbers every start index is in range: the mask is set in every row. -/
theorem mask_eq {a1 : IVec S16384 32} (h : Cert.Spec.LabOK a1) (j : S16384.Idx) : mask a1 j = 1#1 := by
  unfold mask
  refine Cert.MaskFacts.reduce_andi_one _ _ _ _ j rfl fun k => ?_
  show IntOp.andi (IntOp.cmpi .sge (col a1 k) 0#32) (IntOp.cmpi .sle (col a1 k) 999999#32) = 1#1
  have hk := h (ix1 (k 0))
  rw [col_apply, wrapped_eq h, IntOp.andi_eq_one, IntOp.cmpi_sge, IntOp.cmpi_sle, toInt_of_le hk,
    show (0#32 : BitVec 32).toInt = 0 from by decide, show (999999#32 : BitVec 32).toInt = 999999 from by decide]
  omega

/-- On labels that are row numbers the gathered row of e is the table's row at e's label. -/
theorem gathered_apply {a1 : IVec S16384 32} (h : Cert.Spec.LabOK a1) (a2 : FVec F S1000000x64 .f32) (e : Fin 16384) (d : Fin 64) :
    Host.gather gather_S1000000x64_S16384x1_S16384x64_1_0_n_n_0_1_164 a2 (col a1) (ix2 e d)
      = a2 (ix2 (Cert.Spec.row (a1 (ix1 e))) d) := by
  have he := h (ix1 e)
  show Host.gather (Cert.GatherAt.rowDims 1000000 64 16384 gather_S1000000x64_S16384x1_S16384x64_1_0_n_n_0_1_164_wf) a2 (col a1) (ix2 e d) = _
  rw [Cert.GatherAt.gather_rows_apply (by decide)]
  refine congrArg (fun r => a2 (ix2 r d)) (Fin.ext ?_)
  show min (col a1 (ix2 e ⟨0, Nat.one_pos⟩)).toInt.toNat (1000000 - 1) = (Cert.Spec.row (a1 (ix1 e))).val
  rw [col_apply, wrapped_eq h, Cert.Spec.row_val he]
  show min (a1 (ix1 e)).toInt.toNat (1000000 - 1) = (a1 (ix1 e)).toNat
  rw [toInt_of_le he]
  omega

/-- On labels that are row numbers the closed form is the specification: entry (b, d) is the batch's entry times the
    table's entry in the row of b's label. -/
theorem out_eq_G (a0 : FVec F S16384x64 .f32) {a1 : IVec S16384 32} (a2 : FVec F S1000000x64 .f32) (h : Cert.Spec.LabOK a1) :
    out a0 a1 a2 = Cert.Spec.G a0 a1 a2 := by
  funext i
  obtain ⟨e, d, rfl⟩ : ∃ e d, i = ix2 e d := ⟨i 0, i 1, eq_ix2 i⟩
  have hm : broadcastInDim S16384x64 ![0] bcast_S16384_S16384x64_0 (mask a1) (ix2 e d) = 1#1 := mask_eq h _
  show FloatOps.mulf (a0 (ix2 e d)) (Scalar.select (broadcastInDim S16384x64 ![0] bcast_S16384_S16384x64_0 (mask a1) (ix2 e d))
      (Host.gather gather_S1000000x64_S16384x1_S16384x64_1_0_n_n_0_1_164 a2 (col a1) (ix2 e d)) _) = _
  rw [hm, select_one, gathered_apply h]
  rfl

end

/-! ## The run -/

/-- From any memory whose labels are row numbers, with zero counters: every weakly fair execution of the program
    terminates with the result buffer at the specification of the three arguments' launch contents and the arguments
    unchanged. -/
theorem run [Cert.ReferenceIdeal.Facts]
    (m : (ℓ : Loc nD τ sig) → Buf (Elt Ideal) ℓ) (ρ : Dev nD → PrngReg)
    (hlab : ∀ c : Dev nD, Cert.Spec.LabOK (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v1)
        = Cert.Spec.G (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ hr c =>
      ⟨(hr c main_v1).trans ((out_eq (launchContents m c)).trans (out_eq_G _ _ (hlab c))),
        (hr c main_arg0).trans (arg0_eq (launchContents m c)),
        (hr c main_arg1).trans (arg1_eq (launchContents m c)),
        (hr c main_arg2).trans (arg2_eq (launchContents m c))⟩)
    (run_main (F := Ideal) m ρ)

end Cert.RefSide

end
-- ==== Proof.PreLab.lean ====
/-
  The precondition, read back for the labels.

  The printed precondition is the conjunction of three "all" reductions; the third says of every label that it is at
  least 0 and at most 999999, both read signed. A 32-bit word whose signed reading lies in that range has its top bit
  clear, so its unsigned reading is the same number: every label is a row number of the table.
-/
import proofs.«206680_g87033217286338_cont_sun_m_31_32_alg».proof.Pre_input_domain
import proofs.«206680_g87033217286338_cont_sun_m_31_32_alg».proof.Proof.Gen.Pre_input_domain
import proofs.«206680_g87033217286338_cont_sun_m_31_32_alg».proof.Proof.Spec
import Idealize.ShloMosaic.Lib.ReduceAll

namespace Cert.PreLab

open Idealize.ShloMosaic Idealize.ShloMosaic.ValueIdx

/-- The scalar shape has one index. -/
instance : Subsingleton Cert.Pre_input_domain.S_.Idx := ⟨fun _ _ => funext fun d => d.elim0⟩

/-- A word between 0 and 999999 in the signed reading is at most 999999 in the unsigned one. -/
theorem toNat_le_of_signed {w : BitVec 32} (h0 : (0#32 : BitVec 32).toInt ≤ w.toInt)
    (h1 : w.toInt ≤ (999999#32 : BitVec 32).toInt) : w.toNat ≤ 999999 := by
  have e0 : (0#32 : BitVec 32).toInt = 0 := by decide
  have e1 : (999999#32 : BitVec 32).toInt = 999999 := by decide
  rw [e0] at h0
  rw [e1] at h1
  have hw := w.isLt
  rw [BitVec.toInt_eq_toNat_cond] at h0 h1
  split at h0 <;> omega

/-- Where the precondition holds, every label is a row number of the table. -/
theorem lab_of_pre [Cert.Pre_input_domain.Facts] {F : FTy → Type} [FloatOps F]
    (a0 : FVec F Cert.Pre_input_domain.S16384x64 .f32) (a1 : IVec Cert.Pre_input_domain.S16384 32) (a2 : FVec F Cert.Pre_input_domain.S1000000x64 .f32)
    (h : Cert.Pre_input_domain.fn (F := F) a0 a1 a2 = fun _ => 1#1) : Cert.Spec.LabOK a1 := by
  intro j
  have h0 := congrFun h ValueIdx.ix0
  dsimp only [Cert.Pre_input_domain.fn] at h0
  have h14 := (IntOp.andi_eq_one.1 h0).2
  have hj := Host.reduce_andi_all _ _ _ _ _ h14 j
  obtain ⟨hge, hle⟩ := IntOp.andi_eq_one.1 hj
  exact toNat_le_of_signed (IntOp.cmpi_sge.1 hge) (IntOp.cmpi_sle.1 hle)

end Cert.PreLab
-- ==== Proof.lean ====
/-
  The claim. Both programs compute, at every entry (b, d), the batch's entry times the table's entry in the row that b's
  label names (`Cert.Spec.G`), for labels that are rows of the table — which is what the precondition says of the labels.

  The kernel: @main pairs the table's rows, halves the labels and keeps 64 times their last bits; thirty-two vector
  subcores each fetch 512 rows' worth of those and of the batch, fetch the paired rows the halved labels name, multiply
  each row of the batch by the half of its paired row that is the label's own row, and write their chunks of the result.
  Every weakly fair execution of the thread family ends, without a fault, the arguments unchanged and the result at the
  specification's values; read at the word-level instance and at the ideal one this gives the two frames, and at the ideal
  one the kernel's half of the value claim. The reference: a lookup in fill mode, then the product; on labels that are
  rows of the table its result is the same specification. No operation was rewritten by the ideal pass, so there is
  nothing to preserve.
-/
import proofs.«206680_g87033217286338_cont_sun_m_31_32_alg».proof.Defs
import proofs.«206680_g87033217286338_cont_sun_m_31_32_alg».proof.Proof.Gen.Kernel
import proofs.«206680_g87033217286338_cont_sun_m_31_32_alg».proof.Proof.Gen.Kernel.Skeleton
import proofs.«206680_g87033217286338_cont_sun_m_31_32_alg».proof.Proof.Gen.KernelIdeal
import proofs.«206680_g87033217286338_cont_sun_m_31_32_alg».proof.Proof.Gen.KernelIdeal.Skeleton
import proofs.«206680_g87033217286338_cont_sun_m_31_32_alg».proof.Proof.Gen.ReferenceIdeal
import proofs.«206680_g87033217286338_cont_sun_m_31_32_alg».proof.Proof.Gen.Pre_input_domain
import proofs.«206680_g87033217286338_cont_sun_m_31_32_alg».proof.Proof.KI.Launch
import proofs.«206680_g87033217286338_cont_sun_m_31_32_alg».proof.Proof.KI.Tile
import proofs.«206680_g87033217286338_cont_sun_m_31_32_alg».proof.Proof.KB.Launch
import proofs.«206680_g87033217286338_cont_sun_m_31_32_alg».proof.Proof.KB.Tile
import proofs.«206680_g87033217286338_cont_sun_m_31_32_alg».proof.Proof.RefRun
import proofs.«206680_g87033217286338_cont_sun_m_31_32_alg».proof.Proof.PreLab
import Idealize.ShloMosaic.Adequacy
import Idealize.ShloMosaic.Init

noncomputable section

namespace Cert.Proof

open Idealize.ShloMosaic Idealize.SL.Sem

/-- Under the precondition the labels are rows of the table: for the idealized kernel's memory, -/
theorem labs_KI (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.Proof.KI.LabOKm m :=
  fun d => Cert.PreLab.lab_of_pre _ _ _ (h d)
/-- for the word-level kernel's, -/
theorem labs_KB (m : (ℓ : Loc Cert.Kernel.nD Cert.Kernel.τ Cert.Kernel.sig) → Buf (Elt Bits) ℓ)
    (h : Cert.Pre_Kernel (hPre_input_domain := Cert.Pre_input_domain.Gen.facts) m) : Cert.Proof.KB.LabOKm m :=
  fun d => Cert.PreLab.lab_of_pre _ _ _ (h d)
/-- and for the reference's. -/
theorem labs_R (m : (ℓ : Loc Cert.ReferenceIdeal.nD Cert.ReferenceIdeal.τ Cert.ReferenceIdeal.sig) → Buf (Elt Ideal) ℓ)
    (h : Cert.Pre_ReferenceIdeal (hPre_input_domain := Cert.Pre_input_domain.Gen.facts) m) :
    ∀ c : Dev Cert.ReferenceIdeal.nD, Cert.Spec.LabOK (m ((c.tc : Thread Cert.ReferenceIdeal.nD Cert.ReferenceIdeal.τ).loc Cert.ReferenceIdeal.main_arg1)) :=
  fun d => Cert.PreLab.lab_of_pre _ _ _ (h d)

theorem claim : Cert.Claim := ⟨Cert.Kernel.Gen.facts, Cert.KernelIdeal.Gen.facts, Cert.ReferenceIdeal.Gen.facts, Cert.Pre_input_domain.Gen.facts, by
  refine ⟨?frameK, ?frameKI, ?frameR, trivial, ?alg⟩
  case frameK =>
    intro m ρ hpre
    exact (θ_run Cert.Kernel.defs _ _).mono (fun _ h c => (h c).2)
      (Cert.Proof.KB.run_main (F := Bits) m ρ (Cert.Proof.KB.tileObl (F := Bits) m Cert.Proof.KB.facts (labs_KB m hpre)))
  case frameKI =>
    intro m ρ hpre
    exact (θ_run Cert.KernelIdeal.defs _ _).mono (fun _ h c => (h c).2)
      (Cert.Proof.KI.run_main (F := Ideal) m ρ (Cert.Proof.KI.tileObl (F := Ideal) m Cert.Proof.KI.facts (labs_KI m hpre)))
  case frameR =>
    intro m ρ hpre
    exact (θ_run Cert.ReferenceIdeal.defs _ _).mono (fun _ h c => (h c).2)
      (Cert.RefSide.run m ρ (labs_R m hpre))
  case alg =>
    intro m ρ m' ρ' hpre hagree
    refine ⟨fun c => Cert.Proof.KI.vOut m c, ?_, ?_⟩
    · exact (θ_run Cert.KernelIdeal.defs _ _).mono (fun _ h c => h c)
        (Cert.Proof.KI.run_main (F := Ideal) m ρ (Cert.Proof.KI.tileObl (F := Ideal) m Cert.Proof.KI.facts (labs_KI m hpre)))
    · refine (θ_run Cert.ReferenceIdeal.defs _ _).mono (fun _ h c => ⟨(h c).1.trans ?_, (h c).2⟩)
        (Cert.RefSide.run m' ρ' (fun c => (hagree c).2.1 ▸ labs_KI m hpre c))
      rw [(hagree c).1, (hagree c).2.1, (hagree c).2.2]
      rfl⟩

end Cert.Proof

end
